-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S64x1024 : Shape := ⟨2, ![64, 1024]⟩
abbrev S64 : Shape := ⟨1, ![64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x1024 .f32) (main_arg6 : FVec F S64 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1024 .f32 := Host.absf main_arg5
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x4096x1024 .f32) (main_arg1 : FVec F S64x1024 .f32) (main_arg2 : FVec F S64 .f32) (main_arg3 : FVec F S64x1024 .f32) (main_arg4 : FVec F S64 .f32) (main_arg5 : FVec F S64x1024 .f32) (main_arg6 : FVec F S64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_v13 main_v16
-- ==== Kernel.lean ====
abbrev S4x4096x1024 : Shape := ⟨3, ![4, 4096, 1024]⟩
abbrev S64x1024 : Shape := ⟨2, ![64, 1024]⟩
abbrev S64 : Shape := ⟨1, ![64]⟩
abbrev S_ : Shape := ⟨0, ![]⟩
abbrev S1024x64 : Shape := ⟨2, ![1024, 64]⟩
abbrev S1024x256 : Shape := ⟨2, ![1024, 256]⟩
abbrev S256 : Shape := ⟨1, ![256]⟩
abbrev S1x256 : Shape := ⟨2, ![1, 256]⟩
abbrev S4x4096x64 : Shape := ⟨3, ![4, 4096, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1x512x64 : Shape := ⟨3, ![1, 512, 64]⟩
abbrev S1x4096x64 : Shape := ⟨3, ![1, 4096, 64]⟩
abbrev S512x1 : Shape := ⟨2, ![512, 1]⟩
abbrev S512x64 : Shape := ⟨2, ![512, 64]⟩
abbrev S512x512 : Shape := ⟨2, ![512, 512]⟩
abbrev S512 : Shape := ⟨1, ![512]⟩

abbrev nBuf : Space → Nat
  | .hbm => 21
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S64x1024, .f32⟩
  | .hbm, ⟨2, _⟩ => ⟨S64, .f32⟩
  | .hbm, ⟨3, _⟩ => ⟨S64x1024, .f32⟩
  | .hbm, ⟨4, _⟩ => ⟨S64, .f32⟩
  | .hbm, ⟨5, _⟩ => ⟨S64x1024, .f32⟩
  | .hbm, ⟨6, _⟩ => ⟨S64, .f32⟩
  | .hbm, ⟨7, _⟩ => ⟨S_, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S1024x64, .f32⟩
  | .hbm, ⟨12, _⟩ => ⟨S1024x256, .f32⟩
  | .hbm, ⟨13, _⟩ => ⟨S_, .f32⟩
  | .hbm, ⟨14, _⟩ => ⟨S64, .f32⟩
  | .hbm, ⟨15, _⟩ => ⟨S256, .f32⟩
  | .hbm, ⟨16, _⟩ => ⟨S1x256, .f32⟩
  | .hbm, ⟨17, _⟩ => ⟨S4x4096x64, .bf16⟩
  | .hbm, ⟨18, _⟩ => ⟨S4x4096x64, .bf16⟩
  | .hbm, ⟨19, _⟩ => ⟨S4x4096x64, .bf16⟩
  | .hbm, ⟨20, _⟩ => ⟨S4x4096x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x256, .f32⟩
  | .local _ .vmem, ⟨3, _⟩ => ⟨S1x256, .f32⟩
  | .local _ .vmem, ⟨4, _⟩ => ⟨S1x1024x64, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x512x64, .bf16⟩
  | .local _ .vmem, ⟨11, _⟩ => ⟨S1x512x64, .bf16⟩
  | .local _ .vmem, ⟨12, _⟩ => ⟨S1x4096x64, .bf16⟩
  | .local _ .vmem, ⟨13, _⟩ => ⟨S1x4096x64, .bf16⟩
  | .local _ .vmem, ⟨14, _⟩ => ⟨S1x4096x64, .bf16⟩
  | .local _ .vmem, ⟨15, _⟩ => ⟨S1x4096x64, .bf16⟩
  | .local _ .vmem, ⟨16, _⟩ => ⟨S1x512x64, .f32⟩
  | .local _ .vmem, ⟨17, _⟩ => ⟨S1x512x64, .f32⟩
  | .local _ .vmem, ⟨18, _⟩ => ⟨S512x1, .f32⟩
  | .local _ .vmem, ⟨19, _⟩ => ⟨S512x1, .f32⟩
  | .local _ .vmem, ⟨20, _⟩ => ⟨S512x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S1024x64 : S_.BroadcastsInDim S1024x64 (![] : Fin 0 → Fin S1024x64.rank)
  transposes_S64x1024_S1024x64_1_0 : S64x1024.Transposes [1, 0] S1024x64
  concatenates_S1024x64_S1024x64_S1024x64_S1024x64_S1024x256_d1 : Shape.Concatenates [S1024x64, S1024x64, S1024x64, S1024x64] S1024x256 1
  bcast_S_S64 : S_.BroadcastsInDim S64 (![] : Fin 0 → Fin S64.rank)
  concatenates_S64_S64_S64_S64_S256_d0 : Shape.Concatenates [S64, S64, S64, S64] S256 0
  shapeCasts_S256_S1x256 : S256.ShapeCasts S1x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S1024x256_o0_0_S1024x64 : S1024x256.Slices ![0, 0] S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  slices_S1024x256_o0_64_S1024x64 : S1024x256.Slices ![0, 64] S1024x64
  slices_S1024x256_o0_128_S1024x64 : S1024x256.Slices ![0, 128] S1024x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x4096x64_S1x512x64_0_0_0 : ∀ a, (![0, 0, 0] : Fin 3 → Nat) a + S1x512x64.size a ≤ S1x4096x64.size a
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  inb_S1x4096x64_S1x512x64_0_512_0 : ∀ a, (![0, 512, 0] : Fin 3 → Nat) a + S1x512x64.size a ≤ S1x4096x64.size a
  inb_S1x4096x64_S1x512x64_0_1024_0 : ∀ a, (![0, 1024, 0] : Fin 3 → Nat) a + S1x512x64.size a ≤ S1x4096x64.size a
  inb_S1x4096x64_S1x512x64_0_1536_0 : ∀ a, (![0, 1536, 0] : Fin 3 → Nat) a + S1x512x64.size a ≤ S1x4096x64.size a
  inb_S1x4096x64_S1x512x64_0_2048_0 : ∀ a, (![0, 2048, 0] : Fin 3 → Nat) a + S1x512x64.size a ≤ S1x4096x64.size a
  inb_S1x4096x64_S1x512x64_0_2560_0 : ∀ a, (![0, 2560, 0] : Fin 3 → Nat) a + S1x512x64.size a ≤ S1x4096x64.size a
  inb_S1x4096x64_S1x512x64_0_3072_0 : ∀ a, (![0, 3072, 0] : Fin 3 → Nat) a + S1x512x64.size a ≤ S1x4096x64.size a
  inb_S1x4096x64_S1x512x64_0_3584_0 : ∀ a, (![0, 3584, 0] : Fin 3 → Nat) a + S1x512x64.size a ≤ S1x4096x64.size a
  shapeCasts_S512x64_S1x512x64 : S512x64.ShapeCasts S1x512x64
  dot_S1024x1024_S1024x256_S1024x256_1_0_0_1_n_n_wf : DotDims.WF S1024x1024 S1024x256 S1024x256 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S4x4096x64.size a
  hwx0_3 : ∀ i : grid0.Coords, EltTy.bits .bf16 = 32 ∨ (Rect.block (s := S4x4096x64) S1x1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S4x4096x64.size a
  hwx0_4 : ∀ i : grid0.Coords, EltTy.bits .bf16 = 32 ∨ (Rect.block (s := S4x4096x64) S1x1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S4x4096x64.size a
  hwx0_5 : ∀ i : grid0.Coords, EltTy.bits .bf16 = 32 ∨ (Rect.block (s := S4x4096x64) S1x1024x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S4x4096x64.size a
  hwx1_0 : ∀ i : grid1.Coords, EltTy.bits .bf16 = 32 ∨ (Rect.block (s := S4x4096x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S4x4096x64.size a
  hwx1_1 : ∀ i : grid1.Coords, EltTy.bits .bf16 = 32 ∨ (Rect.block (s := S4x4096x64) S1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .bf16 = 32 ∨ (Rect.block (s := S4x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S4x4096x64.size a
  hwx1_3 : ∀ i : grid1.Coords, EltTy.bits .f32 = 32 ∨ (Rect.block (s := S4x4096x64) S1x512x64.size (cc1_transform_3 i) (hinb1_3 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S1x1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S64x1024 : Shape := ⟨2, ![64, 1024]⟩
abbrev S64 : Shape := ⟨1, ![64]⟩
abbrev S4x4096x64 : Shape := ⟨3, ![4, 4096, 64]⟩
abbrev S1x1x64 : Shape := ⟨3, ![1, 1, 64]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S64x1024, .f32⟩
  | .hbm, ⟨2, _⟩ => ⟨S64, .f32⟩
  | .hbm, ⟨3, _⟩ => ⟨S64x1024, .f32⟩
  | .hbm, ⟨4, _⟩ => ⟨S64, .f32⟩
  | .hbm, ⟨5, _⟩ => ⟨S64x1024, .f32⟩
  | .hbm, ⟨6, _⟩ => ⟨S64, .f32⟩
  | .hbm, ⟨7, _⟩ => ⟨S4x4096x64, .f32⟩
  | .hbm, ⟨8, _⟩ => ⟨S1x1x64, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S1x1x64, .f32⟩
  | .hbm, ⟨13, _⟩ => ⟨S4x4096x64, .f32⟩
  | .hbm, ⟨14, _⟩ => ⟨S4x4096x64, .f32⟩
  | .hbm, ⟨15, _⟩ => ⟨S4x4096x64, .f32⟩
  | .hbm, ⟨16, _⟩ => ⟨S1x1x64, .f32⟩
  | .hbm, ⟨17, _⟩ => ⟨S4x4096x64, .f32⟩
  | .hbm, ⟨18, _⟩ => ⟨S4x4096x64, .f32⟩
  | .hbm, ⟨19, _⟩ => ⟨S4x4096x4096, .f32⟩
  | .hbm, ⟨20, _⟩ => ⟨S_, .f32⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S_, .i1⟩
  | .hbm, ⟨25, _⟩ => ⟨S4096x4096, .i1⟩
  | .hbm, ⟨26, _⟩ => ⟨S4096x4096, .i32⟩
  | .hbm, ⟨27, _⟩ => ⟨S_, .i32⟩
  | .hbm, ⟨28, _⟩ => ⟨S4096x4096, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .i1⟩
  | .hbm, ⟨33, _⟩ => ⟨S4096x4096, .i1⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S4x4096x4096, .i1⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S4x4096, .f32⟩
  | .hbm, ⟨42, _⟩ => ⟨S_, .f32⟩
  | .hbm, ⟨43, _⟩ => ⟨S4x4096, .f32⟩
  | .hbm, ⟨44, _⟩ => ⟨S4x4096, .f32⟩
  | .hbm, ⟨45, _⟩ => ⟨S4x4096x1, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S4x4096x4096, .f32⟩
  | .hbm, ⟨53, _⟩ => ⟨S4x4096x4096, .f32⟩
  | .hbm, ⟨54, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_0 : Ref sig .tc := ⟨.hbm, 32, rfl⟩
abbrev main_call0_v5 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S64x1024_S4x4096x64_2_1_01_0_n_n_wf : DotDims.WF S4x4096x1024 S64x1024 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S64x1024_S4x4096x64_2_1_01_0_n_n : DotDims S4x4096x1024 S64x1024 S4x4096x64 where
  lhsContracting := [2]
  rhsContracting := [1]
  lhsNonContracting := [0, 1]
  rhsNonContracting := [0]
  lhsBatch := []
  rhsBatch := []
  wf := dot_S4x4096x1024_S64x1024_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.K.Base.lean ====
import proofs.«181537_j23003844837560_2_alg».proof.Proof.Gen.Kernel.Launch
import proofs.«181537_j23003844837560_2_alg».proof.Proof.Gen.Kernel.Skeleton
import proofs.«181537_j23003844837560_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The buffer contents the two kernel regions are entered from

The program is: ten host operations (three transposed weight matrices and a zero block laid side
by side as one 1024×256 matrix; the three biases and a zero block as one row of 256), then the
projection region, then the attention region. `W0` is a core's buffers at launch, `W1` the same
after the host operations — what the projection region finds.
-/

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- Core `c`'s buffers at launch. -/
abbrev W0 : Dev nD → Valuation τ sig (Elt F) := fun c b => m (c, b)
/-- After the host operations (the projection region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

end Cert.Kernel.Hand

end
-- ==== Proof.K.Proj.lean ====
import proofs.«181537_j23003844837560_2_alg».proof.Proof.K.Base

/-!
# The projection region: what the body leaves, and its obligation

At a parameter `V` — the buffer contents when the region is entered — each window's block at a grid
point, the three output blocks after the body as functions of the three input blocks (tokens, fused
weight matrix, fused bias row), the body's triple, the pipeline's proof data and the body
obligation at every point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_in0 : Rect S1x1024x1024 := Rect.unit (s := S1x1024x1024) ![0, 0, 0] S1x1024x1024.size inb_S1x1024x1024_S1x1024x1024_0_0_0
abbrev r0_in1 : Rect S1024x256 := Rect.unit (s := S1024x256) ![0, 0] S1024x256.size inb_S1024x256_S1024x256_0_0
abbrev r0_in2 : Rect S1x256 := Rect.unit (s := S1x256) ![0, 0] S1x256.size inb_S1x256_S1x256_0_0
abbrev r0_out : Rect S1x1024x64 := Rect.unit (s := S1x1024x64) ![0, 0, 0] S1x1024x64.size inb_S1x1024x64_S1x1024x64_0_0_0

/-! ## What the body leaves in each output window's buffer -/

/-- The query block after the body, from the three input blocks: its one store. -/
def out0_3 (x0 : Vec F S1x1024x1024 .f32) (x1 : Vec F S1024x256 .f32) (x2 : Vec F S1x256 .f32) : Vec F S1x1024x64 .bf16 :=
  View.canon [⟨r0_out, k0_pay2 (View.ld x0 r0_in0) (View.ld x1 r0_in1) (View.ld x2 r0_in2)⟩]
/-- The key block after the body. -/
def out0_4 (x0 : Vec F S1x1024x1024 .f32) (x1 : Vec F S1024x256 .f32) (x2 : Vec F S1x256 .f32) : Vec F S1x1024x64 .bf16 :=
  View.canon [⟨r0_out, k0_pay3 (View.ld x0 r0_in0) (View.ld x1 r0_in1) (View.ld x2 r0_in2)⟩]
/-- The value block after the body. -/
def out0_5 (x0 : Vec F S1x1024x1024 .f32) (x1 : Vec F S1024x256 .f32) (x2 : Vec F S1x256 .f32) : Vec F S1x1024x64 .bf16 :=
  View.canon [⟨r0_out, k0_pay4 (View.ld x0 r0_in0) (View.ld x1 r0_in1) (View.ld x2 r0_in2)⟩]

/-- The one store is of the whole buffer, so it covers it. -/
theorem cover0_out (p0 : Vec F S1x1024x64 .bf16) (y : S1x1024x64.Idx) :
    ∃ pc ∈ ([⟨r0_out, p0⟩] : List (View.Piece (Elt F) S1x1024x64 .bf16)), y ∈ pc.1.set :=
  View.cover_of_tiled [⟨r0_out, p0⟩] S1x1024x64.size (by rfl) y

/-! ## The body's triple -/

set_option maxHeartbeats 1000000 in
/-- The kernel body on whole staging memrefs, the inputs' at read contents and the outputs' at anything, runs to
    the continuation holding the inputs' as they were and each output's at `out0_w` of the inputs'. -/
theorem sound_kernel0 (c : Dev nD) (E : Set ℕ) (i : grid0.Coords)
    (arg2 : Memref sig .tc .vmem S1x1024x1024 .f32) (harg2 : arg2.IsWhole) (arg3 : Memref sig .tc .vmem S1024x256 .f32) (harg3 : arg3.IsWhole)
    (arg4 : Memref sig .tc .vmem S1x256 .f32) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .bf16) (harg7 : arg7.IsWhole)
    (x0 : Vec F S1x1024x1024 .f32) (x1 : Vec F S1024x256 .f32) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__proj_kernel i arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-! ## The pipeline's proof data -/

/-- The proof data of the projection pipeline on core `c`: the arrays as the region finds them (`V`); after the
    body at point `t` each input's buffer at its block and each output's at `out0_w` of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.AttnRuns.lean ====
import proofs.«181537_j23003844837560_2_alg».proof.Proof.K.Base

/-!
# What the attention region's runs share

The attention body visits key tile `k` (512 key positions) only when `k` is at most the query
block's number `qi` (the second grid coordinate): eight guarded updates, so eight control cases,
one per value of `qi`. Here: the eight conditions decided over the grid, the windows' blocks as
the region finds them, the staging and scratch memrefs, and the region's invariant opened to the
three scratch buffers (running maximum, running denominator, running numerator), which every point
initialises before it reads them, so they are held at unnamed contents between points.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- Key tile 0 is visited when the query block's number is at least 0: the body's branch condition, from the grid coordinates. -/
abbrev cond1_0 (i : grid1.Coords) : Prop := (Scalar.cmpi .ne (Scalar.extui (Scalar.cmpi .sge (BitVec.ofNat 32 (i 1).val) 0#32)) 0#32) = 1#1
/-- It holds at the points whose query block number (the point's position modulo 8) is at least 0 — decided over the grid. -/
theorem hcond1_0 : ∀ t : Fin cfg1.N, cond1_0 (grid1.coords t) ↔ 0 ≤ t.val % 8 :=
  (by decide +kernel : ∀ t : Fin grid1.N, cond1_0 (grid1.coords t) ↔ 0 ≤ t.val % 8)

/-- Key tile 1 is visited when the query block's number is at least 1: the body's branch condition, from the grid coordinates. -/
abbrev cond1_1 (i : grid1.Coords) : Prop := (Scalar.cmpi .ne (Scalar.extui (Scalar.cmpi .sge (BitVec.ofNat 32 (i 1).val) 1#32)) 0#32) = 1#1
/-- It holds at the points whose query block number (the point's position modulo 8) is at least 1 — decided over the grid. -/
theorem hcond1_1 : ∀ t : Fin cfg1.N, cond1_1 (grid1.coords t) ↔ 1 ≤ t.val % 8 :=
  (by decide +kernel : ∀ t : Fin grid1.N, cond1_1 (grid1.coords t) ↔ 1 ≤ t.val % 8)

/-- Key tile 2 is visited when the query block's number is at least 2: the body's branch condition, from the grid coordinates. -/
abbrev cond1_2 (i : grid1.Coords) : Prop := (Scalar.cmpi .ne (Scalar.extui (Scalar.cmpi .sge (BitVec.ofNat 32 (i 1).val) 2#32)) 0#32) = 1#1
/-- It holds at the points whose query block number (the point's position modulo 8) is at least 2 — decided over the grid. -/
theorem hcond1_2 : ∀ t : Fin cfg1.N, cond1_2 (grid1.coords t) ↔ 2 ≤ t.val % 8 :=
  (by decide +kernel : ∀ t : Fin grid1.N, cond1_2 (grid1.coords t) ↔ 2 ≤ t.val % 8)

/-- Key tile 3 is visited when the query block's number is at least 3: the body's branch condition, from the grid coordinates. -/
abbrev cond1_3 (i : grid1.Coords) : Prop := (Scalar.cmpi .ne (Scalar.extui (Scalar.cmpi .sge (BitVec.ofNat 32 (i 1).val) 3#32)) 0#32) = 1#1
/-- It holds at the points whose query block number (the point's position modulo 8) is at least 3 — decided over the grid. -/
theorem hcond1_3 : ∀ t : Fin cfg1.N, cond1_3 (grid1.coords t) ↔ 3 ≤ t.val % 8 :=
  (by decide +kernel : ∀ t : Fin grid1.N, cond1_3 (grid1.coords t) ↔ 3 ≤ t.val % 8)

/-- Key tile 4 is visited when the query block's number is at least 4: the body's branch condition, from the grid coordinates. -/
abbrev cond1_4 (i : grid1.Coords) : Prop := (Scalar.cmpi .ne (Scalar.extui (Scalar.cmpi .sge (BitVec.ofNat 32 (i 1).val) 4#32)) 0#32) = 1#1
/-- It holds at the points whose query block number (the point's position modulo 8) is at least 4 — decided over the grid. -/
theorem hcond1_4 : ∀ t : Fin cfg1.N, cond1_4 (grid1.coords t) ↔ 4 ≤ t.val % 8 :=
  (by decide +kernel : ∀ t : Fin grid1.N, cond1_4 (grid1.coords t) ↔ 4 ≤ t.val % 8)

/-- Key tile 5 is visited when the query block's number is at least 5: the body's branch condition, from the grid coordinates. -/
abbrev cond1_5 (i : grid1.Coords) : Prop := (Scalar.cmpi .ne (Scalar.extui (Scalar.cmpi .sge (BitVec.ofNat 32 (i 1).val) 5#32)) 0#32) = 1#1
/-- It holds at the points whose query block number (the point's position modulo 8) is at least 5 — decided over the grid. -/
theorem hcond1_5 : ∀ t : Fin cfg1.N, cond1_5 (grid1.coords t) ↔ 5 ≤ t.val % 8 :=
  (by decide +kernel : ∀ t : Fin grid1.N, cond1_5 (grid1.coords t) ↔ 5 ≤ t.val % 8)

/-- Key tile 6 is visited when the query block's number is at least 6: the body's branch condition, from the grid coordinates. -/
abbrev cond1_6 (i : grid1.Coords) : Prop := (Scalar.cmpi .ne (Scalar.extui (Scalar.cmpi .sge (BitVec.ofNat 32 (i 1).val) 6#32)) 0#32) = 1#1
/-- It holds at the points whose query block number (the point's position modulo 8) is at least 6 — decided over the grid. -/
theorem hcond1_6 : ∀ t : Fin cfg1.N, cond1_6 (grid1.coords t) ↔ 6 ≤ t.val % 8 :=
  (by decide +kernel : ∀ t : Fin grid1.N, cond1_6 (grid1.coords t) ↔ 6 ≤ t.val % 8)

/-- Key tile 7 is visited when the query block's number is at least 7: the body's branch condition, from the grid coordinates. -/
abbrev cond1_7 (i : grid1.Coords) : Prop := (Scalar.cmpi .ne (Scalar.extui (Scalar.cmpi .sge (BitVec.ofNat 32 (i 1).val) 7#32)) 0#32) = 1#1
/-- It holds at the points whose query block number (the point's position modulo 8) is at least 7 — decided over the grid. -/
theorem hcond1_7 : ∀ t : Fin cfg1.N, cond1_7 (grid1.coords t) ↔ 7 ≤ t.val % 8 :=
  (by decide +kernel : ∀ t : Fin grid1.N, cond1_7 (grid1.coords t) ↔ 7 ≤ t.val % 8)

/-! ## The windows' blocks, at the entry contents `V` -/

section
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the key and
    value windows are fetched only when the batch changes: the index has not moved in between). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The memrefs the body is called with -/

/-- One staging buffer of the output window, through which its contents are stated. -/
abbrev VO1_3 : View sig .tc .vmem S1x512x64 .f32 := (Memref.whole cc1_stg3_0 : Memref sig .tc .vmem S1x512x64 .f32).view
/-- Each window's current staging memref at point `t`, as the pipeline passes it, and its wholeness. -/
abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .f32 := win1_3.stage (cfg1.slots t 3)
abbrev hs1_3 (t : Fin cfg1.N) : (ms1_3 t).IsWhole := hstage1_3 ((cfg1.slots t 3).cast nbuf1_3)
/-- The scratch operands: running maximum, running denominator, running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x64 .f32 := Memref.whole cc1_scratch2

/-! ## The region's invariant, opened -/

/-- The region's invariant: the scoped buffers that are no staging buffer of this region — the projection region's ten
    staging buffers at some contents, and the three scratch operands as memrefs owned at some contents — beside the
    generator register at some state. What the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.K.AttnRun0.lean ====
import proofs.«181537_j23003844837560_2_alg».proof.Proof.K.AttnRuns

/-!
# The attention body's run when the query block is number 0

With the query block's number 0, the body initialises the running maximum, denominator and
numerator, visits key tiles 0 … 0 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 0 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q0 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Hand

end
-- ==== Proof.K.AttnRun1.lean ====
import proofs.«181537_j23003844837560_2_alg».proof.Proof.K.AttnRuns

/-!
# The attention body's run when the query block is number 1

With the query block's number 1, the body initialises the running maximum, denominator and
numerator, visits key tiles 0 … 1 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 1 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q1 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Hand

end
-- ==== Proof.K.AttnRun2.lean ====
import proofs.«181537_j23003844837560_2_alg».proof.Proof.K.AttnRuns

/-!
# The attention body's run when the query block is number 2

With the query block's number 2, the body initialises the running maximum, denominator and
numerator, visits key tiles 0 … 2 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 2 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q2 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Hand

end
-- ==== Proof.K.AttnRun3.lean ====
import proofs.«181537_j23003844837560_2_alg».proof.Proof.K.AttnRuns

/-!
# The attention body's run when the query block is number 3

With the query block's number 3, the body initialises the running maximum, denominator and
numerator, visits key tiles 0 … 3 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 3 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Hand

end
-- ==== Proof.K.AttnRun4.lean ====
import proofs.«181537_j23003844837560_2_alg».proof.Proof.K.AttnRuns

/-!
# The attention body's run when the query block is number 4

With the query block's number 4, the body initialises the running maximum, denominator and
numerator, visits key tiles 0 … 4 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 4 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q4 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Hand

end
-- ==== Proof.K.AttnRun5.lean ====
import proofs.«181537_j23003844837560_2_alg».proof.Proof.K.AttnRuns

/-!
# The attention body's run when the query block is number 5

With the query block's number 5, the body initialises the running maximum, denominator and
numerator, visits key tiles 0 … 5 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 5 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q5 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Hand

end
-- ==== Proof.K.AttnRun6.lean ====
import proofs.«181537_j23003844837560_2_alg».proof.Proof.K.AttnRuns

/-!
# The attention body's run when the query block is number 6

With the query block's number 6, the body initialises the running maximum, denominator and
numerator, visits key tiles 0 … 6 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 6 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q6 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Hand

end
-- ==== Proof.K.AttnRun7.lean ====
import proofs.«181537_j23003844837560_2_alg».proof.Proof.K.AttnRuns

/-!
# The attention body's run when the query block is number 7

With the query block's number 7, the body initialises the running maximum, denominator and
numerator, visits key tiles 0 … 7 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 7 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q7 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Hand

end
-- ==== Proof.K.Attn.lean ====
import proofs.«181537_j23003844837560_2_alg».proof.Proof.K.AttnRun0
import proofs.«181537_j23003844837560_2_alg».proof.Proof.K.AttnRun1
import proofs.«181537_j23003844837560_2_alg».proof.Proof.K.AttnRun2
import proofs.«181537_j23003844837560_2_alg».proof.Proof.K.AttnRun3
import proofs.«181537_j23003844837560_2_alg».proof.Proof.K.AttnRun4
import proofs.«181537_j23003844837560_2_alg».proof.Proof.K.AttnRun5
import proofs.«181537_j23003844837560_2_alg».proof.Proof.K.AttnRun6
import proofs.«181537_j23003844837560_2_alg».proof.Proof.K.AttnRun7

/-!
# The attention region: what each point leaves, the proof data, the body obligation

Point `t` of the attention region's grid (4 batches × 8 query blocks) has query block number
`t mod 8`, which selects the body's control case; the output block after the body is that case's
pieces read back, a function of the point's query, key and value blocks. The three scratch buffers
are initialised by every point before it reads them, so the region's invariant holds them at
unnamed contents, the same before and after every point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output block -/

/-- The pieces of the case "query block 0" cover the output block (one whole-block store). -/
theorem cover1_q0_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q0 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q0 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 0" leaves in the output block: its pieces read back. -/
def out1_q0_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q0 c i arg2 harg2 arg3 harg3 arg4 harg4 arg5 harg5 arg6 harg6 arg7 harg7 arg8 harg8 hc0 hc1 hc2 hc3 hc4 hc5 hc6 hc7 x0 x1 x2).1)

/-- The pieces of the case "query block 1" cover the output block (one whole-block store). -/
theorem cover1_q1_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q1 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q1 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 1" leaves in the output block: its pieces read back. -/
def out1_q1_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q1 c i arg2 harg2 arg3 harg3 arg4 harg4 arg5 harg5 arg6 harg6 arg7 harg7 arg8 harg8 hc0 hc1 hc2 hc3 hc4 hc5 hc6 hc7 x0 x1 x2).1)

/-- The pieces of the case "query block 2" cover the output block (one whole-block store). -/
theorem cover1_q2_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q2 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q2 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 2" leaves in the output block: its pieces read back. -/
def out1_q2_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q2 c i arg2 harg2 arg3 harg3 arg4 harg4 arg5 harg5 arg6 harg6 arg7 harg7 arg8 harg8 hc0 hc1 hc2 hc3 hc4 hc5 hc6 hc7 x0 x1 x2).1)

/-- The pieces of the case "query block 3" cover the output block (one whole-block store). -/
theorem cover1_q3_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q3 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q3 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 3" leaves in the output block: its pieces read back. -/
def out1_q3_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q3 c i arg2 harg2 arg3 harg3 arg4 harg4 arg5 harg5 arg6 harg6 arg7 harg7 arg8 harg8 hc0 hc1 hc2 hc3 hc4 hc5 hc6 hc7 x0 x1 x2).1)

/-- The pieces of the case "query block 4" cover the output block (one whole-block store). -/
theorem cover1_q4_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q4 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q4 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 4" leaves in the output block: its pieces read back. -/
def out1_q4_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q4 c i arg2 harg2 arg3 harg3 arg4 harg4 arg5 harg5 arg6 harg6 arg7 harg7 arg8 harg8 hc0 hc1 hc2 hc3 hc4 hc5 hc6 hc7 x0 x1 x2).1)

/-- The pieces of the case "query block 5" cover the output block (one whole-block store). -/
theorem cover1_q5_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q5 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q5 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 5" leaves in the output block: its pieces read back. -/
def out1_q5_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q5 c i arg2 harg2 arg3 harg3 arg4 harg4 arg5 harg5 arg6 harg6 arg7 harg7 arg8 harg8 hc0 hc1 hc2 hc3 hc4 hc5 hc6 hc7 x0 x1 x2).1)

/-- The pieces of the case "query block 6" cover the output block (one whole-block store). -/
theorem cover1_q6_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q6 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q6 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 6" leaves in the output block: its pieces read back. -/
def out1_q6_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q6 c i arg2 harg2 arg3 harg3 arg4 harg4 arg5 harg5 arg6 harg6 arg7 harg7 arg8 harg8 hc0 hc1 hc2 hc3 hc4 hc5 hc6 hc7 x0 x1 x2).1)

/-- The pieces of the case "query block 7" cover the output block (one whole-block store). -/
theorem cover1_q7_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x512x64 .bf16) (x1 : Vec F S1x4096x64 .bf16) (x2 : Vec F S1x4096x64 .bf16) (y : S1x512x64.Idx) :
    ∃ pc ∈ (kernelRun1_q7 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q7 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 7" leaves in the output block: its pieces read back. -/
def out1_q7_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q7 c i arg2 harg2 arg3 harg3 arg4 harg4 arg5 harg5 arg6 harg6 arg7 harg7 arg8 harg8 hc0 hc1 hc2 hc3 hc4 hc5 hc6 hc7 x0 x1 x2).1)

/-! ## What the output block holds after each point -/

section
variable (V : (c : Dev nD) → (b : Ref sig .tc) → Buf (Elt F) ((c : Thread nD τ).loc b))

/-- The output block after point `t` when its query block number is 0: that case at the point's memrefs and blocks. -/
def outCase_0 (c : Dev nD) (t : Fin cfg1.N) (hq : t.val % 8 = 0) : Vec F S1x512x64 .f32 :=
  out1_q0_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) (fun h => absurd ((hcond1_1 t).mp h) (by omega)) (fun h => absurd ((hcond1_2 t).mp h) (by omega)) (fun h => absurd ((hcond1_3 t).mp h) (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)

/-- The output block after point `t` when its query block number is 1: that case at the point's memrefs and blocks. -/
def outCase_1 (c : Dev nD) (t : Fin cfg1.N) (hq : t.val % 8 = 1) : Vec F S1x512x64 .f32 :=
  out1_q1_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) (fun h => absurd ((hcond1_2 t).mp h) (by omega)) (fun h => absurd ((hcond1_3 t).mp h) (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)

/-- The output block after point `t` when its query block number is 2: that case at the point's memrefs and blocks. -/
def outCase_2 (c : Dev nD) (t : Fin cfg1.N) (hq : t.val % 8 = 2) : Vec F S1x512x64 .f32 :=
  out1_q2_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) ((hcond1_2 t).mpr (by omega)) (fun h => absurd ((hcond1_3 t).mp h) (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)

/-- The output block after point `t` when its query block number is 3: that case at the point's memrefs and blocks. -/
def outCase_3 (c : Dev nD) (t : Fin cfg1.N) (hq : t.val % 8 = 3) : Vec F S1x512x64 .f32 :=
  out1_q3_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) ((hcond1_2 t).mpr (by omega)) ((hcond1_3 t).mpr (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)

/-- The output block after point `t` when its query block number is 4: that case at the point's memrefs and blocks. -/
def outCase_4 (c : Dev nD) (t : Fin cfg1.N) (hq : t.val % 8 = 4) : Vec F S1x512x64 .f32 :=
  out1_q4_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) ((hcond1_2 t).mpr (by omega)) ((hcond1_3 t).mpr (by omega)) ((hcond1_4 t).mpr (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)

/-- The output block after point `t` when its query block number is 5: that case at the point's memrefs and blocks. -/
def outCase_5 (c : Dev nD) (t : Fin cfg1.N) (hq : t.val % 8 = 5) : Vec F S1x512x64 .f32 :=
  out1_q5_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) ((hcond1_2 t).mpr (by omega)) ((hcond1_3 t).mpr (by omega)) ((hcond1_4 t).mpr (by omega)) ((hcond1_5 t).mpr (by omega)) (fun h => absurd ((hcond1_6 t).mp h) (by omega)) (fun h => absurd ((hcond1_7 t).mp h) (by omega)) (iblk1 V c 0 t) (iblk1 V c 1 t) (iblk1 V c 2 t)

/-- The output block after point `t` when its query block number is 6: that case at the point's memrefs and blocks. -/
def outCase_6 (c : Dev nD) (t : Fin cfg1.N) (hq : t.val % 8 = 6) : Vec F S1x512x64 .f32 :=
  out1_q6_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) ((hcond1_2 t).mpr (by omega)) ((hcond1_3 t).mpr (by omega)) ((hcond1_4 t).mpr (by omega)) ((hcond1_5 t).mpr (by omega)) ((hcond1_6 t).mpr (by omega)) (fun h => absurd ((hcond1_7 t).mp h) (by omega)) (iblk1 V c 0 t) (iblk1 V c 1 t) (iblk1 V c 2 t)

/-- The output block after point `t` when its query block number is 7: that case at the point's memrefs and blocks. -/
def outCase_7 (c : Dev nD) (t : Fin cfg1.N) (hq : t.val % 8 = 7) : Vec F S1x512x64 .f32 :=
  out1_q7_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) ((hcond1_2 t).mpr (by omega)) ((hcond1_3 t).mpr (by omega)) ((hcond1_4 t).mpr (by omega)) ((hcond1_5 t).mpr (by omega)) ((hcond1_6 t).mpr (by omega)) ((hcond1_7 t).mpr (by omega)) (iblk1 V c 0 t) (iblk1 V c 1 t) (iblk1 V c 2 t)

/-- The output block after point `t`: the case its query block number `t mod 8` selects. -/
def outAt1 (c : Dev nD) (t : Fin cfg1.N) : Vec F S1x512x64 .f32 :=
  if h0 : t.val % 8 = 0 then outCase_0 V c t h0
  else if h1 : t.val % 8 = 1 then outCase_1 V c t h1
  else if h2 : t.val % 8 = 2 then outCase_2 V c t h2
  else if h3 : t.val % 8 = 3 then outCase_3 V c t h3
  else if h4 : t.val % 8 = 4 then outCase_4 V c t h4
  else if h5 : t.val % 8 = 5 then outCase_5 V c t h5
  else if h6 : t.val % 8 = 6 then outCase_6 V c t h6
  else outCase_7 V c t (by omega)

theorem outAt1_q0 (c : Dev nD) (t : Fin cfg1.N) (hq : t.val % 8 = 0) : outAt1 V c t = outCase_0 V c t hq := by
  unfold outAt1
  rw [dif_pos hq]

theorem outAt1_q1 (c : Dev nD) (t : Fin cfg1.N) (hq : t.val % 8 = 1) : outAt1 V c t = outCase_1 V c t hq := by
  unfold outAt1
  rw [dif_neg (by omega), dif_pos hq]

theorem outAt1_q2 (c : Dev nD) (t : Fin cfg1.N) (hq : t.val % 8 = 2) : outAt1 V c t = outCase_2 V c t hq := by
  unfold outAt1
  rw [dif_neg (by omega), dif_neg (by omega), dif_pos hq]

theorem outAt1_q3 (c : Dev nD) (t : Fin cfg1.N) (hq : t.val % 8 = 3) : outAt1 V c t = outCase_3 V c t hq := by
  unfold outAt1
  rw [dif_neg (by omega), dif_neg (by omega), dif_neg (by omega), dif_pos hq]

theorem outAt1_q4 (c : Dev nD) (t : Fin cfg1.N) (hq : t.val % 8 = 4) : outAt1 V c t = outCase_4 V c t hq := by
  unfold outAt1
  rw [dif_neg (by omega), dif_neg (by omega), dif_neg (by omega), dif_neg (by omega), dif_pos hq]

theorem outAt1_q5 (c : Dev nD) (t : Fin cfg1.N) (hq : t.val % 8 = 5) : outAt1 V c t = outCase_5 V c t hq := by
  unfold outAt1
  rw [dif_neg (by omega), dif_neg (by omega), dif_neg (by omega), dif_neg (by omega), dif_neg (by omega), dif_pos hq]

theorem outAt1_q6 (c : Dev nD) (t : Fin cfg1.N) (hq : t.val % 8 = 6) : outAt1 V c t = outCase_6 V c t hq := by
  unfold outAt1
  rw [dif_neg (by omega), dif_neg (by omega), dif_neg (by omega), dif_neg (by omega), dif_neg (by omega), dif_neg (by omega), dif_pos hq]

theorem outAt1_q7 (c : Dev nD) (t : Fin cfg1.N) (hq : t.val % 8 = 7) : outAt1 V c t = outCase_7 V c t hq := by
  unfold outAt1
  rw [dif_neg (by omega), dif_neg (by omega), dif_neg (by omega), dif_neg (by omega), dif_neg (by omega), dif_neg (by omega), dif_neg (by omega)]

/-! ## The pipeline's proof data -/

/-- The proof data of the attention pipeline on core `c`: the arrays as the region finds them (`V`); after the body at
    point `t` each input's buffer at its block and the output's at `outAt1`; the invariant the scoped rest and the
    generator register, unchanged; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4800000 in
/-- The body at any point: the inputs' memrefs hold their blocks; the point's query block number says which case it is
    in; that case's run applies; the invariant lends the three scratch buffers at whatever they hold and takes them back
    at whatever the body leaves; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  have hlt : t.val % 8 < 8 := Nat.mod_lt _ (by decide)
  rcases (show t.val % 8 = 0 ∨ t.val % 8 = 1 ∨ t.val % 8 = 2 ∨ t.val % 8 = 3 ∨ t.val % 8 = 4 ∨ t.val % 8 = 5 ∨ t.val % 8 = 6 ∨ t.val % 8 = 7 from by omega) with hq | hq | hq | hq | hq | hq | hq | hq
  · rw [outAt1_q0 V c t hq]; unfold outCase_0 out1_q0_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q0 c (grid1.coords t) _ _ _ _ _ _ _ _ _ _ _ _ _ _ ((hcond1_0 t).mpr (by omega)) (fun h => absurd ((hcond1_1 t).mp h) (by omega)) (fun h => absurd ((hcond1_2 t).mp h) (by omega)) (fun h => absurd ((hcond1_3 t).mp h) (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q0_3 c _ _ _ _ _ _ _ _ _ _ _ _ _ _ _ _ _ _ _ _ _ _ _ _ _ _)
  · rw [outAt1_q1 V c t hq]; unfold outCase_1 out1_q1_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q1 c (grid1.coords t) _ _ _ _ _ _ _ _ _ _ _ _ _ _ ((hcond1_0 t).mpr (by omega)) ((hcond1_1 t).mpr (by omega)) (fun h => absurd ((hcond1_2 t).mp h) (by omega)) (fun h => absurd ((hcond1_3 t).mp h) (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q1_3 c _ _ _ _ _ _ _ _ _ _ _ _ _ _ _ _ _ _ _ _ _ _ _ _ _ _)
  · rw [outAt1_q2 V c t hq]; unfold outCase_2 out1_q2_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q2 c (grid1.coords t) _ _ _ _ _ _ _ _ _ _ _ _ _ _ ((hcond1_0 t).mpr (by omega)) ((hcond1_1 t).mpr (by omega)) ((hcond1_2 t).mpr (by omega)) (fun h => absurd ((hcond1_3 t).mp h) (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q2_3 c _ _ _ _ _ _ _ _ _ _ _ _ _ _ _ _ _ _ _ _ _ _ _ _ _ _)
  · rw [outAt1_q3 V c t hq]; unfold outCase_3 out1_q3_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q3 c (grid1.coords t) _ _ _ _ _ _ _ _ _ _ _ _ _ _ ((hcond1_0 t).mpr (by omega)) ((hcond1_1 t).mpr (by omega)) ((hcond1_2 t).mpr (by omega)) ((hcond1_3 t).mpr (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q3_3 c _ _ _ _ _ _ _ _ _ _ _ _ _ _ _ _ _ _ _ _ _ _ _ _ _ _)
  · rw [outAt1_q4 V c t hq]; unfold outCase_4 out1_q4_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q4 c (grid1.coords t) _ _ _ _ _ _ _ _ _ _ _ _ _ _ ((hcond1_0 t).mpr (by omega)) ((hcond1_1 t).mpr (by omega)) ((hcond1_2 t).mpr (by omega)) ((hcond1_3 t).mpr (by omega)) ((hcond1_4 t).mpr (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q4_3 c _ _ _ _ _ _ _ _ _ _ _ _ _ _ _ _ _ _ _ _ _ _ _ _ _ _)
  · rw [outAt1_q5 V c t hq]; unfold outCase_5 out1_q5_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q5 c (grid1.coords t) _ _ _ _ _ _ _ _ _ _ _ _ _ _ ((hcond1_0 t).mpr (by omega)) ((hcond1_1 t).mpr (by omega)) ((hcond1_2 t).mpr (by omega)) ((hcond1_3 t).mpr (by omega)) ((hcond1_4 t).mpr (by omega)) ((hcond1_5 t).mpr (by omega)) (fun h => absurd ((hcond1_6 t).mp h) (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q5_3 c _ _ _ _ _ _ _ _ _ _ _ _ _ _ _ _ _ _ _ _ _ _ _ _ _ _)
  · rw [outAt1_q6 V c t hq]; unfold outCase_6 out1_q6_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q6 c (grid1.coords t) _ _ _ _ _ _ _ _ _ _ _ _ _ _ ((hcond1_0 t).mpr (by omega)) ((hcond1_1 t).mpr (by omega)) ((hcond1_2 t).mpr (by omega)) ((hcond1_3 t).mpr (by omega)) ((hcond1_4 t).mpr (by omega)) ((hcond1_5 t).mpr (by omega)) ((hcond1_6 t).mpr (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q6_3 c _ _ _ _ _ _ _ _ _ _ _ _ _ _ _ _ _ _ _ _ _ _ _ _ _ _)
  · rw [outAt1_q7 V c t hq]; unfold outCase_7 out1_q7_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q7 c (grid1.coords t) _ _ _ _ _ _ _ _ _ _ _ _ _ _ ((hcond1_0 t).mpr (by omega)) ((hcond1_1 t).mpr (by omega)) ((hcond1_2 t).mpr (by omega)) ((hcond1_3 t).mpr (by omega)) ((hcond1_4 t).mpr (by omega)) ((hcond1_5 t).mpr (by omega)) ((hcond1_6 t).mpr (by omega)) ((hcond1_7 t).mpr (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q7_3 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
import proofs.«181537_j23003844837560_2_alg».proof.Proof.K.Proj
import proofs.«181537_j23003844837560_2_alg».proof.Proof.K.Attn

/-!
# The kernel program's run

@main is ten host operations, the projection region, the attention region. The buffer contents
at each boundary are a fold from the launch memory: `W1` after the host operations, `W2` after the
projection region (its three output arrays at what its write-backs leave, every other buffer as
entered), `W3` after the attention region (likewise). Each region is a segment whose body
obligation is that region's; the launch theorem for a list of segments gives: every weakly fair
execution terminates, nothing faulting, with every unscoped buffer at `W3`. Read at the result
and at the seven arguments: the result is the attention pipeline's output array, and no host
operation and no region writes an argument.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At the projection region's exit: its arrays at what the pipeline leaves (the inputs as entered, each output's
    write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (what the attention region's proof data take). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the attention region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No host operation writes an argument -/

theorem W1_main_arg0 (c : Dev nD) : W1 m c (Proc.devRef .tc main_arg0) = W0 m c (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

theorem W1_main_arg1 (c : Dev nD) : W1 m c (Proc.devRef .tc main_arg1) = W0 m c (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

theorem W1_main_arg2 (c : Dev nD) : W1 m c (Proc.devRef .tc main_arg2) = W0 m c (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

theorem W1_main_arg3 (c : Dev nD) : W1 m c (Proc.devRef .tc main_arg3) = W0 m c (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

theorem W1_main_arg4 (c : Dev nD) : W1 m c (Proc.devRef .tc main_arg4) = W0 m c (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

theorem W1_main_arg5 (c : Dev nD) : W1 m c (Proc.devRef .tc main_arg5) = W0 m c (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

theorem W1_main_arg6 (c : Dev nD) : W1 m c (Proc.devRef .tc main_arg6) = W0 m c (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

/-! ## The arguments end as launched, and the result is the attention pipeline's output array -/

/-- The tokens are the projection region's first input window's array: the pipeline leaves an input as entered. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_main_arg0 m c
    _ = m ((c : Thread nD τ).loc main_arg0) := rfl
/-- `main_arg1` is no window's array of either region, and no host operation writes it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_main_arg1 m c
    _ = m ((c : Thread nD τ).loc main_arg1) := rfl
/-- `main_arg2` is no window's array of either region, and no host operation writes it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_main_arg2 m c
    _ = m ((c : Thread nD τ).loc main_arg2) := rfl
/-- `main_arg3` is no window's array of either region, and no host operation writes it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_main_arg3 m c
    _ = m ((c : Thread nD τ).loc main_arg3) := rfl
/-- `main_arg4` is no window's array of either region, and no host operation writes it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_main_arg4 m c
    _ = m ((c : Thread nD τ).loc main_arg4) := rfl
/-- `main_arg5` is no window's array of either region, and no host operation writes it. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_main_arg5 m c
    _ = m ((c : Thread nD τ).loc main_arg5) := rfl
/-- `main_arg6` is no window's array of either region, and no host operation writes it. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := W1_main_arg6 m c
    _ = m ((c : Thread nD τ).loc main_arg6) := rfl

/-- The result buffer is the attention region's output window's array. -/
theorem W3_main_v9 (c : Dev nD) : W3 m c (Proc.devRef .tc main_v9) = (dat1 (V2 m) c).arrAt 3 cfg1.N :=
  W3_arr m c 3

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline's write-backs leave; the
    generator register goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline's write-backs leave; the
    generator register goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch, then a region per pallas_call. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main IS the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final state has the result buffer at the attention
    pipeline's output array and the seven argument arrays as launched. -/
theorem run_full : θ_run defs (onTc (τ := τ) (main (F := F))) ⟨m, fun _ => 0, ρ⟩ (fun r => ∀ c : Dev nD,
      r.2.mem ((c.tc : Thread nD τ).loc main_v9) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v9 (by decide))).trans (W3_main_v9 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c),
       (h c _ (mem_uc main_arg6 (by decide))).trans (W3_main_arg6 m c)⟩)

/-- THE FRAME: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_full m ρ)

end Cert.Kernel.Hand

end
-- ==== Proof.KI.Base.lean ====
import proofs.«181537_j23003844837560_2_alg».proof.Proof.Gen.KernelIdeal.Launch
import proofs.«181537_j23003844837560_2_alg».proof.Proof.Gen.KernelIdeal.Skeleton
import proofs.«181537_j23003844837560_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The buffer contents the two kernel regions are entered from

The program is: ten host operations (three transposed weight matrices and a zero block laid side
by side as one 1024×256 matrix; the three biases and a zero block as one row of 256), then the
projection region, then the attention region. `W0` is a core's buffers at launch, `W1` the same
after the host operations — what the projection region finds.
-/

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

variable (m : (ℓ : Loc nD τ sig) → Buf (Elt F) ℓ)

/-- Core `c`'s buffers at launch. -/
abbrev W0 : Dev nD → Valuation τ sig (Elt F) := fun c b => m (c, b)
/-- After the host operations (the projection region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b

end Cert.KernelIdeal.Hand

end
-- ==== Proof.KI.Proj.lean ====
import proofs.«181537_j23003844837560_2_alg».proof.Proof.KI.Base

/-!
# The projection region: what the body leaves, and its obligation

At a parameter `V` — the buffer contents when the region is entered — each window's block at a grid
point, the three output blocks after the body as functions of the three input blocks (tokens, fused
weight matrix, fused bias row), the body's triple, the pipeline's proof data and the body
obligation at every point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev r0_in0 : Rect S1x1024x1024 := Rect.unit (s := S1x1024x1024) ![0, 0, 0] S1x1024x1024.size inb_S1x1024x1024_S1x1024x1024_0_0_0
abbrev r0_in1 : Rect S1024x256 := Rect.unit (s := S1024x256) ![0, 0] S1024x256.size inb_S1024x256_S1024x256_0_0
abbrev r0_in2 : Rect S1x256 := Rect.unit (s := S1x256) ![0, 0] S1x256.size inb_S1x256_S1x256_0_0
abbrev r0_out : Rect S1x1024x64 := Rect.unit (s := S1x1024x64) ![0, 0, 0] S1x1024x64.size inb_S1x1024x64_S1x1024x64_0_0_0

/-! ## What the body leaves in each output window's buffer -/

/-- The query block after the body, from the three input blocks: its one store. -/
def out0_3 (x0 : Vec F S1x1024x1024 .f32) (x1 : Vec F S1024x256 .f32) (x2 : Vec F S1x256 .f32) : Vec F S1x1024x64 .bf16 :=
  View.canon [⟨r0_out, k0_pay2 (View.ld x0 r0_in0) (View.ld x1 r0_in1) (View.ld x2 r0_in2)⟩]
/-- The key block after the body. -/
def out0_4 (x0 : Vec F S1x1024x1024 .f32) (x1 : Vec F S1024x256 .f32) (x2 : Vec F S1x256 .f32) : Vec F S1x1024x64 .bf16 :=
  View.canon [⟨r0_out, k0_pay3 (View.ld x0 r0_in0) (View.ld x1 r0_in1) (View.ld x2 r0_in2)⟩]
/-- The value block after the body. -/
def out0_5 (x0 : Vec F S1x1024x1024 .f32) (x1 : Vec F S1024x256 .f32) (x2 : Vec F S1x256 .f32) : Vec F S1x1024x64 .bf16 :=
  View.canon [⟨r0_out, k0_pay4 (View.ld x0 r0_in0) (View.ld x1 r0_in1) (View.ld x2 r0_in2)⟩]

/-- The one store is of the whole buffer, so it covers it. -/
theorem cover0_out (p0 : Vec F S1x1024x64 .bf16) (y : S1x1024x64.Idx) :
    ∃ pc ∈ ([⟨r0_out, p0⟩] : List (View.Piece (Elt F) S1x1024x64 .bf16)), y ∈ pc.1.set :=
  View.cover_of_tiled [⟨r0_out, p0⟩] S1x1024x64.size (by rfl) y

/-! ## The body's triple -/

set_option maxHeartbeats 1000000 in
/-- The kernel body on whole staging memrefs, the inputs' at read contents and the outputs' at anything, runs to
    the continuation holding the inputs' as they were and each output's at `out0_w` of the inputs'. -/
theorem sound_kernel0 (c : Dev nD) (E : Set ℕ) (i : grid0.Coords)
    (arg2 : Memref sig .tc .vmem S1x1024x1024 .f32) (harg2 : arg2.IsWhole) (arg3 : Memref sig .tc .vmem S1024x256 .f32) (harg3 : arg3.IsWhole)
    (arg4 : Memref sig .tc .vmem S1x256 .f32) (harg4 : arg4.IsWhole) (arg5 : Memref sig .tc .vmem S1x1024x64 .bf16) (harg5 : arg5.IsWhole)
    (arg6 : Memref sig .tc .vmem S1x1024x64 .bf16) (harg6 : arg6.IsWhole) (arg7 : Memref sig .tc .vmem S1x1024x64 .bf16) (harg7 : arg7.IsWhole)
    (x0 : Vec F S1x1024x1024 .f32) (x1 : Vec F S1024x256 .f32) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__proj_kernel i arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

/-! ## The pipeline's proof data -/

/-- The proof data of the projection pipeline on core `c`: the arrays as the region finds them (`V`); after the
    body at point `t` each input's buffer at its block and each output's at `out0_w` of the input blocks; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.AttnRuns.lean ====
import proofs.«181537_j23003844837560_2_alg».proof.Proof.KI.Base

/-!
# What the attention region's runs share

The attention body visits key tile `k` (512 key positions) only when `k` is at most the query
block's number `qi` (the second grid coordinate): eight guarded updates, so eight control cases,
one per value of `qi`. Here: the eight conditions decided over the grid, the windows' blocks as
the region finds them, the staging and scratch memrefs, and the region's invariant opened to the
three scratch buffers (running maximum, running denominator, running numerator), which every point
initialises before it reads them, so they are held at unnamed contents between points.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The branch conditions -/

/-- Key tile 0 is visited when the query block's number is at least 0: the body's branch condition, from the grid coordinates. -/
abbrev cond1_0 (i : grid1.Coords) : Prop := (Scalar.cmpi .ne (Scalar.extui (Scalar.cmpi .sge (BitVec.ofNat 32 (i 1).val) 0#32)) 0#32) = 1#1
/-- It holds at the points whose query block number (the point's position modulo 8) is at least 0 — decided over the grid. -/
theorem hcond1_0 : ∀ t : Fin cfg1.N, cond1_0 (grid1.coords t) ↔ 0 ≤ t.val % 8 :=
  (by decide +kernel : ∀ t : Fin grid1.N, cond1_0 (grid1.coords t) ↔ 0 ≤ t.val % 8)

/-- Key tile 1 is visited when the query block's number is at least 1: the body's branch condition, from the grid coordinates. -/
abbrev cond1_1 (i : grid1.Coords) : Prop := (Scalar.cmpi .ne (Scalar.extui (Scalar.cmpi .sge (BitVec.ofNat 32 (i 1).val) 1#32)) 0#32) = 1#1
/-- It holds at the points whose query block number (the point's position modulo 8) is at least 1 — decided over the grid. -/
theorem hcond1_1 : ∀ t : Fin cfg1.N, cond1_1 (grid1.coords t) ↔ 1 ≤ t.val % 8 :=
  (by decide +kernel : ∀ t : Fin grid1.N, cond1_1 (grid1.coords t) ↔ 1 ≤ t.val % 8)

/-- Key tile 2 is visited when the query block's number is at least 2: the body's branch condition, from the grid coordinates. -/
abbrev cond1_2 (i : grid1.Coords) : Prop := (Scalar.cmpi .ne (Scalar.extui (Scalar.cmpi .sge (BitVec.ofNat 32 (i 1).val) 2#32)) 0#32) = 1#1
/-- It holds at the points whose query block number (the point's position modulo 8) is at least 2 — decided over the grid. -/
theorem hcond1_2 : ∀ t : Fin cfg1.N, cond1_2 (grid1.coords t) ↔ 2 ≤ t.val % 8 :=
  (by decide +kernel : ∀ t : Fin grid1.N, cond1_2 (grid1.coords t) ↔ 2 ≤ t.val % 8)

/-- Key tile 3 is visited when the query block's number is at least 3: the body's branch condition, from the grid coordinates. -/
abbrev cond1_3 (i : grid1.Coords) : Prop := (Scalar.cmpi .ne (Scalar.extui (Scalar.cmpi .sge (BitVec.ofNat 32 (i 1).val) 3#32)) 0#32) = 1#1
/-- It holds at the points whose query block number (the point's position modulo 8) is at least 3 — decided over the grid. -/
theorem hcond1_3 : ∀ t : Fin cfg1.N, cond1_3 (grid1.coords t) ↔ 3 ≤ t.val % 8 :=
  (by decide +kernel : ∀ t : Fin grid1.N, cond1_3 (grid1.coords t) ↔ 3 ≤ t.val % 8)

/-- Key tile 4 is visited when the query block's number is at least 4: the body's branch condition, from the grid coordinates. -/
abbrev cond1_4 (i : grid1.Coords) : Prop := (Scalar.cmpi .ne (Scalar.extui (Scalar.cmpi .sge (BitVec.ofNat 32 (i 1).val) 4#32)) 0#32) = 1#1
/-- It holds at the points whose query block number (the point's position modulo 8) is at least 4 — decided over the grid. -/
theorem hcond1_4 : ∀ t : Fin cfg1.N, cond1_4 (grid1.coords t) ↔ 4 ≤ t.val % 8 :=
  (by decide +kernel : ∀ t : Fin grid1.N, cond1_4 (grid1.coords t) ↔ 4 ≤ t.val % 8)

/-- Key tile 5 is visited when the query block's number is at least 5: the body's branch condition, from the grid coordinates. -/
abbrev cond1_5 (i : grid1.Coords) : Prop := (Scalar.cmpi .ne (Scalar.extui (Scalar.cmpi .sge (BitVec.ofNat 32 (i 1).val) 5#32)) 0#32) = 1#1
/-- It holds at the points whose query block number (the point's position modulo 8) is at least 5 — decided over the grid. -/
theorem hcond1_5 : ∀ t : Fin cfg1.N, cond1_5 (grid1.coords t) ↔ 5 ≤ t.val % 8 :=
  (by decide +kernel : ∀ t : Fin grid1.N, cond1_5 (grid1.coords t) ↔ 5 ≤ t.val % 8)

/-- Key tile 6 is visited when the query block's number is at least 6: the body's branch condition, from the grid coordinates. -/
abbrev cond1_6 (i : grid1.Coords) : Prop := (Scalar.cmpi .ne (Scalar.extui (Scalar.cmpi .sge (BitVec.ofNat 32 (i 1).val) 6#32)) 0#32) = 1#1
/-- It holds at the points whose query block number (the point's position modulo 8) is at least 6 — decided over the grid. -/
theorem hcond1_6 : ∀ t : Fin cfg1.N, cond1_6 (grid1.coords t) ↔ 6 ≤ t.val % 8 :=
  (by decide +kernel : ∀ t : Fin grid1.N, cond1_6 (grid1.coords t) ↔ 6 ≤ t.val % 8)

/-- Key tile 7 is visited when the query block's number is at least 7: the body's branch condition, from the grid coordinates. -/
abbrev cond1_7 (i : grid1.Coords) : Prop := (Scalar.cmpi .ne (Scalar.extui (Scalar.cmpi .sge (BitVec.ofNat 32 (i 1).val) 7#32)) 0#32) = 1#1
/-- It holds at the points whose query block number (the point's position modulo 8) is at least 7 — decided over the grid. -/
theorem hcond1_7 : ∀ t : Fin cfg1.N, cond1_7 (grid1.coords t) ↔ 7 ≤ t.val % 8 :=
  (by decide +kernel : ∀ t : Fin grid1.N, cond1_7 (grid1.coords t) ↔ 7 ≤ t.val % 8)

/-! ## The windows' blocks, at the entry contents `V` -/

section
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (the key and
    value windows are fetched only when the batch changes: the index has not moved in between). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The memrefs the body is called with -/

/-- One staging buffer of the output window, through which its contents are stated. -/
abbrev VO1_3 : View sig .tc .vmem S1x512x64 .f32 := (Memref.whole cc1_stg3_0 : Memref sig .tc .vmem S1x512x64 .f32).view
/-- Each window's current staging memref at point `t`, as the pipeline passes it, and its wholeness. -/
abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .f32 := win1_3.stage (cfg1.slots t 3)
abbrev hs1_3 (t : Fin cfg1.N) : (ms1_3 t).IsWhole := hstage1_3 ((cfg1.slots t 3).cast nbuf1_3)
/-- The scratch operands: running maximum, running denominator, running numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x64 .f32 := Memref.whole cc1_scratch2

/-! ## The region's invariant, opened -/

/-- The region's invariant: the scoped buffers that are no staging buffer of this region — the projection region's ten
    staging buffers at some contents, and the three scratch operands as memrefs owned at some contents — beside the
    generator register at some state. What the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KI.AttnRun0.lean ====
import proofs.«181537_j23003844837560_2_alg».proof.Proof.KI.AttnRuns

/-!
# The attention body's run when the query block is number 0

With the query block's number 0, the body initialises the running maximum, denominator and
numerator, visits key tiles 0 … 0 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 0 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q0 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Hand

end
-- ==== Proof.KI.AttnRun1.lean ====
import proofs.«181537_j23003844837560_2_alg».proof.Proof.KI.AttnRuns

/-!
# The attention body's run when the query block is number 1

With the query block's number 1, the body initialises the running maximum, denominator and
numerator, visits key tiles 0 … 1 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 1 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q1 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Hand

end
-- ==== Proof.KI.AttnRun2.lean ====
import proofs.«181537_j23003844837560_2_alg».proof.Proof.KI.AttnRuns

/-!
# The attention body's run when the query block is number 2

With the query block's number 2, the body initialises the running maximum, denominator and
numerator, visits key tiles 0 … 2 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 2 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q2 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Hand

end
-- ==== Proof.KI.AttnRun3.lean ====
import proofs.«181537_j23003844837560_2_alg».proof.Proof.KI.AttnRuns

/-!
# The attention body's run when the query block is number 3

With the query block's number 3, the body initialises the running maximum, denominator and
numerator, visits key tiles 0 … 3 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 3 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Hand

end
-- ==== Proof.KI.AttnRun4.lean ====
import proofs.«181537_j23003844837560_2_alg».proof.Proof.KI.AttnRuns

/-!
# The attention body's run when the query block is number 4

With the query block's number 4, the body initialises the running maximum, denominator and
numerator, visits key tiles 0 … 4 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 4 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q4 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Hand

end
-- ==== Proof.KI.AttnRun5.lean ====
import proofs.«181537_j23003844837560_2_alg».proof.Proof.KI.AttnRuns

/-!
# The attention body's run when the query block is number 5

With the query block's number 5, the body initialises the running maximum, denominator and
numerator, visits key tiles 0 … 5 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 5 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q5 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Hand

end
-- ==== Proof.KI.AttnRun6.lean ====
import proofs.«181537_j23003844837560_2_alg».proof.Proof.KI.AttnRuns

/-!
# The attention body's run when the query block is number 6

With the query block's number 6, the body initialises the running maximum, denominator and
numerator, visits key tiles 0 … 6 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 6 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q6 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Hand

end
-- ==== Proof.KI.AttnRun7.lean ====
import proofs.«181537_j23003844837560_2_alg».proof.Proof.KI.AttnRuns

/-!
# The attention body's run when the query block is number 7

With the query block's number 7, the body initialises the running maximum, denominator and
numerator, visits key tiles 0 … 7 (each: load the tile's keys and values, update the three
running quantities) and skips the others, and stores numerator over denominator into the output
block. The run below is the body's triple in that case: the pieces the output block ends with are
found by the symbolic execution, and carry the whole computation as a term over the input blocks.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- What the body's stores leave in the output block, as pieces, when the query block's number is 7 (the branch
    conditions `hc·` decide every guarded update), WITH the proof that on whole staging memrefs — the query, key and
    value blocks at their contents, the output block and the three scratch buffers at anything — the body runs to the
    continuation holding the inputs as they were, the output block with its pieces written and the scratch at some contents. -/
noncomputable def kernelRun1_q7 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x512x64 .bf16) (x1 : Vec F S1x4096x64 .bf16) (x2 : Vec F S1x4096x64 .bf16) :
    { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; iexact H5
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Hand

end
-- ==== Proof.KI.Attn.lean ====
import proofs.«181537_j23003844837560_2_alg».proof.Proof.KI.AttnRun0
import proofs.«181537_j23003844837560_2_alg».proof.Proof.KI.AttnRun1
import proofs.«181537_j23003844837560_2_alg».proof.Proof.KI.AttnRun2
import proofs.«181537_j23003844837560_2_alg».proof.Proof.KI.AttnRun3
import proofs.«181537_j23003844837560_2_alg».proof.Proof.KI.AttnRun4
import proofs.«181537_j23003844837560_2_alg».proof.Proof.KI.AttnRun5
import proofs.«181537_j23003844837560_2_alg».proof.Proof.KI.AttnRun6
import proofs.«181537_j23003844837560_2_alg».proof.Proof.KI.AttnRun7

/-!
# The attention region: what each point leaves, the proof data, the body obligation

Point `t` of the attention region's grid (4 batches × 8 query blocks) has query block number
`t mod 8`, which selects the body's control case; the output block after the body is that case's
pieces read back, a function of the point's query, key and value blocks. The three scratch buffers
are initialised by every point before it reads them, so the region's invariant holds them at
unnamed contents, the same before and after every point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each case leaves in the output block -/

/-- The pieces of the case "query block 0" cover the output block (one whole-block store). -/
theorem cover1_q0_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q0 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q0 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 0" leaves in the output block: its pieces read back. -/
def out1_q0_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q0 c i arg2 harg2 arg3 harg3 arg4 harg4 arg5 harg5 arg6 harg6 arg7 harg7 arg8 harg8 hc0 hc1 hc2 hc3 hc4 hc5 hc6 hc7 x0 x1 x2).1)

/-- The pieces of the case "query block 1" cover the output block (one whole-block store). -/
theorem cover1_q1_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q1 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q1 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 1" leaves in the output block: its pieces read back. -/
def out1_q1_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q1 c i arg2 harg2 arg3 harg3 arg4 harg4 arg5 harg5 arg6 harg6 arg7 harg7 arg8 harg8 hc0 hc1 hc2 hc3 hc4 hc5 hc6 hc7 x0 x1 x2).1)

/-- The pieces of the case "query block 2" cover the output block (one whole-block store). -/
theorem cover1_q2_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q2 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q2 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 2" leaves in the output block: its pieces read back. -/
def out1_q2_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q2 c i arg2 harg2 arg3 harg3 arg4 harg4 arg5 harg5 arg6 harg6 arg7 harg7 arg8 harg8 hc0 hc1 hc2 hc3 hc4 hc5 hc6 hc7 x0 x1 x2).1)

/-- The pieces of the case "query block 3" cover the output block (one whole-block store). -/
theorem cover1_q3_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q3 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q3 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 3" leaves in the output block: its pieces read back. -/
def out1_q3_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q3 c i arg2 harg2 arg3 harg3 arg4 harg4 arg5 harg5 arg6 harg6 arg7 harg7 arg8 harg8 hc0 hc1 hc2 hc3 hc4 hc5 hc6 hc7 x0 x1 x2).1)

/-- The pieces of the case "query block 4" cover the output block (one whole-block store). -/
theorem cover1_q4_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q4 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q4 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 4" leaves in the output block: its pieces read back. -/
def out1_q4_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q4 c i arg2 harg2 arg3 harg3 arg4 harg4 arg5 harg5 arg6 harg6 arg7 harg7 arg8 harg8 hc0 hc1 hc2 hc3 hc4 hc5 hc6 hc7 x0 x1 x2).1)

/-- The pieces of the case "query block 5" cover the output block (one whole-block store). -/
theorem cover1_q5_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q5 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q5 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 5" leaves in the output block: its pieces read back. -/
def out1_q5_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q5 c i arg2 harg2 arg3 harg3 arg4 harg4 arg5 harg5 arg6 harg6 arg7 harg7 arg8 harg8 hc0 hc1 hc2 hc3 hc4 hc5 hc6 hc7 x0 x1 x2).1)

/-- The pieces of the case "query block 6" cover the output block (one whole-block store). -/
theorem cover1_q6_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x512x64 .bf16) (x1 : Vec F S1x4096x64 .bf16) (x2 : Vec F S1x4096x64 .bf16) (y : S1x512x64.Idx) :
    ∃ pc ∈ (kernelRun1_q6 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q6 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 6" leaves in the output block: its pieces read back. -/
def out1_q6_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q6 c i arg2 harg2 arg3 harg3 arg4 harg4 arg5 harg5 arg6 harg6 arg7 harg7 arg8 harg8 hc0 hc1 hc2 hc3 hc4 hc5 hc6 hc7 x0 x1 x2).1)

/-- The pieces of the case "query block 7" cover the output block (one whole-block store). -/
theorem cover1_q7_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x512x64 .bf16) (x1 : Vec F S1x4096x64 .bf16) (x2 : Vec F S1x4096x64 .bf16) (y : S1x512x64.Idx) :
    ∃ pc ∈ (kernelRun1_q7 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (kernelRun1_q7 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- What the case "query block 7" leaves in the output block: its pieces read back. -/
def out1_q7_3 (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x512x64 .bf16) (x1 : Vec F S1x4096x64 .bf16) (x2 : Vec F S1x4096x64 .bf16) : Vec F S1x512x64 .f32 :=
  VO1_3.read (Elt F) (VO1_3.writes (Elt F) VO1_3.junk (kernelRun1_q7 c i arg2 harg2 arg3 harg3 arg4 harg4 arg5 harg5 arg6 harg6 arg7 harg7 arg8 harg8 hc0 hc1 hc2 hc3 hc4 hc5 hc6 hc7 x0 x1 x2).1)

/-! ## What the output block holds after each point -/

section
variable (V : (c : Dev nD) → (b : Ref sig .tc) → Buf (Elt F) ((c : Thread nD τ).loc b))

/-- The output block after point `t` when its query block number is 0: that case at the point's memrefs and blocks. -/
def outCase_0 (c : Dev nD) (t : Fin cfg1.N) (hq : t.val % 8 = 0) : Vec F S1x512x64 .f32 :=
  out1_q0_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) (fun h => absurd ((hcond1_1 t).mp h) (by omega)) (fun h => absurd ((hcond1_2 t).mp h) (by omega)) (fun h => absurd ((hcond1_3 t).mp h) (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)

/-- The output block after point `t` when its query block number is 1: that case at the point's memrefs and blocks. -/
def outCase_1 (c : Dev nD) (t : Fin cfg1.N) (hq : t.val % 8 = 1) : Vec F S1x512x64 .f32 :=
  out1_q1_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) (fun h => absurd ((hcond1_2 t).mp h) (by omega)) (fun h => absurd ((hcond1_3 t).mp h) (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)

/-- The output block after point `t` when its query block number is 2: that case at the point's memrefs and blocks. -/
def outCase_2 (c : Dev nD) (t : Fin cfg1.N) (hq : t.val % 8 = 2) : Vec F S1x512x64 .f32 :=
  out1_q2_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) ((hcond1_2 t).mpr (by omega)) (fun h => absurd ((hcond1_3 t).mp h) (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)

/-- The output block after point `t` when its query block number is 3: that case at the point's memrefs and blocks. -/
def outCase_3 (c : Dev nD) (t : Fin cfg1.N) (hq : t.val % 8 = 3) : Vec F S1x512x64 .f32 :=
  out1_q3_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) ((hcond1_2 t).mpr (by omega)) ((hcond1_3 t).mpr (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)

/-- The output block after point `t` when its query block number is 4: that case at the point's memrefs and blocks. -/
def outCase_4 (c : Dev nD) (t : Fin cfg1.N) (hq : t.val % 8 = 4) : Vec F S1x512x64 .f32 :=
  out1_q4_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) ((hcond1_2 t).mpr (by omega)) ((hcond1_3 t).mpr (by omega)) ((hcond1_4 t).mpr (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)

/-- The output block after point `t` when its query block number is 5: that case at the point's memrefs and blocks. -/
def outCase_5 (c : Dev nD) (t : Fin cfg1.N) (hq : t.val % 8 = 5) : Vec F S1x512x64 .f32 :=
  out1_q5_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) ((hcond1_2 t).mpr (by omega)) ((hcond1_3 t).mpr (by omega)) ((hcond1_4 t).mpr (by omega)) ((hcond1_5 t).mpr (by omega)) (fun h => absurd ((hcond1_6 t).mp h) (by omega)) (fun h => absurd ((hcond1_7 t).mp h) (by omega)) (iblk1 V c 0 t) (iblk1 V c 1 t) (iblk1 V c 2 t)

/-- The output block after point `t` when its query block number is 6: that case at the point's memrefs and blocks. -/
def outCase_6 (c : Dev nD) (t : Fin cfg1.N) (hq : t.val % 8 = 6) : Vec F S1x512x64 .f32 :=
  out1_q6_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) ((hcond1_2 t).mpr (by omega)) ((hcond1_3 t).mpr (by omega)) ((hcond1_4 t).mpr (by omega)) ((hcond1_5 t).mpr (by omega)) ((hcond1_6 t).mpr (by omega)) (fun h => absurd ((hcond1_7 t).mp h) (by omega)) (iblk1 V c 0 t) (iblk1 V c 1 t) (iblk1 V c 2 t)

/-- The output block after point `t` when its query block number is 7: that case at the point's memrefs and blocks. -/
def outCase_7 (c : Dev nD) (t : Fin cfg1.N) (hq : t.val % 8 = 7) : Vec F S1x512x64 .f32 :=
  out1_q7_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr (by omega)) ((hcond1_1 t).mpr (by omega)) ((hcond1_2 t).mpr (by omega)) ((hcond1_3 t).mpr (by omega)) ((hcond1_4 t).mpr (by omega)) ((hcond1_5 t).mpr (by omega)) ((hcond1_6 t).mpr (by omega)) ((hcond1_7 t).mpr (by omega)) (iblk1 V c 0 t) (iblk1 V c 1 t) (iblk1 V c 2 t)

/-- The output block after point `t`: the case its query block number `t mod 8` selects. -/
def outAt1 (c : Dev nD) (t : Fin cfg1.N) : Vec F S1x512x64 .f32 :=
  if h0 : t.val % 8 = 0 then outCase_0 V c t h0
  else if h1 : t.val % 8 = 1 then outCase_1 V c t h1
  else if h2 : t.val % 8 = 2 then outCase_2 V c t h2
  else if h3 : t.val % 8 = 3 then outCase_3 V c t h3
  else if h4 : t.val % 8 = 4 then outCase_4 V c t h4
  else if h5 : t.val % 8 = 5 then outCase_5 V c t h5
  else if h6 : t.val % 8 = 6 then outCase_6 V c t h6
  else outCase_7 V c t (by omega)

theorem outAt1_q0 (c : Dev nD) (t : Fin cfg1.N) (hq : t.val % 8 = 0) : outAt1 V c t = outCase_0 V c t hq := by
  unfold outAt1
  rw [dif_pos hq]

theorem outAt1_q1 (c : Dev nD) (t : Fin cfg1.N) (hq : t.val % 8 = 1) : outAt1 V c t = outCase_1 V c t hq := by
  unfold outAt1
  rw [dif_neg (by omega), dif_pos hq]

theorem outAt1_q2 (c : Dev nD) (t : Fin cfg1.N) (hq : t.val % 8 = 2) : outAt1 V c t = outCase_2 V c t hq := by
  unfold outAt1
  rw [dif_neg (by omega), dif_neg (by omega), dif_pos hq]

theorem outAt1_q3 (c : Dev nD) (t : Fin cfg1.N) (hq : t.val % 8 = 3) : outAt1 V c t = outCase_3 V c t hq := by
  unfold outAt1
  rw [dif_neg (by omega), dif_neg (by omega), dif_neg (by omega), dif_pos hq]

theorem outAt1_q4 (c : Dev nD) (t : Fin cfg1.N) (hq : t.val % 8 = 4) : outAt1 V c t = outCase_4 V c t hq := by
  unfold outAt1
  rw [dif_neg (by omega), dif_neg (by omega), dif_neg (by omega), dif_neg (by omega), dif_pos hq]

theorem outAt1_q5 (c : Dev nD) (t : Fin cfg1.N) (hq : t.val % 8 = 5) : outAt1 V c t = outCase_5 V c t hq := by
  unfold outAt1
  rw [dif_neg (by omega), dif_neg (by omega), dif_neg (by omega), dif_neg (by omega), dif_neg (by omega), dif_pos hq]

theorem outAt1_q6 (c : Dev nD) (t : Fin cfg1.N) (hq : t.val % 8 = 6) : outAt1 V c t = outCase_6 V c t hq := by
  unfold outAt1
  rw [dif_neg (by omega), dif_neg (by omega), dif_neg (by omega), dif_neg (by omega), dif_neg (by omega), dif_neg (by omega), dif_pos hq]

theorem outAt1_q7 (c : Dev nD) (t : Fin cfg1.N) (hq : t.val % 8 = 7) : outAt1 V c t = outCase_7 V c t hq := by
  unfold outAt1
  rw [dif_neg (by omega), dif_neg (by omega), dif_neg (by omega), dif_neg (by omega), dif_neg (by omega), dif_neg (by omega), dif_neg (by omega)]

/-! ## The pipeline's proof data -/

/-- The proof data of the attention pipeline on core `c`: the arrays as the region finds them (`V`); after the body at
    point `t` each input's buffer at its block and the output's at `outAt1`; the invariant the scoped rest and the
    generator register, unchanged; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 4800000 in
/-- The body at any point: the inputs' memrefs hold their blocks; the point's query block number says which case it is
    in; that case's run applies; the invariant lends the three scratch buffers at whatever they hold and takes them back
    at whatever the body leaves; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  have hlt : t.val % 8 < 8 := Nat.mod_lt _ (by decide)
  rcases (show t.val % 8 = 0 ∨ t.val % 8 = 1 ∨ t.val % 8 = 2 ∨ t.val % 8 = 3 ∨ t.val % 8 = 4 ∨ t.val % 8 = 5 ∨ t.val % 8 = 6 ∨ t.val % 8 = 7 from by omega) with hq | hq | hq | hq | hq | hq | hq | hq
  · rw [outAt1_q0 V c t hq]; unfold outCase_0 out1_q0_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q0 c (grid1.coords t) _ _ _ _ _ _ _ _ _ _ _ _ _ _ ((hcond1_0 t).mpr (by omega)) (fun h => absurd ((hcond1_1 t).mp h) (by omega)) (fun h => absurd ((hcond1_2 t).mp h) (by omega)) (fun h => absurd ((hcond1_3 t).mp h) (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q0_3 c _ _ _ _ _ _ _ _ _ _ _ _ _ _ _ _ _ _ _ _ _ _ _ _ _ _)
  · rw [outAt1_q1 V c t hq]; unfold outCase_1 out1_q1_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q1 c (grid1.coords t) _ _ _ _ _ _ _ _ _ _ _ _ _ _ ((hcond1_0 t).mpr (by omega)) ((hcond1_1 t).mpr (by omega)) (fun h => absurd ((hcond1_2 t).mp h) (by omega)) (fun h => absurd ((hcond1_3 t).mp h) (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q1_3 c _ _ _ _ _ _ _ _ _ _ _ _ _ _ _ _ _ _ _ _ _ _ _ _ _ _)
  · rw [outAt1_q2 V c t hq]; unfold outCase_2 out1_q2_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q2 c (grid1.coords t) _ _ _ _ _ _ _ _ _ _ _ _ _ _ ((hcond1_0 t).mpr (by omega)) ((hcond1_1 t).mpr (by omega)) ((hcond1_2 t).mpr (by omega)) (fun h => absurd ((hcond1_3 t).mp h) (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q2_3 c _ _ _ _ _ _ _ _ _ _ _ _ _ _ _ _ _ _ _ _ _ _ _ _ _ _)
  · rw [outAt1_q3 V c t hq]; unfold outCase_3 out1_q3_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q3 c (grid1.coords t) _ _ _ _ _ _ _ _ _ _ _ _ _ _ ((hcond1_0 t).mpr (by omega)) ((hcond1_1 t).mpr (by omega)) ((hcond1_2 t).mpr (by omega)) ((hcond1_3 t).mpr (by omega)) (fun h => absurd ((hcond1_4 t).mp h) (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q3_3 c _ _ _ _ _ _ _ _ _ _ _ _ _ _ _ _ _ _ _ _ _ _ _ _ _ _)
  · rw [outAt1_q4 V c t hq]; unfold outCase_4 out1_q4_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q4 c (grid1.coords t) _ _ _ _ _ _ _ _ _ _ _ _ _ _ ((hcond1_0 t).mpr (by omega)) ((hcond1_1 t).mpr (by omega)) ((hcond1_2 t).mpr (by omega)) ((hcond1_3 t).mpr (by omega)) ((hcond1_4 t).mpr (by omega)) (fun h => absurd ((hcond1_5 t).mp h) (by omega)) (fun h => absurd ((hcond1_6 t).mp h) (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q4_3 c _ _ _ _ _ _ _ _ _ _ _ _ _ _ _ _ _ _ _ _ _ _ _ _ _ _)
  · rw [outAt1_q5 V c t hq]; unfold outCase_5 out1_q5_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q5 c (grid1.coords t) _ _ _ _ _ _ _ _ _ _ _ _ _ _ ((hcond1_0 t).mpr (by omega)) ((hcond1_1 t).mpr (by omega)) ((hcond1_2 t).mpr (by omega)) ((hcond1_3 t).mpr (by omega)) ((hcond1_4 t).mpr (by omega)) ((hcond1_5 t).mpr (by omega)) (fun h => absurd ((hcond1_6 t).mp h) (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q5_3 c _ _ _ _ _ _ _ _ _ _ _ _ _ _ _ _ _ _ _ _ _ _ _ _ _ _)
  · rw [outAt1_q6 V c t hq]; unfold outCase_6 out1_q6_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q6 c (grid1.coords t) _ _ _ _ _ _ _ _ _ _ _ _ _ _ ((hcond1_0 t).mpr (by omega)) ((hcond1_1 t).mpr (by omega)) ((hcond1_2 t).mpr (by omega)) ((hcond1_3 t).mpr (by omega)) ((hcond1_4 t).mpr (by omega)) ((hcond1_5 t).mpr (by omega)) ((hcond1_6 t).mpr (by omega)) (fun h => absurd ((hcond1_7 t).mp h) (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q6_3 c _ _ _ _ _ _ _ _ _ _ _ _ _ _ _ _ _ _ _ _ _ _ _ _ _ _)
  · rw [outAt1_q7 V c t hq]; unfold outCase_7 out1_q7_3
    iintro ⟨⟨⟨HA0, HA1, HA2, HA3, HA4, HA5, HA6, HA7, HA8, HA9, HS0, HS1, HS2⟩, Hg⟩, Ho, ⟨%d0, H0⟩, ⟨%d1, H1⟩, ⟨%d2, H2⟩, ⟨%d3, H3⟩⟩
    iapply ((kernelRun1_q7 c (grid1.coords t) _ _ _ _ _ _ _ _ _ _ _ _ _ _ ((hcond1_0 t).mpr (by omega)) ((hcond1_1 t).mpr (by omega)) ((hcond1_2 t).mpr (by omega)) ((hcond1_3 t).mpr (by omega)) ((hcond1_4 t).mpr (by omega)) ((hcond1_5 t).mpr (by omega)) ((hcond1_6 t).mpr (by omega)) ((hcond1_7 t).mpr (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [HA0 HA1 HA2 HA3 HA4 HA5 HA6 HA7 HA8 HA9 HS0 HS1 HS2 Hg]
    · isplitr [Hg]
      · isplitl [HA0]; · iexact HA0
        isplitl [HA1]; · iexact HA1
        isplitl [HA2]; · iexact HA2
        isplitl [HA3]; · iexact HA3
        isplitl [HA4]; · iexact HA4
        isplitl [HA5]; · iexact HA5
        isplitl [HA6]; · iexact HA6
        isplitl [HA7]; · iexact HA7
        isplitl [HA8]; · iexact HA8
        isplitl [HA9]; · iexact HA9
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_q7_3 c _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
import proofs.«181537_j23003844837560_2_alg».proof.Proof.KI.Proj
import proofs.«181537_j23003844837560_2_alg».proof.Proof.KI.Attn

/-!
# The kernel program's run

@main is ten host operations, the projection region, the attention region. The buffer contents
at each boundary are a fold from the launch memory: `W1` after the host operations, `W2` after the
projection region (its three output arrays at what its write-backs leave, every other buffer as
entered), `W3` after the attention region (likewise). Each region is a segment whose body
obligation is that region's; the launch theorem for a list of segments gives: every weakly fair
execution terminates, nothing faulting, with every unscoped buffer at `W3`. Read at the result
and at the seven arguments: the result is the attention pipeline's output array, and no host
operation and no region writes an argument.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At the projection region's exit: its arrays at what the pipeline leaves (the inputs as entered, each output's
    write-backs folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (what the attention region's proof data take). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the attention region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No host operation writes an argument -/

theorem W1_main_arg0 (c : Dev nD) : W1 m c (Proc.devRef .tc main_arg0) = W0 m c (Proc.devRef .tc main_arg0) :=
  StableHlo.after_of_forall_not_mem (b := Proc.devRef .tc main_arg0) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

theorem W1_main_arg1 (c : Dev nD) : W1 m c (Proc.devRef .tc main_arg1) = W0 m c (Proc.devRef .tc main_arg1) :=
  StableHlo.after_of_forall_not_mem (b := Proc.devRef .tc main_arg1) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

theorem W1_main_arg2 (c : Dev nD) : W1 m c (Proc.devRef .tc main_arg2) = W0 m c (Proc.devRef .tc main_arg2) :=
  StableHlo.after_of_forall_not_mem (b := Proc.devRef .tc main_arg2) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

theorem W1_main_arg3 (c : Dev nD) : W1 m c (Proc.devRef .tc main_arg3) = W0 m c (Proc.devRef .tc main_arg3) :=
  StableHlo.after_of_forall_not_mem (b := Proc.devRef .tc main_arg3) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

theorem W1_main_arg4 (c : Dev nD) : W1 m c (Proc.devRef .tc main_arg4) = W0 m c (Proc.devRef .tc main_arg4) :=
  StableHlo.after_of_forall_not_mem (b := Proc.devRef .tc main_arg4) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

theorem W1_main_arg5 (c : Dev nD) : W1 m c (Proc.devRef .tc main_arg5) = W0 m c (Proc.devRef .tc main_arg5) :=
  StableHlo.after_of_forall_not_mem (b := Proc.devRef .tc main_arg5) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

theorem W1_main_arg6 (c : Dev nD) : W1 m c (Proc.devRef .tc main_arg6) = W0 m c (Proc.devRef .tc main_arg6) :=
  StableHlo.after_of_forall_not_mem (b := Proc.devRef .tc main_arg6) _ _ (List.forall_iff_forall_mem.mp (by
    simp only [hostOps0, List.Forall, StableHlo.nullary_writes, StableHlo.unary_writes, StableHlo.nary_writes, StableHlo.reshape_writes, Finset.mem_singleton]
    repeat' apply And.intro
    all_goals exact StableHlo.devRef_ne_of_ne (by decide)))

/-! ## The arguments end as launched, and the result is the attention pipeline's output array -/

/-- The tokens are the projection region's first input window's array: the pipeline leaves an input as entered. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_main_arg0 m c
    _ = m ((c : Thread nD τ).loc main_arg0) := rfl
/-- `main_arg1` is no window's array of either region, and no host operation writes it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := W1_main_arg1 m c
    _ = m ((c : Thread nD τ).loc main_arg1) := rfl
/-- `main_arg2` is no window's array of either region, and no host operation writes it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := W1_main_arg2 m c
    _ = m ((c : Thread nD τ).loc main_arg2) := rfl
/-- `main_arg3` is no window's array of either region, and no host operation writes it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := W1_main_arg3 m c
    _ = m ((c : Thread nD τ).loc main_arg3) := rfl
/-- `main_arg4` is no window's array of either region, and no host operation writes it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := W1_main_arg4 m c
    _ = m ((c : Thread nD τ).loc main_arg4) := rfl
/-- `main_arg5` is no window's array of either region, and no host operation writes it. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = W0 m c (Proc.devRef .tc main_arg5) := W1_main_arg5 m c
    _ = m ((c : Thread nD τ).loc main_arg5) := rfl
/-- `main_arg6` is no window's array of either region, and no host operation writes it. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := W2_of_ne m c main_arg6 (by decide)
    _ = W0 m c (Proc.devRef .tc main_arg6) := W1_main_arg6 m c
    _ = m ((c : Thread nD τ).loc main_arg6) := rfl

/-- The result buffer is the attention region's output window's array. -/
theorem W3_main_v9 (c : Dev nD) : W3 m c (Proc.devRef .tc main_v9) = (dat1 (V2 m) c).arrAt 3 cfg1.N :=
  W3_arr m c 3

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline's write-backs leave; the
    generator register goes into the region's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline's write-backs leave; the
    generator register goes into the region's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host stretch, then a region per pallas_call. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main IS the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final state has the result buffer at the attention
    pipeline's output array and the seven argument arrays as launched. -/
theorem run_full : θ_run defs (onTc (τ := τ) (main (F := F))) ⟨m, fun _ => 0, ρ⟩ (fun r => ∀ c : Dev nD,
      r.2.mem ((c.tc : Thread nD τ).loc main_v9) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v9 (by decide))).trans (W3_main_v9 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c),
       (h c _ (mem_uc main_arg6 (by decide))).trans (W3_main_arg6 m c)⟩)

/-- THE FRAME: the run with the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_full m ρ)

end Cert.KernelIdeal.Hand

end
-- ==== Proof.LibWholeStore.lean ====
import Idealize.ShloMosaic.Lib.Pipeline.FrameBody
import Idealize.ShloMosaic.Lib.Pipeline.Value

/-!
# Reading a buffer back after whole-buffer stores

A kernel that keeps running quantities in scratch buffers stores each of them WHOLE and loads it
back whole. A symbolic run records such a load as the read of a list of stored pieces, last store
first. When the last store covers the whole buffer, the load reads that store's payload, whatever
was stored before (`readCov_cons_whole`): the cons form of the library's one-store lemma. Also the
zero offsets of rank 2 and 3 as functions (`zero_offsets2`, `zero_offsets3`), which the library's
whole-rectangle lemmas take as a hypothesis.
-/

noncomputable section

namespace WholeStore

open Idealize.ShloMosaic

theorem zero_offsets2 : (![0, 0] : Fin 2 → Nat) = fun _ => 0 := by
  funext a; match a with | ⟨0, _⟩ => rfl | ⟨1, _⟩ => rfl
theorem zero_offsets3 : (![0, 0, 0] : Fin 3 → Nat) = fun _ => 0 := by
  funext a; match a with | ⟨0, _⟩ => rfl | ⟨1, _⟩ => rfl | ⟨2, _⟩ => rfl

/-- A whole-buffer load after a list of stores whose LAST is a whole-buffer store reads that store's payload. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

end WholeStore

end
-- ==== Proof.KI.AttnChain.lean ====
import proofs.«181537_j23003844837560_2_alg».proof.Proof.KI.Attn
import Idealize.ShloMosaic.Lib.Pipeline.Value
import proofs.«181537_j23003844837560_2_alg».proof.Proof.LibWholeStore

/-!
# The attention body as an explicit chain of tile updates

What a case's run finds in the output block is numerator over denominator after the visited key
tiles. Here the three running quantities after the first `n` tiles are written out as explicit
functions of the query block `x0`, the batch's keys `x1` and values `x2` (tile `j` reads rows
`512·j … 512·j + 511` of each), and each case's found pieces are shown to be exactly that chain:
every scratch buffer is stored whole before it is read back, so a read-back is the last payload
stored, and an input block is read as it was handed in.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of rank 2 and 3, and the read-back of a buffer stored whole: the general lemmas of LibWholeStore.lean. -/
theorem hz2 : (![0, 0] : Fin 2 → Nat) = fun _ => 0 := WholeStore.zero_offsets2
theorem hz3 : (![0, 0, 0] : Fin 3 → Nat) = fun _ => 0 := WholeStore.zero_offsets3
export WholeStore (readCov_cons_whole)

/-! ## The rows of keys and values tile `j` reads -/
abbrev slabR0 : Rect S1x4096x64 := Rect.unit (s := S1x4096x64) ![0, 0, 0] S1x512x64.size inb_S1x4096x64_S1x512x64_0_0_0
abbrev slabR1 : Rect S1x4096x64 := Rect.unit (s := S1x4096x64) ![0, 512, 0] S1x512x64.size inb_S1x4096x64_S1x512x64_0_512_0
abbrev slabR2 : Rect S1x4096x64 := Rect.unit (s := S1x4096x64) ![0, 1024, 0] S1x512x64.size inb_S1x4096x64_S1x512x64_0_1024_0
abbrev slabR3 : Rect S1x4096x64 := Rect.unit (s := S1x4096x64) ![0, 1536, 0] S1x512x64.size inb_S1x4096x64_S1x512x64_0_1536_0
abbrev slabR4 : Rect S1x4096x64 := Rect.unit (s := S1x4096x64) ![0, 2048, 0] S1x512x64.size inb_S1x4096x64_S1x512x64_0_2048_0
abbrev slabR5 : Rect S1x4096x64 := Rect.unit (s := S1x4096x64) ![0, 2560, 0] S1x512x64.size inb_S1x4096x64_S1x512x64_0_2560_0
abbrev slabR6 : Rect S1x4096x64 := Rect.unit (s := S1x4096x64) ![0, 3072, 0] S1x512x64.size inb_S1x4096x64_S1x512x64_0_3072_0
abbrev slabR7 : Rect S1x4096x64 := Rect.unit (s := S1x4096x64) ![0, 3584, 0] S1x512x64.size inb_S1x4096x64_S1x512x64_0_3584_0

/-! ## The running maximum, denominator and numerator after the first `n` tiles -/

def chM0 (arg1 : BitVec 32) (x0 : Vec F S1x512x64 .bf16) (x1 : Vec F S1x4096x64 .bf16) : FVec F S512x1 .f32 := k1_pay74
def chL0 (arg1 : BitVec 32) (x0 : Vec F S1x512x64 .bf16) (x1 : Vec F S1x4096x64 .bf16) : FVec F S512x1 .f32 := k1_pay75
def chA0 (arg1 : BitVec 32) (x0 : Vec F S1x512x64 .bf16) (x1 x2 : Vec F S1x4096x64 .bf16) : FVec F S512x64 .f32 := k1_pay76

def chM1 (arg1 : BitVec 32) (x0 : Vec F S1x512x64 .bf16) (x1 : Vec F S1x4096x64 .bf16) : FVec F S512x1 .f32 :=
  k1_pay79 (k1_pay12 arg1 (k1_pay77 x0) (View.ld x1 slabR0) (chM0 arg1 x0 x1))
def chL1 (arg1 : BitVec 32) (x0 : Vec F S1x512x64 .bf16) (x1 : Vec F S1x4096x64 .bf16) : FVec F S512x1 .f32 :=
  k1_pay15 arg1 (k1_pay77 x0) (View.ld x1 slabR0) (chM0 arg1 x0 x1) (chL0 arg1 x0 x1)
def chA1 (arg1 : BitVec 32) (x0 : Vec F S1x512x64 .bf16) (x1 x2 : Vec F S1x4096x64 .bf16) : FVec F S512x64 .f32 :=
  k1_pay78 (k1_pay10 (View.ld x2 slabR0)) (k1_pay16 arg1 (k1_pay77 x0) (View.ld x1 slabR0) (chM0 arg1 x0 x1) (chA0 arg1 x0 x1 x2)) (k1_pay17 arg1 (k1_pay77 x0) (View.ld x1 slabR0) (chM0 arg1 x0 x1))

def chM2 (arg1 : BitVec 32) (x0 : Vec F S1x512x64 .bf16) (x1 : Vec F S1x4096x64 .bf16) : FVec F S512x1 .f32 :=
  k1_pay81 (k1_pay20 arg1 (k1_pay77 x0) (View.ld x1 slabR1) (chM1 arg1 x0 x1))
def chL2 (arg1 : BitVec 32) (x0 : Vec F S1x512x64 .bf16) (x1 : Vec F S1x4096x64 .bf16) : FVec F S512x1 .f32 :=
  k1_pay23 arg1 (k1_pay77 x0) (View.ld x1 slabR1) (chM1 arg1 x0 x1) (chL1 arg1 x0 x1)
def chA2 (arg1 : BitVec 32) (x0 : Vec F S1x512x64 .bf16) (x1 x2 : Vec F S1x4096x64 .bf16) : FVec F S512x64 .f32 :=
  k1_pay80 (k1_pay18 (View.ld x2 slabR1)) (k1_pay24 arg1 (k1_pay77 x0) (View.ld x1 slabR1) (chM1 arg1 x0 x1) (chA1 arg1 x0 x1 x2)) (k1_pay25 arg1 (k1_pay77 x0) (View.ld x1 slabR1) (chM1 arg1 x0 x1))

def chM3 (arg1 : BitVec 32) (x0 : Vec F S1x512x64 .bf16) (x1 : Vec F S1x4096x64 .bf16) : FVec F S512x1 .f32 :=
  k1_pay83 (k1_pay28 arg1 (k1_pay77 x0) (View.ld x1 slabR2) (chM2 arg1 x0 x1))
def chL3 (arg1 : BitVec 32) (x0 : Vec F S1x512x64 .bf16) (x1 : Vec F S1x4096x64 .bf16) : FVec F S512x1 .f32 :=
  k1_pay31 arg1 (k1_pay77 x0) (View.ld x1 slabR2) (chM2 arg1 x0 x1) (chL2 arg1 x0 x1)
def chA3 (arg1 : BitVec 32) (x0 : Vec F S1x512x64 .bf16) (x1 x2 : Vec F S1x4096x64 .bf16) : FVec F S512x64 .f32 :=
  k1_pay82 (k1_pay26 (View.ld x2 slabR2)) (k1_pay32 arg1 (k1_pay77 x0) (View.ld x1 slabR2) (chM2 arg1 x0 x1) (chA2 arg1 x0 x1 x2)) (k1_pay33 arg1 (k1_pay77 x0) (View.ld x1 slabR2) (chM2 arg1 x0 x1))

def chM4 (arg1 : BitVec 32) (x0 : Vec F S1x512x64 .bf16) (x1 : Vec F S1x4096x64 .bf16) : FVec F S512x1 .f32 :=
  k1_pay85 (k1_pay36 arg1 (k1_pay77 x0) (View.ld x1 slabR3) (chM3 arg1 x0 x1))
def chL4 (arg1 : BitVec 32) (x0 : Vec F S1x512x64 .bf16) (x1 : Vec F S1x4096x64 .bf16) : FVec F S512x1 .f32 :=
  k1_pay39 arg1 (k1_pay77 x0) (View.ld x1 slabR3) (chM3 arg1 x0 x1) (chL3 arg1 x0 x1)
def chA4 (arg1 : BitVec 32) (x0 : Vec F S1x512x64 .bf16) (x1 x2 : Vec F S1x4096x64 .bf16) : FVec F S512x64 .f32 :=
  k1_pay84 (k1_pay34 (View.ld x2 slabR3)) (k1_pay40 arg1 (k1_pay77 x0) (View.ld x1 slabR3) (chM3 arg1 x0 x1) (chA3 arg1 x0 x1 x2)) (k1_pay41 arg1 (k1_pay77 x0) (View.ld x1 slabR3) (chM3 arg1 x0 x1))

def chM5 (arg1 : BitVec 32) (x0 : Vec F S1x512x64 .bf16) (x1 : Vec F S1x4096x64 .bf16) : FVec F S512x1 .f32 :=
  k1_pay2 (k1_pay44 arg1 (k1_pay77 x0) (View.ld x1 slabR4) (chM4 arg1 x0 x1))
def chL5 (arg1 : BitVec 32) (x0 : Vec F S1x512x64 .bf16) (x1 : Vec F S1x4096x64 .bf16) : FVec F S512x1 .f32 :=
  k1_pay47 arg1 (k1_pay77 x0) (View.ld x1 slabR4) (chM4 arg1 x0 x1) (chL4 arg1 x0 x1)
def chA5 (arg1 : BitVec 32) (x0 : Vec F S1x512x64 .bf16) (x1 x2 : Vec F S1x4096x64 .bf16) : FVec F S512x64 .f32 :=
  k1_pay1 (k1_pay42 (View.ld x2 slabR4)) (k1_pay48 arg1 (k1_pay77 x0) (View.ld x1 slabR4) (chM4 arg1 x0 x1) (chA4 arg1 x0 x1 x2)) (k1_pay49 arg1 (k1_pay77 x0) (View.ld x1 slabR4) (chM4 arg1 x0 x1))

def chM6 (arg1 : BitVec 32) (x0 : Vec F S1x512x64 .bf16) (x1 : Vec F S1x4096x64 .bf16) : FVec F S512x1 .f32 :=
  k1_pay4 (k1_pay52 arg1 (k1_pay77 x0) (View.ld x1 slabR5) (chM5 arg1 x0 x1))
def chL6 (arg1 : BitVec 32) (x0 : Vec F S1x512x64 .bf16) (x1 : Vec F S1x4096x64 .bf16) : FVec F S512x1 .f32 :=
  k1_pay55 arg1 (k1_pay77 x0) (View.ld x1 slabR5) (chM5 arg1 x0 x1) (chL5 arg1 x0 x1)
def chA6 (arg1 : BitVec 32) (x0 : Vec F S1x512x64 .bf16) (x1 x2 : Vec F S1x4096x64 .bf16) : FVec F S512x64 .f32 :=
  k1_pay3 (k1_pay50 (View.ld x2 slabR5)) (k1_pay56 arg1 (k1_pay77 x0) (View.ld x1 slabR5) (chM5 arg1 x0 x1) (chA5 arg1 x0 x1 x2)) (k1_pay57 arg1 (k1_pay77 x0) (View.ld x1 slabR5) (chM5 arg1 x0 x1))

def chM7 (arg1 : BitVec 32) (x0 : Vec F S1x512x64 .bf16) (x1 : Vec F S1x4096x64 .bf16) : FVec F S512x1 .f32 :=
  k1_pay6 (k1_pay60 arg1 (k1_pay77 x0) (View.ld x1 slabR6) (chM6 arg1 x0 x1))
def chL7 (arg1 : BitVec 32) (x0 : Vec F S1x512x64 .bf16) (x1 : Vec F S1x4096x64 .bf16) : FVec F S512x1 .f32 :=
  k1_pay63 arg1 (k1_pay77 x0) (View.ld x1 slabR6) (chM6 arg1 x0 x1) (chL6 arg1 x0 x1)
def chA7 (arg1 : BitVec 32) (x0 : Vec F S1x512x64 .bf16) (x1 x2 : Vec F S1x4096x64 .bf16) : FVec F S512x64 .f32 :=
  k1_pay5 (k1_pay58 (View.ld x2 slabR6)) (k1_pay64 arg1 (k1_pay77 x0) (View.ld x1 slabR6) (chM6 arg1 x0 x1) (chA6 arg1 x0 x1 x2)) (k1_pay65 arg1 (k1_pay77 x0) (View.ld x1 slabR6) (chM6 arg1 x0 x1))

def chM8 (arg1 : BitVec 32) (x0 : Vec F S1x512x64 .bf16) (x1 : Vec F S1x4096x64 .bf16) : FVec F S512x1 .f32 :=
  k1_pay8 (k1_pay68 arg1 (k1_pay77 x0) (View.ld x1 slabR7) (chM7 arg1 x0 x1))
def chL8 (arg1 : BitVec 32) (x0 : Vec F S1x512x64 .bf16) (x1 : Vec F S1x4096x64 .bf16) : FVec F S512x1 .f32 :=
  k1_pay71 arg1 (k1_pay77 x0) (View.ld x1 slabR7) (chM7 arg1 x0 x1) (chL7 arg1 x0 x1)
def chA8 (arg1 : BitVec 32) (x0 : Vec F S1x512x64 .bf16) (x1 x2 : Vec F S1x4096x64 .bf16) : FVec F S512x64 .f32 :=
  k1_pay7 (k1_pay66 (View.ld x2 slabR7)) (k1_pay72 arg1 (k1_pay77 x0) (View.ld x1 slabR7) (chM7 arg1 x0 x1) (chA7 arg1 x0 x1 x2)) (k1_pay73 arg1 (k1_pay77 x0) (View.ld x1 slabR7) (chM7 arg1 x0 x1))

/-! ## Each case's found pieces are the chain -/

end Cert.KernelIdeal.Hand

end
-- ==== Proof.KI.AttnChainCases.lean ====
import proofs.«181537_j23003844837560_2_alg».proof.Proof.KI.AttnChain

/-!
# Each control case's output block is numerator over denominator of the tile chain

For the case "query block `q`" the pieces the run found in the output block are one whole-block
store of `numerator / denominator` after tiles `0 … q`: every scratch read-back is the payload last
stored whole into that buffer, and every input block is read as handed in.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
theorem out1_q0_eq (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : ¬cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    out1_q0_3 c i arg2 harg2 arg3 harg3 arg4 harg4 arg5 harg5 arg6 harg6 arg7 harg7 arg8 harg8 hc0 hc1 hc2 hc3 hc4 hc5 hc6 hc7 x0 x1 x2
      = k1_pay9 (chA1 (BitVec.ofNat 32 (i 1).val) x0 x1 x2) (chL1 (BitVec.ofNat 32 (i 1).val) x0 x1) := by
  unfold out1_q0_3
  rw [View.read_writes_eq_canon _ _ _ (cover1_q0_3 c i arg2 harg2 arg3 harg3 arg4 harg4 arg5 harg5 arg6 harg6 arg7 harg7 arg8 harg8 hc0 hc1 hc2 hc3 hc4 hc5 hc6 hc7 x0 x1 x2)]
  unfold kernelRun1_q0
  dsimp only
  sl_unfold_run_names
  rw [View.canon_unit_zero (S := S1x512x64) hz3]
  simp only [View.readAt_eq_ld, Memref.IsWhole.read_unread, readCov_cons_whole (S := S512x64) _ hz2, readCov_cons_whole (S := S512x1) _ hz2, View.readCov_unit_zero (S := S512x64) _ hz2, View.readCov_unit_zero (S := S512x1) _ hz2, View.ld_unit_zero (S := S1x512x64) hz3]
  rfl

set_option maxHeartbeats 4000000 in
theorem out1_q1_eq (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : ¬cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    out1_q1_3 c i arg2 harg2 arg3 harg3 arg4 harg4 arg5 harg5 arg6 harg6 arg7 harg7 arg8 harg8 hc0 hc1 hc2 hc3 hc4 hc5 hc6 hc7 x0 x1 x2
      = k1_pay9 (chA2 (BitVec.ofNat 32 (i 1).val) x0 x1 x2) (chL2 (BitVec.ofNat 32 (i 1).val) x0 x1) := by
  unfold out1_q1_3
  rw [View.read_writes_eq_canon _ _ _ (cover1_q1_3 c i arg2 harg2 arg3 harg3 arg4 harg4 arg5 harg5 arg6 harg6 arg7 harg7 arg8 harg8 hc0 hc1 hc2 hc3 hc4 hc5 hc6 hc7 x0 x1 x2)]
  unfold kernelRun1_q1
  dsimp only
  sl_unfold_run_names
  rw [View.canon_unit_zero (S := S1x512x64) hz3]
  simp only [View.readAt_eq_ld, Memref.IsWhole.read_unread, readCov_cons_whole (S := S512x64) _ hz2, readCov_cons_whole (S := S512x1) _ hz2, View.readCov_unit_zero (S := S512x64) _ hz2, View.readCov_unit_zero (S := S512x1) _ hz2, View.ld_unit_zero (S := S1x512x64) hz3]
  rfl

set_option maxHeartbeats 4000000 in
theorem out1_q2_eq (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : ¬cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    out1_q2_3 c i arg2 harg2 arg3 harg3 arg4 harg4 arg5 harg5 arg6 harg6 arg7 harg7 arg8 harg8 hc0 hc1 hc2 hc3 hc4 hc5 hc6 hc7 x0 x1 x2
      = k1_pay9 (chA3 (BitVec.ofNat 32 (i 1).val) x0 x1 x2) (chL3 (BitVec.ofNat 32 (i 1).val) x0 x1) := by
  unfold out1_q2_3
  rw [View.read_writes_eq_canon _ _ _ (cover1_q2_3 c i arg2 harg2 arg3 harg3 arg4 harg4 arg5 harg5 arg6 harg6 arg7 harg7 arg8 harg8 hc0 hc1 hc2 hc3 hc4 hc5 hc6 hc7 x0 x1 x2)]
  unfold kernelRun1_q2
  dsimp only
  sl_unfold_run_names
  rw [View.canon_unit_zero (S := S1x512x64) hz3]
  simp only [View.readAt_eq_ld, Memref.IsWhole.read_unread, readCov_cons_whole (S := S512x64) _ hz2, readCov_cons_whole (S := S512x1) _ hz2, View.readCov_unit_zero (S := S512x64) _ hz2, View.readCov_unit_zero (S := S512x1) _ hz2, View.ld_unit_zero (S := S1x512x64) hz3]
  rfl

set_option maxHeartbeats 4000000 in
theorem out1_q3_eq (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : ¬cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    out1_q3_3 c i arg2 harg2 arg3 harg3 arg4 harg4 arg5 harg5 arg6 harg6 arg7 harg7 arg8 harg8 hc0 hc1 hc2 hc3 hc4 hc5 hc6 hc7 x0 x1 x2
      = k1_pay9 (chA4 (BitVec.ofNat 32 (i 1).val) x0 x1 x2) (chL4 (BitVec.ofNat 32 (i 1).val) x0 x1) := by
  unfold out1_q3_3
  rw [View.read_writes_eq_canon _ _ _ (cover1_q3_3 c i arg2 harg2 arg3 harg3 arg4 harg4 arg5 harg5 arg6 harg6 arg7 harg7 arg8 harg8 hc0 hc1 hc2 hc3 hc4 hc5 hc6 hc7 x0 x1 x2)]
  unfold kernelRun1_q3
  dsimp only
  sl_unfold_run_names
  rw [View.canon_unit_zero (S := S1x512x64) hz3]
  simp only [View.readAt_eq_ld, Memref.IsWhole.read_unread, readCov_cons_whole (S := S512x64) _ hz2, readCov_cons_whole (S := S512x1) _ hz2, View.readCov_unit_zero (S := S512x64) _ hz2, View.readCov_unit_zero (S := S512x1) _ hz2, View.ld_unit_zero (S := S1x512x64) hz3]
  rfl

set_option maxHeartbeats 4000000 in
theorem out1_q4_eq (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : ¬cond1_5 i) (hc6 : ¬cond1_6 i) (hc7 : ¬cond1_7 i)
    (x0 : Vec F S1x512x64 .bf16) (x1 : Vec F S1x4096x64 .bf16) (x2 : Vec F S1x4096x64 .bf16) :
    out1_q4_3 c i arg2 harg2 arg3 harg3 arg4 harg4 arg5 harg5 arg6 harg6 arg7 harg7 arg8 harg8 hc0 hc1 hc2 hc3 hc4 hc5 hc6 hc7 x0 x1 x2
      = k1_pay9 (chA5 (BitVec.ofNat 32 (i 1).val) x0 x1 x2) (chL5 (BitVec.ofNat 32 (i 1).val) x0 x1) := by
  unfold out1_q4_3
  rw [View.read_writes_eq_canon _ _ _ (cover1_q4_3 c i arg2 harg2 arg3 harg3 arg4 harg4 arg5 harg5 arg6 harg6 arg7 harg7 arg8 harg8 hc0 hc1 hc2 hc3 hc4 hc5 hc6 hc7 x0 x1 x2)]
  unfold kernelRun1_q4
  dsimp only
  sl_unfold_run_names
  rw [View.canon_unit_zero (S := S1x512x64) hz3]
  simp only [View.readAt_eq_ld, Memref.IsWhole.read_unread, readCov_cons_whole (S := S512x64) _ hz2, readCov_cons_whole (S := S512x1) _ hz2, View.readCov_unit_zero (S := S512x64) _ hz2, View.readCov_unit_zero (S := S512x1) _ hz2, View.ld_unit_zero (S := S1x512x64) hz3]
  rfl

set_option maxHeartbeats 4000000 in
theorem out1_q5_eq (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : ¬cond1_6 i) (hc7 : ¬cond1_7 i)
    (x0 : Vec F S1x512x64 .bf16) (x1 : Vec F S1x4096x64 .bf16) (x2 : Vec F S1x4096x64 .bf16) :
    out1_q5_3 c i arg2 harg2 arg3 harg3 arg4 harg4 arg5 harg5 arg6 harg6 arg7 harg7 arg8 harg8 hc0 hc1 hc2 hc3 hc4 hc5 hc6 hc7 x0 x1 x2
      = k1_pay9 (chA6 (BitVec.ofNat 32 (i 1).val) x0 x1 x2) (chL6 (BitVec.ofNat 32 (i 1).val) x0 x1) := by
  unfold out1_q5_3
  rw [View.read_writes_eq_canon _ _ _ (cover1_q5_3 c i arg2 harg2 arg3 harg3 arg4 harg4 arg5 harg5 arg6 harg6 arg7 harg7 arg8 harg8 hc0 hc1 hc2 hc3 hc4 hc5 hc6 hc7 x0 x1 x2)]
  unfold kernelRun1_q5
  dsimp only
  sl_unfold_run_names
  rw [View.canon_unit_zero (S := S1x512x64) hz3]
  simp only [View.readAt_eq_ld, Memref.IsWhole.read_unread, readCov_cons_whole (S := S512x64) _ hz2, readCov_cons_whole (S := S512x1) _ hz2, View.readCov_unit_zero (S := S512x64) _ hz2, View.readCov_unit_zero (S := S512x1) _ hz2, View.ld_unit_zero (S := S1x512x64) hz3]
  rfl

set_option maxHeartbeats 4000000 in
theorem out1_q6_eq (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : ¬cond1_7 i)
    (x0 : Vec F S1x512x64 .bf16) (x1 : Vec F S1x4096x64 .bf16) (x2 : Vec F S1x4096x64 .bf16) :
    out1_q6_3 c i arg2 harg2 arg3 harg3 arg4 harg4 arg5 harg5 arg6 harg6 arg7 harg7 arg8 harg8 hc0 hc1 hc2 hc3 hc4 hc5 hc6 hc7 x0 x1 x2
      = k1_pay9 (chA7 (BitVec.ofNat 32 (i 1).val) x0 x1 x2) (chL7 (BitVec.ofNat 32 (i 1).val) x0 x1) := by
  unfold out1_q6_3
  rw [View.read_writes_eq_canon _ _ _ (cover1_q6_3 c i arg2 harg2 arg3 harg3 arg4 harg4 arg5 harg5 arg6 harg6 arg7 harg7 arg8 harg8 hc0 hc1 hc2 hc3 hc4 hc5 hc6 hc7 x0 x1 x2)]
  unfold kernelRun1_q6
  dsimp only
  sl_unfold_run_names
  rw [View.canon_unit_zero (S := S1x512x64) hz3]
  simp only [View.readAt_eq_ld, Memref.IsWhole.read_unread, readCov_cons_whole (S := S512x64) _ hz2, readCov_cons_whole (S := S512x1) _ hz2, View.readCov_unit_zero (S := S512x64) _ hz2, View.readCov_unit_zero (S := S512x1) _ hz2, View.ld_unit_zero (S := S1x512x64) hz3]
  rfl

set_option maxHeartbeats 4000000 in
theorem out1_q7_eq (c : Dev nD) (i : grid1.Coords) (arg2 : Memref sig .tc .vmem S1x512x64 .bf16) (harg2 : arg2.IsWhole) (arg3 : Memref sig .tc .vmem S1x4096x64 .bf16) (harg3 : arg3.IsWhole) (arg4 : Memref sig .tc .vmem S1x4096x64 .bf16) (harg4 : arg4.IsWhole) (arg5 : Memref sig .tc .vmem S1x512x64 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x64 .f32) (harg8 : arg8.IsWhole) (hc0 : cond1_0 i) (hc1 : cond1_1 i) (hc2 : cond1_2 i) (hc3 : cond1_3 i) (hc4 : cond1_4 i) (hc5 : cond1_5 i) (hc6 : cond1_6 i) (hc7 : cond1_7 i)
    (x0 : Vec F S1x512x64 .bf16) (x1 : Vec F S1x4096x64 .bf16) (x2 : Vec F S1x4096x64 .bf16) :
    out1_q7_3 c i arg2 harg2 arg3 harg3 arg4 harg4 arg5 harg5 arg6 harg6 arg7 harg7 arg8 harg8 hc0 hc1 hc2 hc3 hc4 hc5 hc6 hc7 x0 x1 x2
      = k1_pay9 (chA8 (BitVec.ofNat 32 (i 1).val) x0 x1 x2) (chL8 (BitVec.ofNat 32 (i 1).val) x0 x1) := by
  unfold out1_q7_3
  rw [View.read_writes_eq_canon _ _ _ (cover1_q7_3 c i arg2 harg2 arg3 harg3 arg4 harg4 arg5 harg5 arg6 harg6 arg7 harg7 arg8 harg8 hc0 hc1 hc2 hc3 hc4 hc5 hc6 hc7 x0 x1 x2)]
  unfold kernelRun1_q7
  dsimp only
  sl_unfold_run_names
  rw [View.canon_unit_zero (S := S1x512x64) hz3]
  simp only [View.readAt_eq_ld, Memref.IsWhole.read_unread, readCov_cons_whole (S := S512x64) _ hz2, readCov_cons_whole (S := S512x1) _ hz2, View.readCov_unit_zero (S := S512x64) _ hz2, View.readCov_unit_zero (S := S512x1) _ hz2, View.ld_unit_zero (S := S1x512x64) hz3]
  rfl

end Cert.KernelIdeal.Hand

end
-- ==== Proof.LibOnlineSoftmax.lean ====
import Idealize.ShloMosaic.PureOps.Ideal

/-!
# Softmax-weighted averaging: the running (tile-by-tile) form equals the whole-row form

A row of scores is cut into `T` tiles of `W` columns. The whole-row form takes the maximum `M` of
the row, the weights `e = exp (S - M)`, their sum `L`, and returns `∑ (e / L) * V`. The running form
visits the tiles `0, 1, …, J` keeping a running maximum `m`, a running denominator `l` and a running
numerator `a`; at each tile the old `l` and `a` are rescaled by `exp (m - m')` to the new maximum
`m'` before the tile's weights `exp (S - m')` are added; it returns `a / l`.

All values are extended reals; a masked score is `⊥`, whose weight is `exp ⊥ = 0`. The proof
carries the invariant "after tile `n` the maximum is a real `μ`, and `l`, `a` are the REAL sums of
`exp (S - μ)` and `exp (S - μ) * V` over the entries seen"; the step is the real identity
`exp (μ - μ') * exp (x - μ) = exp (x - μ')`. The two maxima agree because they have the same upper
bounds, and the division distributes over the sum because the denominator is a positive real.

Main statements: `onlineOut_eq_refOut` (general), `onlineOut_tiles_eq_refOut` (the running form
reads the same arrays), `onlineOut_eq_refOut_of_mask` (scores given by a mask and real scores).
-/

open scoped BigOperators
open Idealize.ShloMosaic

namespace OnlineSoftmax

noncomputable section

/-- One step of the running (tile-by-tile) form on the tile with scores `s` and values `v`,
    from the state `(m, l, a)` = (running maximum, running denominator, running numerator). -/
def step {W : ℕ} (s v : Fin W → EReal) (st : EReal × EReal × EReal) : EReal × EReal × EReal :=
  (max st.1 ((Finset.univ : Finset (Fin W)).fold max ⊥ s),
   Ideal.exp (st.1 - max st.1 ((Finset.univ : Finset (Fin W)).fold max ⊥ s)) * st.2.1
     + ∑ c : Fin W, Ideal.exp (s c - max st.1 ((Finset.univ : Finset (Fin W)).fold max ⊥ s)),
   Ideal.exp (st.1 - max st.1 ((Finset.univ : Finset (Fin W)).fold max ⊥ s)) * st.2.2
     + ∑ c : Fin W, Ideal.exp (s c - max st.1 ((Finset.univ : Finset (Fin W)).fold max ⊥ s)) * v c)

/-- The state after the first `n` tiles, from `(⊥, 0, 0)`. -/
def run {W : ℕ} (s v : ℕ → Fin W → EReal) : ℕ → EReal × EReal × EReal
  | 0 => (⊥, 0, 0)
  | n + 1 => step (s n) (v n) (run s v n)

/-- The weight `exp (x - μ)` of a score `x` against a real maximum `μ`, as a real number
    (`0` for the masked score `⊥`). -/
def wt (x : EReal) (μ : ℝ) : ℝ := (Ideal.exp (x - (μ : EReal))).toReal

/-- Against a real maximum, the exponential of a score that is not `⊤` is the real weight. -/
theorem exp_sub_coe {x : EReal} (hx : x ≠ ⊤) (μ : ℝ) :
    Ideal.exp (x - (μ : EReal)) = ((wt x μ : ℝ) : EReal) := by
  induction x using EReal.rec with
  | bot => simp [wt]
  | coe r => simp [wt, ← EReal.coe_sub]
  | top => exact absurd rfl hx

/-- Changing the maximum from `μ` to `μ'` rescales a weight by `exp (μ - μ')`. -/
theorem wt_shift {x : EReal} (hx : x ≠ ⊤) (μ μ' : ℝ) :
    Real.exp (μ - μ') * wt x μ = wt x μ' := by
  induction x using EReal.rec with
  | bot => simp [wt]
  | coe r =>
    simp only [wt, ← EReal.coe_sub, Ideal.exp_coe, EReal.toReal_coe]
    rw [← Real.exp_add]; congr 1; ring
  | top => exact absurd rfl hx

/-- A weight is nonnegative. -/
theorem wt_nonneg (x : EReal) (μ : ℝ) : 0 ≤ wt x μ := by
  induction x using EReal.rec with
  | bot => simp [wt]
  | coe r => simp only [wt, ← EReal.coe_sub, Ideal.exp_coe, EReal.toReal_coe]; exact (Real.exp_pos _).le
  | top => simp [wt]

/-- The weight of a real score is positive. -/
theorem wt_pos {x : EReal} (hb : x ≠ ⊥) (ht : x ≠ ⊤) (μ : ℝ) : 0 < wt x μ := by
  induction x using EReal.rec with
  | bot => exact absurd rfl hb
  | coe r => simp only [wt, ← EReal.coe_sub, Ideal.exp_coe, EReal.toReal_coe]; exact Real.exp_pos _
  | top => exact absurd rfl ht

/-- The coercion `ℝ → EReal` commutes with a finite sum. -/
theorem coe_sum {ι : Type*} (t : Finset ι) (f : ι → ℝ) :
    ∑ i ∈ t, ((f i : ℝ) : EReal) = ((∑ i ∈ t, f i : ℝ) : EReal) := by
  classical
  induction t using Finset.induction_on with
  | empty => simp
  | insert i t hi ih => rw [Finset.sum_insert hi, Finset.sum_insert hi, ih, EReal.coe_add]

/-- A row maximum of scores none of which is `⊤` is not `⊤`. -/
theorem fold_ne_top {W : ℕ} {s : Fin W → EReal} (hs : ∀ c, s c ≠ ⊤) :
    (Finset.univ : Finset (Fin W)).fold max ⊥ s ≠ ⊤ := by
  rw [← lt_top_iff_ne_top, Finset.fold_max_lt]
  exact ⟨bot_lt_top, fun c _ => lt_top_iff_ne_top.2 (hs c)⟩

/-- A row maximum with one score that is not `⊥` is not `⊥`. -/
theorem fold_ne_bot {W : ℕ} {s : Fin W → EReal} {c₀ : Fin W} (h : s c₀ ≠ ⊥) :
    (Finset.univ : Finset (Fin W)).fold max ⊥ s ≠ ⊥ := by
  rw [← bot_lt_iff_ne_bot, Finset.lt_fold_max]
  exact Or.inr ⟨c₀, Finset.mem_univ _, bot_lt_iff_ne_bot.2 h⟩

/-- One step on real data: if the new maximum is the real `μ'`, the rescaling factor is the
    real `αr`, and the old denominator and numerator are the reals `Lr`, `Ar`, then the new
    denominator and numerator are the reals `αr * Lr + ∑ wt` and `αr * Ar + ∑ wt * v`. -/
theorem step_coe {W : ℕ} (s v : Fin W → EReal) (hs : ∀ c, s c ≠ ⊤)
    (hv : ∀ c, v c = (((v c).toReal : ℝ) : EReal)) (m : EReal) (Lr Ar αr μ' : ℝ)
    (hm : max m ((Finset.univ : Finset (Fin W)).fold max ⊥ s) = (μ' : EReal))
    (hα : Ideal.exp (m - (μ' : EReal)) = (αr : EReal)) :
    step s v (m, (Lr : EReal), (Ar : EReal)) =
      ((μ' : EReal), ((αr * Lr + ∑ c, wt (s c) μ' : ℝ) : EReal),
        ((αr * Ar + ∑ c, wt (s c) μ' * (v c).toReal : ℝ) : EReal)) := by
  have h1 : ∀ c, Ideal.exp (s c - (μ' : EReal)) = ((wt (s c) μ' : ℝ) : EReal) :=
    fun c => exp_sub_coe (hs c) μ'
  have h2 : ∀ c, Ideal.exp (s c - (μ' : EReal)) * v c
      = ((wt (s c) μ' * (v c).toReal : ℝ) : EReal) := fun c => by
    rw [h1, EReal.coe_mul, ← hv c]
  simp only [step, hm, hα]
  rw [Finset.sum_congr rfl (fun c _ => h2 c), Finset.sum_congr rfl (fun c _ => h1 c),
    coe_sum, coe_sum, ← EReal.coe_mul, ← EReal.coe_mul, ← EReal.coe_add, ← EReal.coe_add]

/-- The invariant of the running form: after the tiles `0 … n` (`n ≤ J`) the running maximum is a
    real `μ`, and the running denominator and numerator are the real sums of `exp (s - μ)` and
    of `exp (s - μ) * v` over the entries seen. -/
theorem run_inv {W : ℕ} (s v : ℕ → Fin W → EReal) (J : ℕ)
    (hs : ∀ j ≤ J, ∀ c, s j c ≠ ⊤) (h0 : ∃ c₀, s 0 c₀ ≠ ⊥)
    (hv : ∀ j ≤ J, ∀ c, v j c = (((v j c).toReal : ℝ) : EReal)) :
    ∀ n, n ≤ J → ∃ μ : ℝ, run s v (n + 1) =
      ((μ : EReal), ((∑ j ∈ Finset.range (n + 1), ∑ c, wt (s j c) μ : ℝ) : EReal),
        ((∑ j ∈ Finset.range (n + 1), ∑ c, wt (s j c) μ * (v j c).toReal : ℝ) : EReal)) := by
  intro n
  induction n with
  | zero =>
    intro _
    obtain ⟨c₀, hc₀⟩ := h0
    have hs0 := hs 0 (Nat.zero_le _)
    have hne_top := fold_ne_top hs0
    have hne_bot := fold_ne_bot hc₀
    refine ⟨((Finset.univ : Finset (Fin W)).fold max ⊥ (s 0)).toReal, ?_⟩
    have hm : max ⊥ ((Finset.univ : Finset (Fin W)).fold max ⊥ (s 0))
        = ((((Finset.univ : Finset (Fin W)).fold max ⊥ (s 0)).toReal : ℝ) : EReal) := by
      rw [max_eq_right bot_le, EReal.coe_toReal hne_top hne_bot]
    have hα : Ideal.exp (⊥ - ((((Finset.univ : Finset (Fin W)).fold max ⊥ (s 0)).toReal : ℝ) : EReal))
        = ((0 : ℝ) : EReal) := by
      rw [EReal.bot_sub, Ideal.exp_bot, EReal.coe_zero]
    have := step_coe (s 0) (v 0) hs0 (hv 0 (Nat.zero_le _)) ⊥ 0 0 0 _ hm hα
    show step (s 0) (v 0) (⊥, 0, 0) = _
    rw [show ((⊥, 0, 0) : EReal × EReal × EReal) = (⊥, ((0 : ℝ) : EReal), ((0 : ℝ) : EReal)) from rfl,
      this]
    simp
  | succ n ih =>
    intro hn
    obtain ⟨μ, hμ⟩ := ih (Nat.le_of_succ_le hn)
    have hsn := hs (n + 1) hn
    have hne_top : max (μ : EReal) ((Finset.univ : Finset (Fin W)).fold max ⊥ (s (n + 1))) ≠ ⊤ := by
      rw [← lt_top_iff_ne_top, max_lt_iff]
      exact ⟨EReal.coe_lt_top μ, lt_top_iff_ne_top.2 (fold_ne_top hsn)⟩
    have hne_bot : max (μ : EReal) ((Finset.univ : Finset (Fin W)).fold max ⊥ (s (n + 1))) ≠ ⊥ := by
      rw [← bot_lt_iff_ne_bot, lt_max_iff]
      exact Or.inl (EReal.bot_lt_coe μ)
    obtain ⟨μ', hm⟩ : ∃ μ' : ℝ,
        max (μ : EReal) ((Finset.univ : Finset (Fin W)).fold max ⊥ (s (n + 1))) = (μ' : EReal) :=
      ⟨_, (EReal.coe_toReal hne_top hne_bot).symm⟩
    have hα : Ideal.exp ((μ : EReal) - (μ' : EReal)) = ((Real.exp (μ - μ') : ℝ) : EReal) := by
      rw [← EReal.coe_sub, Ideal.exp_coe]
    refine ⟨μ', ?_⟩
    have key : ∀ j ∈ Finset.range (n + 1), ∀ c, Real.exp (μ - μ') * wt (s j c) μ = wt (s j c) μ' :=
      fun j hj c => wt_shift (hs j (by have := Finset.mem_range.1 hj; omega) c) μ μ'
    have e1 : Real.exp (μ - μ') * ∑ j ∈ Finset.range (n + 1), ∑ c, wt (s j c) μ
        = ∑ j ∈ Finset.range (n + 1), ∑ c, wt (s j c) μ' := by
      rw [Finset.mul_sum]
      refine Finset.sum_congr rfl fun j hj => ?_
      rw [Finset.mul_sum]
      exact Finset.sum_congr rfl fun c _ => key j hj c
    have e2 : Real.exp (μ - μ') * ∑ j ∈ Finset.range (n + 1), ∑ c, wt (s j c) μ * (v j c).toReal
        = ∑ j ∈ Finset.range (n + 1), ∑ c, wt (s j c) μ' * (v j c).toReal := by
      rw [Finset.mul_sum]
      refine Finset.sum_congr rfl fun j hj => ?_
      rw [Finset.mul_sum]
      exact Finset.sum_congr rfl fun c _ => by rw [← mul_assoc, key j hj c]
    have r1 := Finset.sum_range_succ (fun j => ∑ c, wt (s j c) μ') (n + 1)
    have r2 := Finset.sum_range_succ (fun j => ∑ c, wt (s j c) μ' * (v j c).toReal) (n + 1)
    show step (s (n + 1)) (v (n + 1)) (run s v (n + 1)) = _
    rw [hμ, step_coe _ _ hsn (hv _ hn) _ _ _ _ _ hm hα, e1, e2, r1, r2]

/-- The running maximum after `n` tiles is the least upper bound of the entries seen. -/
theorem run_max_le {W : ℕ} (s v : ℕ → Fin W → EReal) (n : ℕ) (x : EReal) :
    (run s v n).1 ≤ x ↔ ∀ j < n, ∀ c, s j c ≤ x := by
  induction n with
  | zero => simp [run]
  | succ n ih =>
    show max (run s v n).1 ((Finset.univ : Finset (Fin W)).fold max ⊥ (s n)) ≤ x ↔ _
    rw [max_le_iff, ih, Finset.fold_max_le]
    constructor
    · rintro ⟨h1, _, h2⟩ j hj c
      rcases Nat.lt_succ_iff_lt_or_eq.1 hj with h | rfl
      · exact h1 j h c
      · exact h2 c (Finset.mem_univ _)
    · intro h
      exact ⟨fun j hj c => h j (Nat.lt_succ_of_lt hj) c, bot_le,
        fun c _ => h n (Nat.lt_succ_self n) c⟩

/-- The whole-row maximum: the maximum over the tiles `j` of the tile maxima (each a fold of `max`
    from `⊥` over the columns `c` of tile `j`), joined with the reduction's initial value `⊥`. -/
def refMax {T W : ℕ} (S : Fin T → Fin W → EReal) : EReal :=
  max ⊥ ((Finset.univ : Finset (Fin T)).fold max ⊥
    fun j => (Finset.univ : Finset (Fin W)).fold max ⊥ (S j))

/-- The whole-row denominator `0 + ∑ j, ∑ c, exp (S j c - M)`. -/
def refDen {T W : ℕ} (S : Fin T → Fin W → EReal) : EReal :=
  0 + ∑ j : Fin T, ∑ c : Fin W, Ideal.exp (S j c - refMax S)

/-- The whole-row softmax-weighted average `0 + ∑ j, ∑ c, (exp (S j c - M) / L) * V j c`. -/
def refOut {T W : ℕ} (S V : Fin T → Fin W → EReal) : EReal :=
  0 + ∑ j : Fin T, ∑ c : Fin W, Ideal.div (Ideal.exp (S j c - refMax S)) (refDen S) * V j c

/-- The output of the running form after `n` tiles: numerator over denominator. -/
def onlineOut {W : ℕ} (s v : ℕ → Fin W → EReal) (n : ℕ) : EReal :=
  Ideal.div (run s v n).2.2 (run s v n).2.1

/-- The whole-row maximum is the least upper bound of all entries. -/
theorem refMax_le {T W : ℕ} (S : Fin T → Fin W → EReal) (x : EReal) :
    refMax S ≤ x ↔ ∀ j c, S j c ≤ x := by
  unfold refMax
  rw [max_le_iff, Finset.fold_max_le]
  constructor
  · rintro ⟨_, _, h⟩ j c
    exact ((Finset.fold_max_le x).1 (h j (Finset.mem_univ _))).2 c (Finset.mem_univ _)
  · intro h
    exact ⟨bot_le, bot_le, fun j _ => (Finset.fold_max_le x).2 ⟨bot_le, fun c _ => h j c⟩⟩

/-- A sum over all `T` tiles whose terms vanish beyond tile `J` is the sum over the tiles `0 … J`. -/
theorem sum_fin_eq_sum_range {T J : ℕ} (hJ : J < T) (f : Fin T → ℝ) (g : ℕ → ℝ)
    (hfg : ∀ j : Fin T, (j : ℕ) ≤ J → f j = g j) (hf0 : ∀ j : Fin T, J < (j : ℕ) → f j = 0) :
    ∑ j : Fin T, f j = ∑ j ∈ Finset.range (J + 1), g j := by
  have h1 : ∀ j : Fin T, f j = if (j : ℕ) ≤ J then g j else 0 := fun j => by
    by_cases h : (j : ℕ) ≤ J
    · rw [if_pos h]; exact hfg j h
    · rw [if_neg h]; exact hf0 j (Nat.lt_of_not_le h)
  rw [Finset.sum_congr rfl (fun j _ => h1 j),
    Fin.sum_univ_eq_sum_range (fun n => if n ≤ J then g n else 0) T,
    ← Finset.sum_subset (Finset.range_mono (Nat.succ_le_of_lt hJ))
      (fun n _ hn => if_neg (fun h => hn (Finset.mem_range.2 (Nat.lt_succ_of_le h))))]
  exact Finset.sum_congr rfl fun n hn => if_pos (Nat.lt_succ_iff.1 (Finset.mem_range.1 hn))

/-- **The running form equals the whole-row form.** `S`, `V` are the scores and values of all `T`
    tiles (what the whole-row form reads); `s`, `v` are the tiles as the running form reads them,
    equal to `S`, `V` on the processed tiles `0 … J`. The processed scores are never `⊤`, one score of
    tile `0` is not `⊥`, the processed values are real, and the scores of the skipped tiles `j > J` are
    `⊥`. Then numerator over denominator after the tiles `0 … J` is the softmax-weighted average over
    the whole row. -/
theorem onlineOut_eq_refOut {T W : ℕ} (J : ℕ) (hJ : J < T)
    (S V : Fin T → Fin W → EReal) (s v : ℕ → Fin W → EReal)
    (hsS : ∀ j : Fin T, (j : ℕ) ≤ J → ∀ c, S j c = s j c)
    (hvV : ∀ j : Fin T, (j : ℕ) ≤ J → ∀ c, V j c = v j c)
    (hfut : ∀ j : Fin T, J < (j : ℕ) → ∀ c, S j c = ⊥)
    (hs : ∀ j ≤ J, ∀ c, s j c ≠ ⊤)
    (h0 : ∃ c₀, s 0 c₀ ≠ ⊥)
    (hv : ∀ j ≤ J, ∀ c, ∃ r : ℝ, v j c = (r : EReal)) :
    onlineOut s v (J + 1) = refOut S V := by
  have hv' : ∀ j ≤ J, ∀ c, v j c = (((v j c).toReal : ℝ) : EReal) := fun j hj c => by
    obtain ⟨r, hr⟩ := hv j hj c
    rw [hr, EReal.toReal_coe]
  obtain ⟨μ, hμ⟩ := run_inv s v J hs h0 hv' J le_rfl
  -- every score of the whole row is below `⊤`
  have hS : ∀ j c, S j c ≠ ⊤ := fun j c => by
    by_cases h : (j : ℕ) ≤ J
    · rw [hsS j h c]; exact hs j h c
    · rw [hfut j (Nat.lt_of_not_le h) c]; exact bot_ne_top
  -- the whole-row maximum is the running maximum
  have hM : refMax S = (μ : EReal) := by
    have hm : (run s v (J + 1)).1 = (μ : EReal) := by rw [hμ]
    rw [← hm]
    refine eq_of_forall_ge_iff fun x => ?_
    rw [refMax_le, run_max_le]
    constructor
    · intro h j hj c
      have hjT : j < T := lt_of_lt_of_le hj (Nat.succ_le_of_lt hJ)
      have := h ⟨j, hjT⟩ c
      rwa [hsS ⟨j, hjT⟩ (Nat.lt_succ_iff.1 hj) c] at this
    · intro h j c
      by_cases hj : (j : ℕ) ≤ J
      · rw [hsS j hj c]; exact h j (Nat.lt_succ_of_le hj) c
      · rw [hfut j (Nat.lt_of_not_le hj) c]; exact bot_le
  -- the real denominator is positive
  have hLpos : 0 < ∑ j ∈ Finset.range (J + 1), ∑ c, wt (s j c) μ := by
    obtain ⟨c₀, hc₀⟩ := h0
    refine Finset.sum_pos' (fun j _ => Finset.sum_nonneg fun c _ => wt_nonneg _ _)
      ⟨0, Finset.mem_range.2 (Nat.succ_pos J), ?_⟩
    exact Finset.sum_pos' (fun c _ => wt_nonneg _ _)
      ⟨c₀, Finset.mem_univ _, wt_pos hc₀ (hs 0 (Nat.zero_le _) c₀) μ⟩
  have hLne : (∑ j ∈ Finset.range (J + 1), ∑ c, wt (s j c) μ) ≠ 0 := ne_of_gt hLpos
  -- the whole-row denominator is the running denominator
  have hL : refDen S = ((∑ j ∈ Finset.range (J + 1), ∑ c, wt (s j c) μ : ℝ) : EReal) := by
    unfold refDen
    rw [hM, zero_add,
      Finset.sum_congr rfl (fun j _ => Finset.sum_congr rfl (fun c _ => exp_sub_coe (hS j c) μ)),
      Finset.sum_congr rfl (fun j _ => coe_sum Finset.univ (fun c => wt (S j c) μ)), coe_sum]
    congr 1
    refine sum_fin_eq_sum_range hJ _ (fun j => ∑ c, wt (s j c) μ) (fun j hj => ?_) (fun j hj => ?_)
    · exact Finset.sum_congr rfl fun c _ => by rw [hsS j hj c]
    · exact Finset.sum_eq_zero fun c _ => by rw [hfut j hj c]; simp [wt]
  -- each term of the whole-row numerator is a real number
  have hterm : ∀ (j : Fin T) (c : Fin W),
      Ideal.div (Ideal.exp (S j c - refMax S)) (refDen S) * V j c
        = ((wt (S j c) μ * (1 / ∑ j ∈ Finset.range (J + 1), ∑ c, wt (s j c) μ)
            * (V j c).toReal : ℝ) : EReal) := fun j c => by
    rw [hM, hL, Ideal.div_coe hLne, exp_sub_coe (hS j c) μ, ← EReal.coe_mul]
    by_cases hj : (j : ℕ) ≤ J
    · rw [hvV j hj c, hv' j hj c, EReal.toReal_coe, ← EReal.coe_mul]
    · have h0' : wt (S j c) μ = 0 := by rw [hfut j (Nat.lt_of_not_le hj) c]; simp [wt]
      rw [h0', zero_mul, zero_mul, EReal.coe_zero, zero_mul]
  unfold refOut onlineOut
  rw [hμ, Ideal.div_coe hLne, ← EReal.coe_mul, zero_add,
    Finset.sum_congr rfl (fun j _ => Finset.sum_congr rfl (fun c _ => hterm j c)),
    Finset.sum_congr rfl (fun j _ => coe_sum Finset.univ _), coe_sum]
  congr 1
  rw [sum_fin_eq_sum_range hJ _
    (fun j => ∑ c, wt (s j c) μ * (1 / ∑ j ∈ Finset.range (J + 1), ∑ c, wt (s j c) μ)
      * (v j c).toReal) (fun j hj => ?_) (fun j hj => ?_), Finset.sum_mul]
  · refine Finset.sum_congr rfl fun j _ => ?_
    rw [Finset.sum_mul]
    exact Finset.sum_congr rfl fun c _ => by ring
  · exact Finset.sum_congr rfl fun c _ => by rw [hsS j hj c, hvV j hj c]
  · exact Finset.sum_eq_zero fun c _ => by rw [hfut j hj c]; simp [wt]

/-- Unfolding: no tile processed. -/
theorem run_zero {W : ℕ} (s v : ℕ → Fin W → EReal) : run s v 0 = (⊥, 0, 0) := rfl

/-- Unfolding: one more tile processed. -/
theorem run_succ {W : ℕ} (s v : ℕ → Fin W → EReal) (n : ℕ) :
    run s v (n + 1) = step (s n) (v n) (run s v n) := rfl

/-- Unfolding by component: the running maximum after one more tile. -/
theorem run_succ_max {W : ℕ} (s v : ℕ → Fin W → EReal) (n : ℕ) :
    (run s v (n + 1)).1 = max (run s v n).1 ((Finset.univ : Finset (Fin W)).fold max ⊥ (s n)) := rfl

/-- Unfolding by component: the running denominator after one more tile, the old one rescaled to the
    new maximum plus the tile's weights. -/
theorem run_succ_den {W : ℕ} (s v : ℕ → Fin W → EReal) (n : ℕ) :
    (run s v (n + 1)).2.1
      = Ideal.exp ((run s v n).1
            - max (run s v n).1 ((Finset.univ : Finset (Fin W)).fold max ⊥ (s n))) * (run s v n).2.1
        + ∑ c : Fin W, Ideal.exp (s n c
            - max (run s v n).1 ((Finset.univ : Finset (Fin W)).fold max ⊥ (s n))) := rfl

/-- Unfolding by component: the running numerator after one more tile, the old one rescaled to the
    new maximum plus the tile's weighted values. -/
theorem run_succ_num {W : ℕ} (s v : ℕ → Fin W → EReal) (n : ℕ) :
    (run s v (n + 1)).2.2
      = Ideal.exp ((run s v n).1
            - max (run s v n).1 ((Finset.univ : Finset (Fin W)).fold max ⊥ (s n))) * (run s v n).2.2
        + ∑ c : Fin W, Ideal.exp (s n c
            - max (run s v n).1 ((Finset.univ : Finset (Fin W)).fold max ⊥ (s n))) * v n c := rfl

/-- The running denominator after one more tile, written with the new running maximum. -/
theorem run_succ_den' {W : ℕ} (s v : ℕ → Fin W → EReal) (n : ℕ) :
    (run s v (n + 1)).2.1
      = Ideal.exp ((run s v n).1 - (run s v (n + 1)).1) * (run s v n).2.1
        + ∑ c : Fin W, Ideal.exp (s n c - (run s v (n + 1)).1) := rfl

/-- The running numerator after one more tile, written with the new running maximum. -/
theorem run_succ_num' {W : ℕ} (s v : ℕ → Fin W → EReal) (n : ℕ) :
    (run s v (n + 1)).2.2
      = Ideal.exp ((run s v n).1 - (run s v (n + 1)).1) * (run s v n).2.2
        + ∑ c : Fin W, Ideal.exp (s n c - (run s v (n + 1)).1) * v n c := rfl

/-- The components of the state before any tile. -/
theorem run_zero_max {W : ℕ} (s v : ℕ → Fin W → EReal) : (run s v 0).1 = ⊥ := rfl
/-- The running denominator before any tile. -/
theorem run_zero_den {W : ℕ} (s v : ℕ → Fin W → EReal) : (run s v 0).2.1 = 0 := rfl
/-- The running numerator before any tile. -/
theorem run_zero_num {W : ℕ} (s v : ℕ → Fin W → EReal) : (run s v 0).2.2 = 0 := rfl

/-- The whole-row denominator without the reduction's initial `0`. -/
theorem refDen_eq {T W : ℕ} (S : Fin T → Fin W → EReal) :
    refDen S = ∑ j : Fin T, ∑ c : Fin W, Ideal.exp (S j c - refMax S) := by
  unfold refDen; rw [zero_add]

/-- The whole-row average without the zero accumulator. -/
theorem refOut_eq {T W : ℕ} (S V : Fin T → Fin W → EReal) :
    refOut S V
      = ∑ j : Fin T, ∑ c : Fin W, Ideal.div (Ideal.exp (S j c - refMax S)) (refDen S) * V j c := by
  unfold refOut; rw [zero_add]

/-- Two maxima (folds of `max` from `⊥`) over finite index types with the same upper bounds are
    equal: this re-indexes a row maximum (tile by tile, over pairs, over a flat index). -/
theorem fold_max_eq_of_forall_le {ι κ : Type*} [Fintype ι] [Fintype κ]
    (f : ι → EReal) (g : κ → EReal) (h : ∀ x, (∀ i, f i ≤ x) ↔ ∀ k, g k ≤ x) :
    (Finset.univ : Finset ι).fold max ⊥ f = (Finset.univ : Finset κ).fold max ⊥ g := by
  refine eq_of_forall_ge_iff fun x => ?_
  rw [Finset.fold_max_le, Finset.fold_max_le]
  constructor
  · rintro ⟨_, h1⟩
    exact ⟨bot_le, fun k _ => (h x).1 (fun i => h1 i (Finset.mem_univ _)) k⟩
  · rintro ⟨_, h1⟩
    exact ⟨bot_le, fun i _ => (h x).2 (fun k => h1 k (Finset.mem_univ _)) i⟩

/-- The whole-row maximum as ONE fold over the pairs (tile, column). -/
theorem refMax_eq_fold_prod {T W : ℕ} (S : Fin T → Fin W → EReal) :
    refMax S = max ⊥ ((Finset.univ : Finset (Fin T × Fin W)).fold max ⊥ fun p => S p.1 p.2) := by
  refine eq_of_forall_ge_iff fun x => ?_
  rw [refMax_le, max_le_iff, Finset.fold_max_le]
  constructor
  · intro h
    exact ⟨bot_le, bot_le, fun p _ => h p.1 p.2⟩
  · rintro ⟨_, _, h⟩ j c
    exact h (j, c) (Finset.mem_univ _)

/-- The tiles of `S` read by tile number: tile `n` for `n < T`, the constant `⊥` beyond. -/
def tiles {T W : ℕ} (S : Fin T → Fin W → EReal) (n : ℕ) : Fin W → EReal :=
  if h : n < T then S ⟨n, h⟩ else fun _ => ⊥

/-- Reading tile number `j < T` gives tile `j`. -/
theorem tiles_coe {T W : ℕ} (S : Fin T → Fin W → EReal) (j : Fin T) : tiles S (j : ℕ) = S j := by
  unfold tiles; rw [dif_pos j.2]

/-- The running form equals the whole-row form, with the running form reading the same `S`, `V`
    tile by tile (`tiles`). -/
theorem onlineOut_tiles_eq_refOut {T W : ℕ} (J : ℕ) (hJ : J < T)
    (S V : Fin T → Fin W → EReal)
    (hS : ∀ j : Fin T, (j : ℕ) ≤ J → ∀ c, S j c ≠ ⊤)
    (h0 : ∃ c₀, S ⟨0, Nat.lt_of_le_of_lt (Nat.zero_le J) hJ⟩ c₀ ≠ ⊥)
    (hV : ∀ j : Fin T, (j : ℕ) ≤ J → ∀ c, ∃ r : ℝ, V j c = (r : EReal))
    (hfut : ∀ j : Fin T, J < (j : ℕ) → ∀ c, S j c = ⊥) :
    onlineOut (tiles S) (tiles V) (J + 1) = refOut S V := by
  refine onlineOut_eq_refOut J hJ S V (tiles S) (tiles V)
    (fun j _ c => by rw [tiles_coe]) (fun j _ c => by rw [tiles_coe]) hfut ?_ ?_ ?_
  · intro j hj c
    have hjT : j < T := lt_of_le_of_lt hj hJ
    have := hS ⟨j, hjT⟩ hj c
    rwa [← tiles_coe S ⟨j, hjT⟩] at this
  · obtain ⟨c₀, hc₀⟩ := h0
    exact ⟨c₀, by rwa [← tiles_coe S ⟨0, _⟩] at hc₀⟩
  · intro j hj c
    have hjT : j < T := lt_of_le_of_lt hj hJ
    have := hV ⟨j, hjT⟩ hj c
    rwa [← tiles_coe V ⟨j, hjT⟩] at this

/-- The running form equals the whole-row form for MASKED scores: on the processed tiles a score is
    the real `σ j c` where `mask j c` holds and `⊥` elsewhere, the first tile has an unmasked column,
    and the values are the reals `ν j c`. -/
theorem onlineOut_eq_refOut_of_mask {T W : ℕ} (J : ℕ) (hJ : J < T)
    (S V : Fin T → Fin W → EReal) (s v : ℕ → Fin W → EReal)
    (mask : ℕ → Fin W → Prop) [∀ j c, Decidable (mask j c)] (σ ν : ℕ → Fin W → ℝ)
    (hsS : ∀ j : Fin T, (j : ℕ) ≤ J → ∀ c, S j c = s j c)
    (hvV : ∀ j : Fin T, (j : ℕ) ≤ J → ∀ c, V j c = v j c)
    (hfut : ∀ j : Fin T, J < (j : ℕ) → ∀ c, S j c = ⊥)
    (hs : ∀ j ≤ J, ∀ c, s j c = if mask j c then ((σ j c : ℝ) : EReal) else ⊥)
    (h0 : ∃ c₀, mask 0 c₀)
    (hv : ∀ j ≤ J, ∀ c, v j c = ((ν j c : ℝ) : EReal)) :
    onlineOut s v (J + 1) = refOut S V := by
  refine onlineOut_eq_refOut J hJ S V s v hsS hvV hfut ?_ ?_ (fun j hj c => ⟨ν j c, hv j hj c⟩)
  · intro j hj c
    rw [hs j hj c]
    split
    · exact EReal.coe_ne_top _
    · exact bot_ne_top
  · obtain ⟨c₀, hc₀⟩ := h0
    refine ⟨c₀, ?_⟩
    rw [hs 0 (Nat.zero_le _) c₀, if_pos hc₀]
    exact EReal.coe_ne_bot _

end

end OnlineSoftmax
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibRowOpsFormats.lean ====
/-
  Rows against rows, whatever the operands' float formats.

  A matrix-unit product that contracts the last axis of an [a, n] and a [b, n] operand into a zero accumulator is, on the
  extended reals, the sum over k of x(p,k) * w(e,k) at (p, e) — also when the two operands are held in shorter float
  formats than the accumulator (a change of format is the identity there). The dimension record may be any record equal
  to "contract axis 1 of both, keep axis 0 of each, no batch axis".
-/
import proofs.«181537_j23003844837560_2_alg».proof.Proof.LibRowOps
import Idealize.ShloMosaic.PureOps.Ideal.Laws
import Idealize.ShloMosaic.Lib.ValueIdx

noncomputable section

open scoped BigOperators

namespace Cert.RowOps

open Idealize.ShloMosaic Idealize.ShloMosaic.ValueIdx

/-- A product contracting the last axis of an [a, n] and a [b, n] operand into the zero accumulator, whatever the
    operands' float formats, is at (p, e) the sum over k of x(p,k) * w(e,k). -/
theorem rows_matmul {a b n : ℕ} {φ₁ φ₂ : FTy}
    (wf : DotDims.WF ⟨2, ![a, n]⟩ ⟨2, ![b, n]⟩ ⟨2, ![a, b]⟩ [1] [1] [0] [0] [] [])
    (d : DotDims ⟨2, ![a, n]⟩ ⟨2, ![b, n]⟩ ⟨2, ![a, b]⟩) (hd : d = rowsDims wf)
    (x : FVec Ideal ⟨2, ![a, n]⟩ φ₁) (w : FVec Ideal ⟨2, ![b, n]⟩ φ₂) (p : Fin a) (e : Fin b) :
    FloatOps.matmul d none x w (constant ⟨2, ![a, b]⟩ .f32 0x00000000#32) (ix2 p e)
      = ∑ k : Fin n, x (ix2 p k) * w (ix2 e k) := by
  subst hd
  exact (Ideal.matmul_constant_zero_apply (rowsDims wf) none x w (ix2 p e)).trans (contraction_rows wf x w p e)

end Cert.RowOps

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibRowReduce.lean ====
/-
  Reading a two-dimensional value row by row on the extended reals.

  A row statistic kept as a column — a reduction of an [a, b] value over its last axis, viewed as [a, 1] and
  broadcast back to [a, b] — reads, at (p, j), the statistic of row p.  The maximum of a row is the fold of
  `max` over its entries from the starting value; the sum of a row is the finite sum of its entries.  The same
  two readings hold for a host reduction of an [a, b, c] array over its last axis, row (p, q).
-/
import Idealize.ShloMosaic.PureOps.Ideal.Laws
import Idealize.ShloMosaic.Lib.Pipeline.Value
import Idealize.ShloMosaic.Lib.ValueIdx

noncomputable section

namespace RowReduce

open Idealize.ShloMosaic Idealize.ShloMosaic.ValueIdx

/-- The maximum of a finite family of extended reals, folded from a starting value. -/
def foldMax {n : Nat} (init : EReal) (f : Fin n → EReal) : EReal :=
  (Finset.univ : Finset (Fin n)).fold max init f

/-- The f32 word of −∞ is the bottom of the extended reals, so it is neutral for `max`. -/
theorem max_negInf (y : EReal) : max (Ideal.ofBits .f32 0xFF800000#32) y = y := by
  simp [Ideal.ofBits, Ideal.ieee]

section Layout
variable {α : Type}

/-- A vector of `a` entries viewed as a column [a, 1] reads entry `p` at (p, 0). -/
theorem shapeCast_column_apply {a : Nat} (z : (⟨1, ![a]⟩ : Shape).Idx → α)
    (h : (⟨1, ![a]⟩ : Shape).ShapeCasts ⟨2, ![a, 1]⟩) (p : Fin a) (q : Fin 1) :
    shapeCast ⟨2, ![a, 1]⟩ z h (ix2 p q) = z (ix1 p) := by
  refine shapeCast_apply z h (ix2 p q) (ix1 p) ?_
  rw [Shape.rowMajor_val_one, Shape.rowMajor_val_two]
  show p.val = p.val * 1 + q.val
  have := q.isLt
  omega

/-- A column [a, 1] broadcast along its rows to [a, b] reads (p, 0) at (p, j). -/
theorem broadcastTo_column_apply {a b : Nat} (z : (⟨2, ![a, 1]⟩ : Shape).Idx → α)
    (h : (⟨2, ![a, 1]⟩ : Shape).Broadcasts ⟨2, ![a, b]⟩) (p : Fin a) (j : Fin b) :
    broadcastTo ⟨2, ![a, b]⟩ z h (ix2 p j) = z (ix2 p (0 : Fin 1)) := by
  refine broadcastTo_apply z h (ix2 p j) (ix2 p (0 : Fin 1)) fun c => ?_
  match c with
  | ⟨0, _⟩ =>
    show p.val = if a = 1 then 0 else p.val
    by_cases h1 : a = 1
    · rw [if_pos h1]; have := p.isLt; omega
    · rw [if_neg h1]
  | ⟨1, _⟩ =>
    show (0 : Nat) = if (1 : Nat) = 1 then 0 else j.val
    rw [if_pos rfl]

/-- So a row statistic `z` kept as a column and broadcast back reads `z p` at (p, j). -/
theorem column_broadcast_apply {a b : Nat} (z : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (j : Fin b) :
    broadcastTo ⟨2, ![a, b]⟩ (shapeCast ⟨2, ![a, 1]⟩ z h1) h2 (ix2 p j) = z (ix1 p) :=
  (broadcastTo_column_apply _ h2 p j).trans (shapeCast_column_apply z h1 p 0)

end Layout

/-! ## A reduction over the last axis of a two-dimensional value -/

/-- Row index `p` with coordinate `k` put back on the last axis is (p, k). -/
theorem lift_last2 {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The maximum over the last axis, at row `p`: the fold of `max` over the row's entries. -/
theorem multiReduction_max_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction (F := Ideal) .maximumf [1] ⟨1, ![a]⟩ x acc h hφ hacc (ix1 p)
      = foldMax (Ideal.ofBits φ acc) fun k : Fin b => x (ix2 p k) := by
  refine (Ideal.multiReduction_maximumf_single x acc h hφ hacc (ix1 p)).trans ?_
  have hf : (x ∘ h.lift (ix1 p)) = fun k : Fin b => x (ix2 p k) := funext fun k => congrArg x (lift_last2 h p k)
  unfold foldMax
  exact congrArg (fun f => Finset.fold max (Ideal.ofBits φ acc) f (Finset.univ : Finset (Fin b))) hf

/-- The sum over the last axis, at row `p`: the sum of the row's entries. -/
theorem multiReduction_add_row {a b : Nat} {φ : FTy} (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction (F := Ideal) .add [1] ⟨1, ![a]⟩ x acc h hφ hacc (ix1 p) = ∑ k : Fin b, x (ix2 p k) := by
  refine (Ideal.multiReduction_add_single x acc h hφ hacc (ix1 p)).trans ?_
  exact Finset.sum_congr rfl fun k _ => congrArg x (lift_last2 h p k)

/-! ## A host reduction over the last axis of a three-dimensional array -/

/-- Row index (p, q) with coordinate `k` put back on the last axis is (p, q, k). -/
theorem lift_last3 {a b c : Nat} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The host's maximum over the last axis, at row (p, q): the fold of `max` over the row's entries from the
    initial value. -/
theorem hostReduce_max_row {a b c : Nat} {φ : FTy} {u : Shape} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = foldMax (init (Shape.Idx.first hu)) fun k : Fin c => x (ix3 p q k) := by
  refine (Host.reduce_eq_fold_single FloatOps.maximumf x init h' h hu (ix2 p q)).trans ?_
  have hf : (x ∘ h.lift (ix2 p q)) = fun k : Fin c => x (ix3 p q k) := funext fun k => congrArg x (lift_last3 h p q k)
  unfold foldMax
  exact congrArg (fun f => Finset.fold max (init (Shape.Idx.first hu)) f (Finset.univ : Finset (Fin c))) hf

end RowReduce

end
-- ==== Proof.KI.TileScores.lean ====
/-
  The attention region's constants, its first and last values, and one tile of masked scores.

  At the extended reals: the named mask value is the bottom element, the scale word is 1/8, the
  word of minus infinity is the bottom element, the zero word is 0.  The running maximum starts
  at bottom, the running denominator and numerator at 0; the query block is read unchanged; the
  result is numerator / denominator.  A tile of scores, for the column-offset word `off`, is at
  (r, c) the scaled dot product of query row r with key row c where
  offset + c ≤ 512·block + r, and bottom elsewhere: the two sides of the comparison are 32-bit
  words of numbers below 4096, so the signed comparison is the comparison of the numbers.
-/
import proofs.«181537_j23003844837560_2_alg».proof.Proof.KI.Base
import proofs.«181537_j23003844837560_2_alg».proof.Proof.LibOnlineSoftmax
import proofs.«181537_j23003844837560_2_alg».proof.Proof.LibRowOpsFormats
import proofs.«181537_j23003844837560_2_alg».proof.Proof.LibColsMatmul
import proofs.«181537_j23003844837560_2_alg».proof.Proof.LibRowReduce

open scoped BigOperators
noncomputable section
namespace Cert.KernelIdeal.Hand
open Cert.KernelIdeal Cert.KernelIdeal.Gen
open Idealize.ShloMosaic Idealize.ShloMosaic.ValueIdx

/-- The named mask value is the bottom element. -/
theorem negBig : Named.named (F := Ideal) κ "neg_big" (φ := .f32) 0xFF333332#32 = (⊥ : EReal) :=
  IdealRules.named_const.ideal_named_scalar _ _ _ _ rfl

/-- The scale word is 1/8. -/
theorem eighth : (Scalar.ofBits (F := Ideal) .f32 0x3E000000#32 : EReal) = ((1 / 8 : ℝ) : EReal) := by
  simp [Ideal.ofBits, Ideal.ieee]
  rw [← EReal.coe_mul]
  congr 1
  norm_num

theorem negInfWord : Ideal.ofBits .f32 0xFF800000#32 = (⊥ : EReal) := by
  simp [Ideal.ofBits, Ideal.ieee]

theorem zeroWord : Ideal.ofBits .f32 0x00000000#32 = (0 : EReal) := by
  simp [Ideal.ofBits, Ideal.ieee]

theorem init_max (r : Fin 512) : k1_pay74 (F := Ideal) (ix2 r 0) = ⊥ := by
  unfold k1_pay74
  rw [shapeCast_self]
  exact negBig

theorem init_den (r : Fin 512) : k1_pay75 (F := Ideal) (ix2 r 0) = 0 := by
  unfold k1_pay75
  rw [shapeCast_self]
  exact zeroWord

theorem init_num (r : Fin 512) (a : Fin 64) : k1_pay76 (F := Ideal) (ix2 r a) = 0 := by
  unfold k1_pay76
  rw [shapeCast_self]
  exact zeroWord

/-- A [1,512,64] block viewed as [512,64] reads (0, r, a) at (r, a). -/
theorem dropUnit_apply {α : Type} (v : S1x512x64.Idx → α) (r : Fin 512) (a : Fin 64) :
    shapeCast S512x64 v shapeCasts_S1x512x64_S512x64 (ix2 r a) = v (ix3 0 r a) := by
  refine shapeCast_apply v _ (ix2 r a) (ix3 0 r a) ?_
  rw [Shape.rowMajor_val_three, Shape.rowMajor_val_two]
  show (0 * 512 + r.val) * 64 + a.val = r.val * 64 + a.val
  omega

theorem qcast (v12 : Vec Ideal S1x512x64 .bf16) (r : Fin 512) (a : Fin 64) :
    k1_pay77 v12 (ix2 r a) = v12 (ix3 0 r a) := dropUnit_apply v12 r a

theorem final_div (v38 : Vec Ideal S512x64 .f32) (v39 : Vec Ideal S512x1 .f32) (r : Fin 512) (a : Fin 64) :
    k1_pay9 v38 v39 (ix3 0 r a) = Ideal.div (v38 (ix2 r a)) (v39 (ix2 r 0)) := by
  unfold k1_pay9
  refine (shapeCast_apply _ _ (ix3 0 r a) (ix2 r a) ?_).trans ?_
  · rw [Shape.rowMajor_val_three, Shape.rowMajor_val_two]
    show r.val * 64 + a.val = (0 * 512 + r.val) * 64 + a.val
    omega
  · rw [divf_apply, RowReduce.broadcastTo_column_apply]

/-- For numbers below 2^31 the signed comparison of their 32-bit words is the comparison of the numbers. -/
theorem sge_small (x y : ℕ) (hx : x < 2 ^ 31) (hy : y < 2 ^ 31) :
    IntOp.cmpi .sge (BitVec.ofNat 32 x) (BitVec.ofNat 32 y) = 1#1 ↔ y ≤ x := by
  have hx' : (BitVec.ofNat 32 x).toNat = x := by rw [BitVec.toNat_ofNat]; omega
  have hy' : (BitVec.ofNat 32 y).toNat = y := by rw [BitVec.toNat_ofNat]; omega
  rw [IntOp.cmpi_sge, BitVec.toInt_eq_toNat_of_lt (by omega), BitVec.toInt_eq_toNat_of_lt (by omega), hx', hy']
  omega

/-- The row word: 512·block + r, no wrap-around. -/
theorem rowWord (qi : ℕ) (hqi : qi < 8) (r : Fin 512) :
    IntOp.addi (Scalar.muli (BitVec.ofNat 32 qi) 512#32) (BitVec.ofNat 32 r.val) = BitVec.ofNat 32 (qi * 512 + r.val) := by
  apply BitVec.eq_of_toNat_eq
  have := r.isLt
  simp only [IntOp.addi, Scalar.muli, IntOp.muli, BitVec.toNat_add, BitVec.toNat_mul, BitVec.toNat_ofNat]
  omega

/-- The column word: 512·tile + c, no wrap-around. -/
theorem colWord (j : ℕ) (hj : j < 8) (c : Fin 512) :
    IntOp.addi (BitVec.ofNat 32 (j * 512)) (BitVec.ofNat 32 c.val) = BitVec.ofNat 32 (j * 512 + c.val) := by
  apply BitVec.eq_of_toNat_eq
  have := c.isLt
  simp only [IntOp.addi, BitVec.toNat_add, BitVec.toNat_ofNat]
  omega

/-- The masked, scaled score tile with column-offset word `off`. -/
def tScore (off arg1 : BitVec 32) (v13 : FVec Ideal S512x64 .bf16) (v45 : Vec Ideal S1x512x64 .bf16) : FVec Ideal S512x512 .f32 :=
  have v46 : FVec Ideal S512x64 .bf16 := shapeCast S512x64 v45 shapeCasts_S1x512x64_S512x64
  have cst_31 : FVec Ideal S512x512 .f32 := constant S512x512 .f32 0x00000000#32
  have v49 : FVec Ideal S512x512 .f32 := matmul dot_S512x64_S512x64_S512x512_1_1_0_0_n_n none v13 v46 cst_31
  have cst_32 : Ideal .f32 := Scalar.ofBits .f32 0x3E000000#32
  have v50 : FVec Ideal S512x512 .f32 := broadcast S512x512 cst_32
  have v51 : FVec Ideal S512x512 .f32 := mulf v49 v50
  let v52 : BitVec 32 := Scalar.muli arg1 512#32
  have v53 : IVec S512x512 32 := iota .tc S512x512 32 [0] iota_S512x512_d0_w32
  have v54 : IVec S512x512 32 := broadcast S512x512 v52
  have v55 : IVec S512x512 32 := addi v54 v53
  have v56 : IVec S512x512 32 := iota .tc S512x512 32 [1] iota_S512x512_d1_w32
  have v57 : IVec S512x512 32 := broadcast S512x512 off
  have v58 : IVec S512x512 32 := addi v57 v56
  have v59 : IVec S512x512 1 := cmpi .sge v55 v58
  have cst_34 : Ideal .f32 := Named.named κ "neg_big" 0xFF333332#32
  have v60 : FVec Ideal S512x512 .f32 := broadcast S512x512 cst_34
  have v61 : FVec Ideal S512x512 .f32 := select v59 v51 v60
  v61

theorem scoreDims_eq : dot_S512x64_S512x64_S512x512_1_1_0_0_n_n = Cert.RowOps.rowsDims dot_S512x64_S512x64_S512x512_1_1_0_0_n_n_wf := rfl

/-- The masked, scaled score at row `r`, column `c` of tile `j`, for the query block `qi`. -/
theorem tScore_apply (j qi : ℕ) (hj : j < 8) (hqi : qi < 8) (v13 : FVec Ideal S512x64 .bf16)
    (v45 : Vec Ideal S1x512x64 .bf16) (r c : Fin 512) :
    tScore (BitVec.ofNat 32 (j * 512)) (BitVec.ofNat 32 qi) v13 v45 (ix2 r c)
      = if j * 512 + c.val ≤ qi * 512 + r.val
          then (∑ a' : Fin 64, v13 (ix2 r a') * v45 (ix3 0 c a')) * ((1 / 8 : ℝ) : EReal) else ⊥ := by
  have e0 : iota .tc S512x512 32 [0] iota_S512x512_d0_w32 (ix2 r c) = BitVec.ofNat 32 r.val :=
    iota_single_apply _ _ _ _ _ _
  have e1 : iota .tc S512x512 32 [1] iota_S512x512_d1_w32 (ix2 r c) = BitVec.ofNat 32 c.val :=
    iota_single_apply _ _ _ _ _ _
  have hm : matmul dot_S512x64_S512x64_S512x512_1_1_0_0_n_n none v13
        (shapeCast S512x64 v45 shapeCasts_S1x512x64_S512x64 : FVec Ideal S512x64 .bf16) (constant S512x512 .f32 0x00000000#32) (ix2 r c)
      = ∑ a' : Fin 64, v13 (ix2 r a') * v45 (ix3 0 c a') := by
    refine (Cert.RowOps.rows_matmul dot_S512x64_S512x64_S512x512_1_1_0_0_n_n_wf _ scoreDims_eq v13 _ r c).trans ?_
    exact Finset.sum_congr rfl fun a' _ => congrArg (v13 (ix2 r a') * ·) (dropUnit_apply v45 c a')
  show Scalar.select (IntOp.cmpi .sge
        (IntOp.addi (Scalar.muli (BitVec.ofNat 32 qi) 512#32) (iota .tc S512x512 32 [0] iota_S512x512_d0_w32 (ix2 r c)))
        (IntOp.addi (BitVec.ofNat 32 (j * 512)) (iota .tc S512x512 32 [1] iota_S512x512_d1_w32 (ix2 r c))))
      (matmul dot_S512x64_S512x64_S512x512_1_1_0_0_n_n none v13
        (shapeCast S512x64 v45 shapeCasts_S1x512x64_S512x64 : FVec Ideal S512x64 .bf16) (constant S512x512 .f32 0x00000000#32) (ix2 r c)
        * Scalar.ofBits (F := Ideal) .f32 0x3E000000#32)
      (Named.named (F := Ideal) κ "neg_big" (φ := .f32) 0xFF333332#32) = _
  rw [e0, e1, rowWord qi hqi r, colWord j hj c, hm, negBig, eighth]
  have hr := r.isLt
  have hc := c.isLt
  unfold Scalar.select
  by_cases h : j * 512 + c.val ≤ qi * 512 + r.val
  · rw [if_pos h]
    exact if_pos ((sge_small _ _ (by omega) (by omega)).mpr h)
  · rw [if_neg h]
    exact if_neg fun hh => h ((sge_small _ _ (by omega) (by omega)).mp hh)

/-! The eight tiles' score payloads are this text at the offsets 0, 512, …, 3584. -/
theorem pay11_eq : k1_pay11 (F := Ideal) = tScore 0#32 := rfl
theorem pay19_eq : k1_pay19 (F := Ideal) = tScore 512#32 := rfl
theorem pay27_eq : k1_pay27 (F := Ideal) = tScore 1024#32 := rfl
theorem pay35_eq : k1_pay35 (F := Ideal) = tScore 1536#32 := rfl
theorem pay43_eq : k1_pay43 (F := Ideal) = tScore 2048#32 := rfl
theorem pay51_eq : k1_pay51 (F := Ideal) = tScore 2560#32 := rfl
theorem pay59_eq : k1_pay59 (F := Ideal) = tScore 3072#32 := rfl
theorem pay67_eq : k1_pay67 (F := Ideal) = tScore 3584#32 := rfl

end Cert.KernelIdeal.Hand
-- ==== Proof.KI.TileStep.lean ====
/-
  One tile's update of a row's running maximum, denominator and numerator is one step of the
  running (tile-by-tile) form of softmax-weighted averaging.

  Over any tile of scores S and the state columns m, l and the numerator block acc: the new maximum at
  row r is max (m r) (max over c of S(r,c)) — a row maximum from minus infinity, kept as a column —;
  the correction is exp (m r − m' r), the weights exp (S(r,c) − m' r) — the column m' broadcast along
  the row —; the new denominator is correction · l r + Σ_c weights; the new numerator at channel a is
  correction · acc(r,a) + Σ_c weight(r,c) · v(c,a) — a product contracting the weights' columns with
  the value rows, the weights' change of format being the identity.  With the tile's scores read as
  the masked scaled dot products these are the three components of `OnlineSoftmax.step`.
-/
import proofs.«181537_j23003844837560_2_alg».proof.Proof.KI.TileScores

open scoped BigOperators
noncomputable section
namespace Cert.KernelIdeal.Hand
open Cert.KernelIdeal Cert.KernelIdeal.Gen
open Idealize.ShloMosaic Idealize.ShloMosaic.ValueIdx

section Step
variable (S : FVec Ideal S512x512 .f32) (m l : Vec Ideal S512x1 .f32) (acc : Vec Ideal S512x64 .f32)
  (v47 : Vec Ideal S1x512x64 .bf16)

/-- The new running maximum, as a column. -/
def gMax : FVec Ideal S512x1 .f32 :=
  maximumf m (shapeCast S512x1 (multiReduction .maximumf [1] S512 S 0xFF800000#32 reduces_S512x512_S512 (.inl rfl) rfl) shapeCasts_S512_S512x1)
/-- The correction exp (m − m'). -/
def gCorr : FVec Ideal S512x1 .f32 := exp (subf m (gMax S m))
/-- The weights exp (S − m'). -/
def gP : FVec Ideal S512x512 .f32 := exp (subf S (broadcastTo S512x512 (gMax S m) broadcasts_S512x1_S512x512))
/-- The new running denominator. -/
def gDen : FVec Ideal S512x1 .f32 :=
  shapeCast S512x1 (addf (mulf (gCorr S m) l) (shapeCast S512x1 (multiReduction .add [1] S512 (gP S m) 0x00000000#32 reduces_S512x512_S512 (.inl rfl) rfl) shapeCasts_S512_S512x1)) shapeCasts_S512x1_S512x1
/-- The corrected running numerator. -/
def gCorrAcc : FVec Ideal S512x64 .f32 := mulf (broadcastTo S512x64 (gCorr S m) broadcasts_S512x1_S512x64) acc
/-- The weights in the shorter format. -/
def gPbf : FVec Ideal S512x512 .bf16 := truncf .bf16 (gP S m) bitsLt_bf16_f32

/-- Row `r`'s new maximum: the old one against the maximum of the row's scores. -/
def rowMax (r : Fin 512) : EReal :=
  max (m (ix2 r 0)) ((Finset.univ : Finset (Fin 512)).fold max ⊥ fun c => S (ix2 r c))

theorem gMax_apply (r : Fin 512) : gMax S m (ix2 r 0) = rowMax S m r := by
  show max (m (ix2 r 0)) (shapeCast S512x1 (multiReduction (F := Ideal) .maximumf [1] S512 S 0xFF800000#32
      reduces_S512x512_S512 (.inl rfl) rfl) shapeCasts_S512_S512x1 (ix2 r 0)) = _
  refine congrArg (max (m (ix2 r 0))) ?_
  refine (RowReduce.shapeCast_column_apply _ shapeCasts_S512_S512x1 r 0).trans ?_
  refine (RowReduce.multiReduction_max_row S 0xFF800000#32 reduces_S512x512_S512 (.inl rfl) rfl r).trans ?_
  rw [negInfWord]
  rfl

theorem gCorr_apply (r : Fin 512) : gCorr S m (ix2 r 0) = Ideal.exp (m (ix2 r 0) - rowMax S m r) := by
  rw [← gMax_apply]; rfl

theorem gP_apply (r c : Fin 512) : gP S m (ix2 r c) = Ideal.exp (S (ix2 r c) - rowMax S m r) := by
  rw [← gMax_apply, ← RowReduce.broadcastTo_column_apply (gMax S m) broadcasts_S512x1_S512x512 r c]; rfl

theorem gDen_apply (r : Fin 512) :
    gDen S m l (ix2 r 0)
      = Ideal.exp (m (ix2 r 0) - rowMax S m r) * l (ix2 r 0) + ∑ c : Fin 512, Ideal.exp (S (ix2 r c) - rowMax S m r) := by
  unfold gDen
  rw [shapeCast_self]
  show gCorr S m (ix2 r 0) * l (ix2 r 0) + shapeCast S512x1 (multiReduction (F := Ideal) .add [1] S512 (gP S m) 0x00000000#32
      reduces_S512x512_S512 (.inl rfl) rfl) shapeCasts_S512_S512x1 (ix2 r 0) = _
  rw [gCorr_apply]
  refine congrArg (fun x : EReal => Ideal.exp (m (ix2 r 0) - rowMax S m r) * l (ix2 r 0) + x) ?_
  refine (RowReduce.shapeCast_column_apply _ shapeCasts_S512_S512x1 r 0).trans ?_
  refine (RowReduce.multiReduction_add_row (gP S m) 0x00000000#32 reduces_S512x512_S512 (.inl rfl) rfl r).trans ?_
  exact Finset.sum_congr rfl fun c _ => gP_apply S m r c

theorem numDims_eq : dot_S512x512_S512x64_S512x64_1_0_0_1_n_n = Cert.ColsMatmul.colsDims dot_S512x512_S512x64_S512x64_1_0_0_1_n_n_wf := rfl

theorem gNum_apply (r : Fin 512) (a : Fin 64) :
    k1_pay78 (k1_pay10 v47) (gCorrAcc S m acc) (gPbf S m) (ix2 r a)
      = Ideal.exp (m (ix2 r 0) - rowMax S m r) * acc (ix2 r a)
        + ∑ c : Fin 512, Ideal.exp (S (ix2 r c) - rowMax S m r) * v47 (ix3 0 c a) := by
  have h1 : gCorrAcc S m acc (ix2 r a) = Ideal.exp (m (ix2 r 0) - rowMax S m r) * acc (ix2 r a) := by
    show (broadcastTo S512x64 (gCorr S m) broadcasts_S512x1_S512x64) (ix2 r a) * acc (ix2 r a) = _
    rw [RowReduce.broadcastTo_column_apply, gCorr_apply]
  have h2 : matmul dot_S512x512_S512x64_S512x64_1_0_0_1_n_n none (gPbf S m) (k1_pay10 v47)
        (constant S512x64 .f32 0x00000000#32) (ix2 r a)
      = ∑ c : Fin 512, Ideal.exp (S (ix2 r c) - rowMax S m r) * v47 (ix3 0 c a) := by
    refine (Cert.ColsMatmul.cols_matmul dot_S512x512_S512x64_S512x64_1_0_0_1_n_n_wf _ numDims_eq
      (gPbf S m) (k1_pay10 v47) r a).trans ?_
    refine Finset.sum_congr rfl fun c _ => ?_
    show gP S m (ix2 r c) * k1_pay10 v47 (ix2 c a) = _
    rw [gP_apply]
    exact congrArg (fun x : EReal => Ideal.exp (S (ix2 r c) - rowMax S m r) * x) (dropUnit_apply v47 c a)
  unfold k1_pay78
  rw [shapeCast_self]
  show gCorrAcc S m acc (ix2 r a) + matmul dot_S512x512_S512x64_S512x64_1_0_0_1_n_n none (gPbf S m) (k1_pay10 v47)
        (constant S512x64 .f32 0x00000000#32) (ix2 r a) = _
  rw [h1, h2]

/-- The three updates are one step of the running form on row `r`'s scores and channel `a`'s values. -/
theorem step_max (r : Fin 512) (a : Fin 64) :
    k1_pay79 (gMax S m) (ix2 r 0)
      = (OnlineSoftmax.step (fun c => S (ix2 r c)) (fun c => v47 (ix3 0 c a))
          (m (ix2 r 0), l (ix2 r 0), acc (ix2 r a))).1 := by
  unfold k1_pay79
  rw [shapeCast_self]
  exact gMax_apply S m r

theorem step_den (r : Fin 512) (a : Fin 64) :
    gDen S m l (ix2 r 0)
      = (OnlineSoftmax.step (fun c => S (ix2 r c)) (fun c => v47 (ix3 0 c a))
          (m (ix2 r 0), l (ix2 r 0), acc (ix2 r a))).2.1 :=
  gDen_apply S m l r

theorem step_num (r : Fin 512) (a : Fin 64) :
    k1_pay78 (k1_pay10 v47) (gCorrAcc S m acc) (gPbf S m) (ix2 r a)
      = (OnlineSoftmax.step (fun c => S (ix2 r c)) (fun c => v47 (ix3 0 c a))
          (m (ix2 r 0), l (ix2 r 0), acc (ix2 r a))).2.2 :=
  gNum_apply S m acc v47 r a

end Step

/-- Row `r`'s masked scores against tile `j`, for the query block `qi`. -/
abbrev scoreRow (j qi : ℕ) (v13 : FVec Ideal S512x64 .bf16) (v45 : Vec Ideal S1x512x64 .bf16) (r : Fin 512) :
    Fin 512 → EReal :=
  fun c => if j * 512 + c.val ≤ qi * 512 + r.val
    then (∑ a' : Fin 64, v13 (ix2 r a') * v45 (ix3 0 c a')) * ((1 / 8 : ℝ) : EReal) else ⊥

/-- One step of the running form on row `r`, channel `a`, tile `j`. -/
abbrev tileStep (j qi : ℕ) (v13 : FVec Ideal S512x64 .bf16) (v45 v47 : Vec Ideal S1x512x64 .bf16)
    (v62 v71 : Vec Ideal S512x1 .f32) (v79 : Vec Ideal S512x64 .f32) (r : Fin 512) (a : Fin 64) :
    EReal × EReal × EReal :=
  OnlineSoftmax.step (scoreRow j qi v13 v45 r) (fun c => v47 (ix3 0 c a))
    (v62 (ix2 r 0), v71 (ix2 r 0), v79 (ix2 r a))

section Gen
variable (off : BitVec 32) (j qi : ℕ) (hoff : off = BitVec.ofNat 32 (j * 512)) (hj : j < 8) (hqi : qi < 8)
  (v13 : FVec Ideal S512x64 .bf16) (v45 v47 : Vec Ideal S1x512x64 .bf16)
  (v62 v71 : Vec Ideal S512x1 .f32) (v79 : Vec Ideal S512x64 .f32) (r : Fin 512) (a : Fin 64)

include hoff hj hqi

theorem scoreRow_eq :
    (fun c => tScore off (BitVec.ofNat 32 qi) v13 v45 (ix2 r c)) = scoreRow j qi v13 v45 r := by
  subst hoff
  exact funext fun c => tScore_apply j qi hj hqi v13 v45 r c

theorem gen_max :
    k1_pay79 (gMax (tScore off (BitVec.ofNat 32 qi) v13 v45) v62) (ix2 r 0)
      = (tileStep j qi v13 v45 v47 v62 v71 v79 r a).1 :=
  (step_max (tScore off (BitVec.ofNat 32 qi) v13 v45) v62 v71 v79 v47 r a).trans
    (congrArg (fun s => (OnlineSoftmax.step s (fun c => v47 (ix3 0 c a))
      (v62 (ix2 r 0), v71 (ix2 r 0), v79 (ix2 r a))).1) (scoreRow_eq off j qi hoff hj hqi v13 v45 r))

theorem gen_den :
    gDen (tScore off (BitVec.ofNat 32 qi) v13 v45) v62 v71 (ix2 r 0)
      = (tileStep j qi v13 v45 v47 v62 v71 v79 r a).2.1 :=
  (step_den (tScore off (BitVec.ofNat 32 qi) v13 v45) v62 v71 v79 v47 r a).trans
    (congrArg (fun s => (OnlineSoftmax.step s (fun c => v47 (ix3 0 c a))
      (v62 (ix2 r 0), v71 (ix2 r 0), v79 (ix2 r a))).2.1) (scoreRow_eq off j qi hoff hj hqi v13 v45 r))

theorem gen_num :
    k1_pay78 (k1_pay10 v47) (gCorrAcc (tScore off (BitVec.ofNat 32 qi) v13 v45) v62 v79)
        (gPbf (tScore off (BitVec.ofNat 32 qi) v13 v45) v62) (ix2 r a)
      = (tileStep j qi v13 v45 v47 v62 v71 v79 r a).2.2 :=
  (step_num (tScore off (BitVec.ofNat 32 qi) v13 v45) v62 v71 v79 v47 r a).trans
    (congrArg (fun s => (OnlineSoftmax.step s (fun c => v47 (ix3 0 c a))
      (v62 (ix2 r 0), v71 (ix2 r 0), v79 (ix2 r a))).2.2) (scoreRow_eq off j qi hoff hj hqi v13 v45 r))

end Gen

end Cert.KernelIdeal.Hand
-- ==== Proof.KI.TileValue.lean ====
/-
  The eight tiles of the attention region, row by row: tile j's stored maximum, denominator and
  numerator are the three components of one step of the running form on row r's masked scores
  against tile j (columns 512·j + c, kept where 512·j + c ≤ 512·block + r) and channel a's values.
  Each is the general statement at the tile's column offset 512·j.
-/
import proofs.«181537_j23003844837560_2_alg».proof.Proof.KI.TileStep

open scoped BigOperators
noncomputable section
namespace Cert.KernelIdeal.Hand
open Cert.KernelIdeal Cert.KernelIdeal.Gen
open Idealize.ShloMosaic Idealize.ShloMosaic.ValueIdx

variable (qi : ℕ) (hqi : qi < 8) (v13 : FVec Ideal S512x64 .bf16) (v45 v47 : Vec Ideal S1x512x64 .bf16)
  (v62 v71 : Vec Ideal S512x1 .f32) (v79 : Vec Ideal S512x64 .f32) (r : Fin 512) (a : Fin 64)

include hqi

/-! ## Tile 0 -/

theorem tile0_max :
    k1_pay79 (k1_pay12 (BitVec.ofNat 32 qi) v13 v45 v62) (ix2 r 0)
      = (tileStep 0 qi v13 v45 v47 v62 v71 v79 r a).1 :=
  gen_max 0#32 0 qi rfl (by norm_num) hqi v13 v45 v47 v62 v71 v79 r a

theorem tile0_den :
    k1_pay15 (BitVec.ofNat 32 qi) v13 v45 v62 v71 (ix2 r 0)
      = (tileStep 0 qi v13 v45 v47 v62 v71 v79 r a).2.1 :=
  gen_den 0#32 0 qi rfl (by norm_num) hqi v13 v45 v47 v62 v71 v79 r a

theorem tile0_num :
    k1_pay78 (k1_pay10 v47) (k1_pay16 (BitVec.ofNat 32 qi) v13 v45 v62 v79)
        (k1_pay17 (BitVec.ofNat 32 qi) v13 v45 v62) (ix2 r a)
      = (tileStep 0 qi v13 v45 v47 v62 v71 v79 r a).2.2 :=
  gen_num 0#32 0 qi rfl (by norm_num) hqi v13 v45 v47 v62 v71 v79 r a

/-! ## Tile 1 -/

theorem tile1_max :
    k1_pay81 (k1_pay20 (BitVec.ofNat 32 qi) v13 v45 v62) (ix2 r 0)
      = (tileStep 1 qi v13 v45 v47 v62 v71 v79 r a).1 :=
  gen_max 512#32 1 qi rfl (by norm_num) hqi v13 v45 v47 v62 v71 v79 r a

theorem tile1_den :
    k1_pay23 (BitVec.ofNat 32 qi) v13 v45 v62 v71 (ix2 r 0)
      = (tileStep 1 qi v13 v45 v47 v62 v71 v79 r a).2.1 :=
  gen_den 512#32 1 qi rfl (by norm_num) hqi v13 v45 v47 v62 v71 v79 r a

theorem tile1_num :
    k1_pay80 (k1_pay18 v47) (k1_pay24 (BitVec.ofNat 32 qi) v13 v45 v62 v79)
        (k1_pay25 (BitVec.ofNat 32 qi) v13 v45 v62) (ix2 r a)
      = (tileStep 1 qi v13 v45 v47 v62 v71 v79 r a).2.2 :=
  gen_num 512#32 1 qi rfl (by norm_num) hqi v13 v45 v47 v62 v71 v79 r a

/-! ## Tile 2 -/

theorem tile2_max :
    k1_pay83 (k1_pay28 (BitVec.ofNat 32 qi) v13 v45 v62) (ix2 r 0)
      = (tileStep 2 qi v13 v45 v47 v62 v71 v79 r a).1 :=
  gen_max 1024#32 2 qi rfl (by norm_num) hqi v13 v45 v47 v62 v71 v79 r a

theorem tile2_den :
    k1_pay31 (BitVec.ofNat 32 qi) v13 v45 v62 v71 (ix2 r 0)
      = (tileStep 2 qi v13 v45 v47 v62 v71 v79 r a).2.1 :=
  gen_den 1024#32 2 qi rfl (by norm_num) hqi v13 v45 v47 v62 v71 v79 r a

theorem tile2_num :
    k1_pay82 (k1_pay26 v47) (k1_pay32 (BitVec.ofNat 32 qi) v13 v45 v62 v79)
        (k1_pay33 (BitVec.ofNat 32 qi) v13 v45 v62) (ix2 r a)
      = (tileStep 2 qi v13 v45 v47 v62 v71 v79 r a).2.2 :=
  gen_num 1024#32 2 qi rfl (by norm_num) hqi v13 v45 v47 v62 v71 v79 r a

/-! ## Tile 3 -/

theorem tile3_max :
    k1_pay85 (k1_pay36 (BitVec.ofNat 32 qi) v13 v45 v62) (ix2 r 0)
      = (tileStep 3 qi v13 v45 v47 v62 v71 v79 r a).1 :=
  gen_max 1536#32 3 qi rfl (by norm_num) hqi v13 v45 v47 v62 v71 v79 r a

theorem tile3_den :
    k1_pay39 (BitVec.ofNat 32 qi) v13 v45 v62 v71 (ix2 r 0)
      = (tileStep 3 qi v13 v45 v47 v62 v71 v79 r a).2.1 :=
  gen_den 1536#32 3 qi rfl (by norm_num) hqi v13 v45 v47 v62 v71 v79 r a

theorem tile3_num :
    k1_pay84 (k1_pay34 v47) (k1_pay40 (BitVec.ofNat 32 qi) v13 v45 v62 v79)
        (k1_pay41 (BitVec.ofNat 32 qi) v13 v45 v62) (ix2 r a)
      = (tileStep 3 qi v13 v45 v47 v62 v71 v79 r a).2.2 :=
  gen_num 1536#32 3 qi rfl (by norm_num) hqi v13 v45 v47 v62 v71 v79 r a

/-! ## Tile 4 -/

theorem tile4_max :
    k1_pay2 (k1_pay44 (BitVec.ofNat 32 qi) v13 v45 v62) (ix2 r 0)
      = (tileStep 4 qi v13 v45 v47 v62 v71 v79 r a).1 :=
  gen_max 2048#32 4 qi rfl (by norm_num) hqi v13 v45 v47 v62 v71 v79 r a

theorem tile4_den :
    k1_pay47 (BitVec.ofNat 32 qi) v13 v45 v62 v71 (ix2 r 0)
      = (tileStep 4 qi v13 v45 v47 v62 v71 v79 r a).2.1 :=
  gen_den 2048#32 4 qi rfl (by norm_num) hqi v13 v45 v47 v62 v71 v79 r a

theorem tile4_num :
    k1_pay1 (k1_pay42 v47) (k1_pay48 (BitVec.ofNat 32 qi) v13 v45 v62 v79)
        (k1_pay49 (BitVec.ofNat 32 qi) v13 v45 v62) (ix2 r a)
      = (tileStep 4 qi v13 v45 v47 v62 v71 v79 r a).2.2 :=
  gen_num 2048#32 4 qi rfl (by norm_num) hqi v13 v45 v47 v62 v71 v79 r a

/-! ## Tile 5 -/

theorem tile5_max :
    k1_pay4 (k1_pay52 (BitVec.ofNat 32 qi) v13 v45 v62) (ix2 r 0)
      = (tileStep 5 qi v13 v45 v47 v62 v71 v79 r a).1 :=
  gen_max 2560#32 5 qi rfl (by norm_num) hqi v13 v45 v47 v62 v71 v79 r a

theorem tile5_den :
    k1_pay55 (BitVec.ofNat 32 qi) v13 v45 v62 v71 (ix2 r 0)
      = (tileStep 5 qi v13 v45 v47 v62 v71 v79 r a).2.1 :=
  gen_den 2560#32 5 qi rfl (by norm_num) hqi v13 v45 v47 v62 v71 v79 r a

theorem tile5_num :
    k1_pay3 (k1_pay50 v47) (k1_pay56 (BitVec.ofNat 32 qi) v13 v45 v62 v79)
        (k1_pay57 (BitVec.ofNat 32 qi) v13 v45 v62) (ix2 r a)
      = (tileStep 5 qi v13 v45 v47 v62 v71 v79 r a).2.2 :=
  gen_num 2560#32 5 qi rfl (by norm_num) hqi v13 v45 v47 v62 v71 v79 r a

/-! ## Tile 6 -/

theorem tile6_max :
    k1_pay6 (k1_pay60 (BitVec.ofNat 32 qi) v13 v45 v62) (ix2 r 0)
      = (tileStep 6 qi v13 v45 v47 v62 v71 v79 r a).1 :=
  gen_max 3072#32 6 qi rfl (by norm_num) hqi v13 v45 v47 v62 v71 v79 r a

theorem tile6_den :
    k1_pay63 (BitVec.ofNat 32 qi) v13 v45 v62 v71 (ix2 r 0)
      = (tileStep 6 qi v13 v45 v47 v62 v71 v79 r a).2.1 :=
  gen_den 3072#32 6 qi rfl (by norm_num) hqi v13 v45 v47 v62 v71 v79 r a

theorem tile6_num :
    k1_pay5 (k1_pay58 v47) (k1_pay64 (BitVec.ofNat 32 qi) v13 v45 v62 v79)
        (k1_pay65 (BitVec.ofNat 32 qi) v13 v45 v62) (ix2 r a)
      = (tileStep 6 qi v13 v45 v47 v62 v71 v79 r a).2.2 :=
  gen_num 3072#32 6 qi rfl (by norm_num) hqi v13 v45 v47 v62 v71 v79 r a

/-! ## Tile 7 -/

theorem tile7_max :
    k1_pay8 (k1_pay68 (BitVec.ofNat 32 qi) v13 v45 v62) (ix2 r 0)
      = (tileStep 7 qi v13 v45 v47 v62 v71 v79 r a).1 :=
  gen_max 3584#32 7 qi rfl (by norm_num) hqi v13 v45 v47 v62 v71 v79 r a

theorem tile7_den :
    k1_pay71 (BitVec.ofNat 32 qi) v13 v45 v62 v71 (ix2 r 0)
      = (tileStep 7 qi v13 v45 v47 v62 v71 v79 r a).2.1 :=
  gen_den 3584#32 7 qi rfl (by norm_num) hqi v13 v45 v47 v62 v71 v79 r a

theorem tile7_num :
    k1_pay7 (k1_pay66 v47) (k1_pay72 (BitVec.ofNat 32 qi) v13 v45 v62 v79)
        (k1_pay73 (BitVec.ofNat 32 qi) v13 v45 v62) (ix2 r a)
      = (tileStep 7 qi v13 v45 v47 v62 v71 v79 r a).2.2 :=
  gen_num 3584#32 7 qi rfl (by norm_num) hqi v13 v45 v47 v62 v71 v79 r a

end Cert.KernelIdeal.Hand
-- ==== Proof.KI.ChainRun.lean ====
/-
  The explicit chain of tile updates is the running form of softmax-weighted averaging.

  Row r's state after the first n tiles — the chain's maximum and denominator columns read at (r, 0)
  and its numerator block read at (r, a) — is the running form's state after n tiles on row r's
  masked scaled scores against tile j (keys' rows 512·j …) and channel a of the values' rows 512·j …:
  at n = 0 both are (bottom, 0, 0), and each further tile is one step of the running form, whether or
  not the tile lies above the diagonal (its scores are then all bottom).  The stored output,
  numerator / denominator, is the running form's output.
-/
import proofs.«181537_j23003844837560_2_alg».proof.Proof.KI.TileValue
import proofs.«181537_j23003844837560_2_alg».proof.Proof.KI.AttnChain

open scoped BigOperators
noncomputable section
namespace Cert.KernelIdeal.Hand
open Cert.KernelIdeal Cert.KernelIdeal.Gen
open Idealize.ShloMosaic Idealize.ShloMosaic.ValueIdx

/-- Row `r`'s masked scores against tile `n` of the keys `x1` (all bottom past the eighth tile). -/
def scT (qi : ℕ) (x0 : Vec Ideal S1x512x64 .bf16) (x1 : Vec Ideal S1x4096x64 .bf16) (r : Fin 512) :
    ℕ → Fin 512 → EReal
  | 0 => scoreRow 0 qi (k1_pay77 x0) (View.ld x1 slabR0) r
  | 1 => scoreRow 1 qi (k1_pay77 x0) (View.ld x1 slabR1) r
  | 2 => scoreRow 2 qi (k1_pay77 x0) (View.ld x1 slabR2) r
  | 3 => scoreRow 3 qi (k1_pay77 x0) (View.ld x1 slabR3) r
  | 4 => scoreRow 4 qi (k1_pay77 x0) (View.ld x1 slabR4) r
  | 5 => scoreRow 5 qi (k1_pay77 x0) (View.ld x1 slabR5) r
  | 6 => scoreRow 6 qi (k1_pay77 x0) (View.ld x1 slabR6) r
  | 7 => scoreRow 7 qi (k1_pay77 x0) (View.ld x1 slabR7) r
  | _ => fun _ => ⊥

/-- Channel `a` of tile `n` of the values `x2` (0 past the eighth tile). -/
def vvT (x2 : Vec Ideal S1x4096x64 .bf16) (a : Fin 64) : ℕ → Fin 512 → EReal
  | 0 => fun c => (View.ld x2 slabR0) (ix3 0 c a)
  | 1 => fun c => (View.ld x2 slabR1) (ix3 0 c a)
  | 2 => fun c => (View.ld x2 slabR2) (ix3 0 c a)
  | 3 => fun c => (View.ld x2 slabR3) (ix3 0 c a)
  | 4 => fun c => (View.ld x2 slabR4) (ix3 0 c a)
  | 5 => fun c => (View.ld x2 slabR5) (ix3 0 c a)
  | 6 => fun c => (View.ld x2 slabR6) (ix3 0 c a)
  | 7 => fun c => (View.ld x2 slabR7) (ix3 0 c a)
  | _ => fun _ => 0

variable (qi : ℕ) (hqi : qi < 8) (x0 : Vec Ideal S1x512x64 .bf16) (x1 x2 : Vec Ideal S1x4096x64 .bf16)
  (r : Fin 512) (a : Fin 64)

theorem chain_run0 :
    (chM0 (F := Ideal) (BitVec.ofNat 32 qi) x0 x1 (ix2 r 0), chL0 (F := Ideal) (BitVec.ofNat 32 qi) x0 x1 (ix2 r 0),
        chA0 (F := Ideal) (BitVec.ofNat 32 qi) x0 x1 x2 (ix2 r a))
      = OnlineSoftmax.run (scT qi x0 x1 r) (vvT x2 a) 0 :=
  Prod.ext (init_max r) (Prod.ext (init_den r) (init_num r a))

include hqi

theorem chain_run1 :
    (chM1 (F := Ideal) (BitVec.ofNat 32 qi) x0 x1 (ix2 r 0), chL1 (F := Ideal) (BitVec.ofNat 32 qi) x0 x1 (ix2 r 0),
        chA1 (F := Ideal) (BitVec.ofNat 32 qi) x0 x1 x2 (ix2 r a))
      = OnlineSoftmax.run (scT qi x0 x1 r) (vvT x2 a) 1 := by
  refine Eq.trans ?_ (OnlineSoftmax.run_succ (scT qi x0 x1 r) (vvT x2 a) 0).symm
  rw [← chain_run0 qi x0 x1 x2 r a]
  exact Prod.ext (tile0_max qi hqi (k1_pay77 x0) (View.ld x1 slabR0) (View.ld x2 slabR0)
      (chM0 (BitVec.ofNat 32 qi) x0 x1) (chL0 (BitVec.ofNat 32 qi) x0 x1) (chA0 (BitVec.ofNat 32 qi) x0 x1 x2) r a)
    (Prod.ext (tile0_den qi hqi (k1_pay77 x0) (View.ld x1 slabR0) (View.ld x2 slabR0)
      (chM0 (BitVec.ofNat 32 qi) x0 x1) (chL0 (BitVec.ofNat 32 qi) x0 x1) (chA0 (BitVec.ofNat 32 qi) x0 x1 x2) r a)
      (tile0_num qi hqi (k1_pay77 x0) (View.ld x1 slabR0) (View.ld x2 slabR0)
      (chM0 (BitVec.ofNat 32 qi) x0 x1) (chL0 (BitVec.ofNat 32 qi) x0 x1) (chA0 (BitVec.ofNat 32 qi) x0 x1 x2) r a))

theorem chain_run2 :
    (chM2 (F := Ideal) (BitVec.ofNat 32 qi) x0 x1 (ix2 r 0), chL2 (F := Ideal) (BitVec.ofNat 32 qi) x0 x1 (ix2 r 0),
        chA2 (F := Ideal) (BitVec.ofNat 32 qi) x0 x1 x2 (ix2 r a))
      = OnlineSoftmax.run (scT qi x0 x1 r) (vvT x2 a) 2 := by
  refine Eq.trans ?_ (OnlineSoftmax.run_succ (scT qi x0 x1 r) (vvT x2 a) 1).symm
  rw [← chain_run1 qi hqi x0 x1 x2 r a]
  exact Prod.ext (tile1_max qi hqi (k1_pay77 x0) (View.ld x1 slabR1) (View.ld x2 slabR1)
      (chM1 (BitVec.ofNat 32 qi) x0 x1) (chL1 (BitVec.ofNat 32 qi) x0 x1) (chA1 (BitVec.ofNat 32 qi) x0 x1 x2) r a)
    (Prod.ext (tile1_den qi hqi (k1_pay77 x0) (View.ld x1 slabR1) (View.ld x2 slabR1)
      (chM1 (BitVec.ofNat 32 qi) x0 x1) (chL1 (BitVec.ofNat 32 qi) x0 x1) (chA1 (BitVec.ofNat 32 qi) x0 x1 x2) r a)
      (tile1_num qi hqi (k1_pay77 x0) (View.ld x1 slabR1) (View.ld x2 slabR1)
      (chM1 (BitVec.ofNat 32 qi) x0 x1) (chL1 (BitVec.ofNat 32 qi) x0 x1) (chA1 (BitVec.ofNat 32 qi) x0 x1 x2) r a))

theorem chain_run3 :
    (chM3 (F := Ideal) (BitVec.ofNat 32 qi) x0 x1 (ix2 r 0), chL3 (F := Ideal) (BitVec.ofNat 32 qi) x0 x1 (ix2 r 0),
        chA3 (F := Ideal) (BitVec.ofNat 32 qi) x0 x1 x2 (ix2 r a))
      = OnlineSoftmax.run (scT qi x0 x1 r) (vvT x2 a) 3 := by
  refine Eq.trans ?_ (OnlineSoftmax.run_succ (scT qi x0 x1 r) (vvT x2 a) 2).symm
  rw [← chain_run2 qi hqi x0 x1 x2 r a]
  exact Prod.ext (tile2_max qi hqi (k1_pay77 x0) (View.ld x1 slabR2) (View.ld x2 slabR2)
      (chM2 (BitVec.ofNat 32 qi) x0 x1) (chL2 (BitVec.ofNat 32 qi) x0 x1) (chA2 (BitVec.ofNat 32 qi) x0 x1 x2) r a)
    (Prod.ext (tile2_den qi hqi (k1_pay77 x0) (View.ld x1 slabR2) (View.ld x2 slabR2)
      (chM2 (BitVec.ofNat 32 qi) x0 x1) (chL2 (BitVec.ofNat 32 qi) x0 x1) (chA2 (BitVec.ofNat 32 qi) x0 x1 x2) r a)
      (tile2_num qi hqi (k1_pay77 x0) (View.ld x1 slabR2) (View.ld x2 slabR2)
      (chM2 (BitVec.ofNat 32 qi) x0 x1) (chL2 (BitVec.ofNat 32 qi) x0 x1) (chA2 (BitVec.ofNat 32 qi) x0 x1 x2) r a))

theorem chain_run4 :
    (chM4 (F := Ideal) (BitVec.ofNat 32 qi) x0 x1 (ix2 r 0), chL4 (F := Ideal) (BitVec.ofNat 32 qi) x0 x1 (ix2 r 0),
        chA4 (F := Ideal) (BitVec.ofNat 32 qi) x0 x1 x2 (ix2 r a))
      = OnlineSoftmax.run (scT qi x0 x1 r) (vvT x2 a) 4 := by
  refine Eq.trans ?_ (OnlineSoftmax.run_succ (scT qi x0 x1 r) (vvT x2 a) 3).symm
  rw [← chain_run3 qi hqi x0 x1 x2 r a]
  exact Prod.ext (tile3_max qi hqi (k1_pay77 x0) (View.ld x1 slabR3) (View.ld x2 slabR3)
      (chM3 (BitVec.ofNat 32 qi) x0 x1) (chL3 (BitVec.ofNat 32 qi) x0 x1) (chA3 (BitVec.ofNat 32 qi) x0 x1 x2) r a)
    (Prod.ext (tile3_den qi hqi (k1_pay77 x0) (View.ld x1 slabR3) (View.ld x2 slabR3)
      (chM3 (BitVec.ofNat 32 qi) x0 x1) (chL3 (BitVec.ofNat 32 qi) x0 x1) (chA3 (BitVec.ofNat 32 qi) x0 x1 x2) r a)
      (tile3_num qi hqi (k1_pay77 x0) (View.ld x1 slabR3) (View.ld x2 slabR3)
      (chM3 (BitVec.ofNat 32 qi) x0 x1) (chL3 (BitVec.ofNat 32 qi) x0 x1) (chA3 (BitVec.ofNat 32 qi) x0 x1 x2) r a))

theorem chain_run5 :
    (chM5 (F := Ideal) (BitVec.ofNat 32 qi) x0 x1 (ix2 r 0), chL5 (F := Ideal) (BitVec.ofNat 32 qi) x0 x1 (ix2 r 0),
        chA5 (F := Ideal) (BitVec.ofNat 32 qi) x0 x1 x2 (ix2 r a))
      = OnlineSoftmax.run (scT qi x0 x1 r) (vvT x2 a) 5 := by
  refine Eq.trans ?_ (OnlineSoftmax.run_succ (scT qi x0 x1 r) (vvT x2 a) 4).symm
  rw [← chain_run4 qi hqi x0 x1 x2 r a]
  exact Prod.ext (tile4_max qi hqi (k1_pay77 x0) (View.ld x1 slabR4) (View.ld x2 slabR4)
      (chM4 (BitVec.ofNat 32 qi) x0 x1) (chL4 (BitVec.ofNat 32 qi) x0 x1) (chA4 (BitVec.ofNat 32 qi) x0 x1 x2) r a)
    (Prod.ext (tile4_den qi hqi (k1_pay77 x0) (View.ld x1 slabR4) (View.ld x2 slabR4)
      (chM4 (BitVec.ofNat 32 qi) x0 x1) (chL4 (BitVec.ofNat 32 qi) x0 x1) (chA4 (BitVec.ofNat 32 qi) x0 x1 x2) r a)
      (tile4_num qi hqi (k1_pay77 x0) (View.ld x1 slabR4) (View.ld x2 slabR4)
      (chM4 (BitVec.ofNat 32 qi) x0 x1) (chL4 (BitVec.ofNat 32 qi) x0 x1) (chA4 (BitVec.ofNat 32 qi) x0 x1 x2) r a))

theorem chain_run6 :
    (chM6 (F := Ideal) (BitVec.ofNat 32 qi) x0 x1 (ix2 r 0), chL6 (F := Ideal) (BitVec.ofNat 32 qi) x0 x1 (ix2 r 0),
        chA6 (F := Ideal) (BitVec.ofNat 32 qi) x0 x1 x2 (ix2 r a))
      = OnlineSoftmax.run (scT qi x0 x1 r) (vvT x2 a) 6 := by
  refine Eq.trans ?_ (OnlineSoftmax.run_succ (scT qi x0 x1 r) (vvT x2 a) 5).symm
  rw [← chain_run5 qi hqi x0 x1 x2 r a]
  exact Prod.ext (tile5_max qi hqi (k1_pay77 x0) (View.ld x1 slabR5) (View.ld x2 slabR5)
      (chM5 (BitVec.ofNat 32 qi) x0 x1) (chL5 (BitVec.ofNat 32 qi) x0 x1) (chA5 (BitVec.ofNat 32 qi) x0 x1 x2) r a)
    (Prod.ext (tile5_den qi hqi (k1_pay77 x0) (View.ld x1 slabR5) (View.ld x2 slabR5)
      (chM5 (BitVec.ofNat 32 qi) x0 x1) (chL5 (BitVec.ofNat 32 qi) x0 x1) (chA5 (BitVec.ofNat 32 qi) x0 x1 x2) r a)
      (tile5_num qi hqi (k1_pay77 x0) (View.ld x1 slabR5) (View.ld x2 slabR5)
      (chM5 (BitVec.ofNat 32 qi) x0 x1) (chL5 (BitVec.ofNat 32 qi) x0 x1) (chA5 (BitVec.ofNat 32 qi) x0 x1 x2) r a))

theorem chain_run7 :
    (chM7 (F := Ideal) (BitVec.ofNat 32 qi) x0 x1 (ix2 r 0), chL7 (F := Ideal) (BitVec.ofNat 32 qi) x0 x1 (ix2 r 0),
        chA7 (F := Ideal) (BitVec.ofNat 32 qi) x0 x1 x2 (ix2 r a))
      = OnlineSoftmax.run (scT qi x0 x1 r) (vvT x2 a) 7 := by
  refine Eq.trans ?_ (OnlineSoftmax.run_succ (scT qi x0 x1 r) (vvT x2 a) 6).symm
  rw [← chain_run6 qi hqi x0 x1 x2 r a]
  exact Prod.ext (tile6_max qi hqi (k1_pay77 x0) (View.ld x1 slabR6) (View.ld x2 slabR6)
      (chM6 (BitVec.ofNat 32 qi) x0 x1) (chL6 (BitVec.ofNat 32 qi) x0 x1) (chA6 (BitVec.ofNat 32 qi) x0 x1 x2) r a)
    (Prod.ext (tile6_den qi hqi (k1_pay77 x0) (View.ld x1 slabR6) (View.ld x2 slabR6)
      (chM6 (BitVec.ofNat 32 qi) x0 x1) (chL6 (BitVec.ofNat 32 qi) x0 x1) (chA6 (BitVec.ofNat 32 qi) x0 x1 x2) r a)
      (tile6_num qi hqi (k1_pay77 x0) (View.ld x1 slabR6) (View.ld x2 slabR6)
      (chM6 (BitVec.ofNat 32 qi) x0 x1) (chL6 (BitVec.ofNat 32 qi) x0 x1) (chA6 (BitVec.ofNat 32 qi) x0 x1 x2) r a))

theorem chain_run8 :
    (chM8 (F := Ideal) (BitVec.ofNat 32 qi) x0 x1 (ix2 r 0), chL8 (F := Ideal) (BitVec.ofNat 32 qi) x0 x1 (ix2 r 0),
        chA8 (F := Ideal) (BitVec.ofNat 32 qi) x0 x1 x2 (ix2 r a))
      = OnlineSoftmax.run (scT qi x0 x1 r) (vvT x2 a) 8 := by
  refine Eq.trans ?_ (OnlineSoftmax.run_succ (scT qi x0 x1 r) (vvT x2 a) 7).symm
  rw [← chain_run7 qi hqi x0 x1 x2 r a]
  exact Prod.ext (tile7_max qi hqi (k1_pay77 x0) (View.ld x1 slabR7) (View.ld x2 slabR7)
      (chM7 (BitVec.ofNat 32 qi) x0 x1) (chL7 (BitVec.ofNat 32 qi) x0 x1) (chA7 (BitVec.ofNat 32 qi) x0 x1 x2) r a)
    (Prod.ext (tile7_den qi hqi (k1_pay77 x0) (View.ld x1 slabR7) (View.ld x2 slabR7)
      (chM7 (BitVec.ofNat 32 qi) x0 x1) (chL7 (BitVec.ofNat 32 qi) x0 x1) (chA7 (BitVec.ofNat 32 qi) x0 x1 x2) r a)
      (tile7_num qi hqi (k1_pay77 x0) (View.ld x1 slabR7) (View.ld x2 slabR7)
      (chM7 (BitVec.ofNat 32 qi) x0 x1) (chL7 (BitVec.ofNat 32 qi) x0 x1) (chA7 (BitVec.ofNat 32 qi) x0 x1 x2) r a))

theorem chain_out1 :
    k1_pay9 (F := Ideal) (chA1 (F := Ideal) (BitVec.ofNat 32 qi) x0 x1 x2) (chL1 (F := Ideal) (BitVec.ofNat 32 qi) x0 x1) (ix3 (0 : Fin 1) r a)
      = OnlineSoftmax.onlineOut (scT qi x0 x1 r) (vvT x2 a) 1 := by
  refine (final_div _ _ r a).trans ?_
  rw [OnlineSoftmax.onlineOut, ← chain_run1 qi hqi x0 x1 x2 r a]

theorem chain_out2 :
    k1_pay9 (F := Ideal) (chA2 (F := Ideal) (BitVec.ofNat 32 qi) x0 x1 x2) (chL2 (F := Ideal) (BitVec.ofNat 32 qi) x0 x1) (ix3 (0 : Fin 1) r a)
      = OnlineSoftmax.onlineOut (scT qi x0 x1 r) (vvT x2 a) 2 := by
  refine (final_div _ _ r a).trans ?_
  rw [OnlineSoftmax.onlineOut, ← chain_run2 qi hqi x0 x1 x2 r a]

theorem chain_out3 :
    k1_pay9 (F := Ideal) (chA3 (F := Ideal) (BitVec.ofNat 32 qi) x0 x1 x2) (chL3 (F := Ideal) (BitVec.ofNat 32 qi) x0 x1) (ix3 (0 : Fin 1) r a)
      = OnlineSoftmax.onlineOut (scT qi x0 x1 r) (vvT x2 a) 3 := by
  refine (final_div _ _ r a).trans ?_
  rw [OnlineSoftmax.onlineOut, ← chain_run3 qi hqi x0 x1 x2 r a]

theorem chain_out4 :
    k1_pay9 (F := Ideal) (chA4 (F := Ideal) (BitVec.ofNat 32 qi) x0 x1 x2) (chL4 (F := Ideal) (BitVec.ofNat 32 qi) x0 x1) (ix3 (0 : Fin 1) r a)
      = OnlineSoftmax.onlineOut (scT qi x0 x1 r) (vvT x2 a) 4 := by
  refine (final_div _ _ r a).trans ?_
  rw [OnlineSoftmax.onlineOut, ← chain_run4 qi hqi x0 x1 x2 r a]

theorem chain_out5 :
    k1_pay9 (F := Ideal) (chA5 (F := Ideal) (BitVec.ofNat 32 qi) x0 x1 x2) (chL5 (F := Ideal) (BitVec.ofNat 32 qi) x0 x1) (ix3 (0 : Fin 1) r a)
      = OnlineSoftmax.onlineOut (scT qi x0 x1 r) (vvT x2 a) 5 := by
  refine (final_div _ _ r a).trans ?_
  rw [OnlineSoftmax.onlineOut, ← chain_run5 qi hqi x0 x1 x2 r a]

theorem chain_out6 :
    k1_pay9 (F := Ideal) (chA6 (F := Ideal) (BitVec.ofNat 32 qi) x0 x1 x2) (chL6 (F := Ideal) (BitVec.ofNat 32 qi) x0 x1) (ix3 (0 : Fin 1) r a)
      = OnlineSoftmax.onlineOut (scT qi x0 x1 r) (vvT x2 a) 6 := by
  refine (final_div _ _ r a).trans ?_
  rw [OnlineSoftmax.onlineOut, ← chain_run6 qi hqi x0 x1 x2 r a]

theorem chain_out7 :
    k1_pay9 (F := Ideal) (chA7 (F := Ideal) (BitVec.ofNat 32 qi) x0 x1 x2) (chL7 (F := Ideal) (BitVec.ofNat 32 qi) x0 x1) (ix3 (0 : Fin 1) r a)
      = OnlineSoftmax.onlineOut (scT qi x0 x1 r) (vvT x2 a) 7 := by
  refine (final_div _ _ r a).trans ?_
  rw [OnlineSoftmax.onlineOut, ← chain_run7 qi hqi x0 x1 x2 r a]

theorem chain_out8 :
    k1_pay9 (F := Ideal) (chA8 (F := Ideal) (BitVec.ofNat 32 qi) x0 x1 x2) (chL8 (F := Ideal) (BitVec.ofNat 32 qi) x0 x1) (ix3 (0 : Fin 1) r a)
      = OnlineSoftmax.onlineOut (scT qi x0 x1 r) (vvT x2 a) 8 := by
  refine (final_div _ _ r a).trans ?_
  rw [OnlineSoftmax.onlineOut, ← chain_run8 qi hqi x0 x1 x2 r a]

end Cert.KernelIdeal.Hand
-- ==== Proof.KI.ProjPay.lean ====
import proofs.«181537_j23003844837560_2_alg».proof.Proof.Gen.KernelIdeal.Skeleton
import proofs.«181537_j23003844837560_2_alg».proof.Proof.LibColsMatmul
import Idealize.ShloMosaic.Lib.ValueLayout

/-!
# The projection body's three results, read at an index

Over the extended reals the body computes, from a block of 1024 token rows `x0`, the fused
1024×256 weight matrix `x1` and the fused bias row `x2`, the matrix
`(r, c) ↦ Σ_e x0(0, r, e) · x1(e, c) + x2(0, c)`; the three results are its columns
`0 … 63`, `64 … 127` and `128 … 191`, each given a leading unit axis.
-/

noncomputable section

namespace Cert.KernelIdeal.Hand

open Cert.KernelIdeal Cert.KernelIdeal.Gen
open Idealize.ShloMosaic Idealize.ShloMosaic.ValueIdx
open scoped BigOperators

/-- Column `a` of the `j`-th group of 64 columns of the fused matrix. -/
def fcol (j : Fin 3) (a : Fin 64) : Fin 256 :=
  ⟨64 * j.val + a.val, by have := j.isLt; have := a.isLt; omega⟩

theorem fcol_val (j : Fin 3) (a : Fin 64) : (fcol j a).val = 64 * j.val + a.val := rfl

/-- The fused product plus bias at row `r`, column `cc`. -/
theorem pay1_apply (x0 : Vec Ideal S1x1024x1024 .f32) (x1 : Vec Ideal S1024x256 .f32) (x2 : Vec Ideal S1x256 .f32)
    (r : Fin 1024) (cc : Fin 256) :
    k0_pay1 (F := Ideal) x0 x1 x2 (ix2 r cc)
      = (∑ e : Fin 1024, x0 (ix3 (0 : Fin 1) r e) * x1 (ix2 e cc)) + x2 (ix2 (0 : Fin 1) cc) := by
  unfold k0_pay1
  rw [addf_apply]
  congr 1
  · refine (Cert.ColsMatmul.cols_matmul dot_S1024x1024_S1024x256_S1024x256_1_0_0_1_n_n_wf _ rfl _ _ r cc).trans ?_
    refine Finset.sum_congr rfl fun e _ => ?_
    rw [truncf_apply, truncf_apply, shapeCast_1ab_ab_apply, shapeCast_self]
  · rw [broadcastTo_1b_ab_apply, shapeCast_self]

/-- The query block: columns `0 … 63`. -/
theorem pay2_apply (x0 : Vec Ideal S1x1024x1024 .f32) (x1 : Vec Ideal S1024x256 .f32) (x2 : Vec Ideal S1x256 .f32)
    (u : Fin 1) (r : Fin 1024) (a : Fin 64) :
    k0_pay2 (F := Ideal) x0 x1 x2 (ix3 u r a)
      = (∑ e : Fin 1024, x0 (ix3 (0 : Fin 1) r e) * x1 (ix2 e (fcol 0 a))) + x2 (ix2 (0 : Fin 1) (fcol 0 a)) := by
  unfold k0_pay2
  rw [shapeCast_ab_1ab_apply, truncf_apply,
    slice2_axis1_apply 0 _ _ r a (fcol 0 a) (by rw [fcol_val]; show 64 * 0 + a.val = 0 + a.val; omega)]
  exact pay1_apply x0 x1 x2 r (fcol 0 a)

/-- The key block: columns `64 … 127`. -/
theorem pay3_apply (x0 : Vec Ideal S1x1024x1024 .f32) (x1 : Vec Ideal S1024x256 .f32) (x2 : Vec Ideal S1x256 .f32)
    (u : Fin 1) (r : Fin 1024) (a : Fin 64) :
    k0_pay3 (F := Ideal) x0 x1 x2 (ix3 u r a)
      = (∑ e : Fin 1024, x0 (ix3 (0 : Fin 1) r e) * x1 (ix2 e (fcol 1 a))) + x2 (ix2 (0 : Fin 1) (fcol 1 a)) := by
  unfold k0_pay3
  rw [shapeCast_ab_1ab_apply, truncf_apply,
    slice2_axis1_apply 64 _ _ r a (fcol 1 a) (by rw [fcol_val]; show 64 * 1 + a.val = 64 + a.val; omega)]
  exact pay1_apply x0 x1 x2 r (fcol 1 a)

/-- The value block: columns `128 … 191`. -/
theorem pay4_apply (x0 : Vec Ideal S1x1024x1024 .f32) (x1 : Vec Ideal S1024x256 .f32) (x2 : Vec Ideal S1x256 .f32)
    (u : Fin 1) (r : Fin 1024) (a : Fin 64) :
    k0_pay4 (F := Ideal) x0 x1 x2 (ix3 u r a)
      = (∑ e : Fin 1024, x0 (ix3 (0 : Fin 1) r e) * x1 (ix2 e (fcol 2 a))) + x2 (ix2 (0 : Fin 1) (fcol 2 a)) := by
  unfold k0_pay4
  rw [shapeCast_ab_1ab_apply, truncf_apply,
    slice2_axis1_apply 128 _ _ r a (fcol 2 a) (by rw [fcol_val]; show 64 * 2 + a.val = 128 + a.val; omega)]
  exact pay1_apply x0 x1 x2 r (fcol 2 a)

end Cert.KernelIdeal.Hand

end
-- ==== Proof.KI.ProjHost.lean ====
import proofs.«181537_j23003844837560_2_alg».proof.Proof.KI.Base
import proofs.«181537_j23003844837560_2_alg».proof.Proof.KI.ProjPay
import Idealize.ShloMosaic.Lib.ValueLayout

/-!
# What the projection region finds in the fused weight matrix and the fused bias row

The host operations before the region transpose the three 64×1024 projection matrices and lay them
and a zero block side by side as one 1024×256 matrix, and lay the three biases and a zero block end
to end as one row of 256. Read at an index: column `64·j + a` of row `e` of the fused matrix is
entry `(a, e)` of the `j`-th projection matrix, and entry `64·j + a` of the fused row is entry `a`
of the `j`-th bias. The tokens are as launched.
-/

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The fused matrix as the host operations' term over the launch arrays. -/
theorem V1_main_v4 (c : Dev nD) :
    (V1 (F := Ideal) m c main_v4 : S1024x256.Idx → EReal)
      = concatenate S1024x256 1
          [⟨S1024x64, transpose S1024x64 [1, 0] (m ((c : Thread nD τ).loc main_arg1) : S64x1024.Idx → EReal) transposes_S64x1024_S1024x64_1_0⟩,
           ⟨S1024x64, transpose S1024x64 [1, 0] (m ((c : Thread nD τ).loc main_arg3) : S64x1024.Idx → EReal) transposes_S64x1024_S1024x64_1_0⟩,
           ⟨S1024x64, transpose S1024x64 [1, 0] (m ((c : Thread nD τ).loc main_arg5) : S64x1024.Idx → EReal) transposes_S64x1024_S1024x64_1_0⟩,
           ⟨S1024x64, broadcastInDim S1024x64 ![] bcast_S_S1024x64 (constant (F := Ideal) S_ .f32 0x00000000#32)⟩]
          concatenates_S1024x64_S1024x64_S1024x64_S1024x64_S1024x256_d1 := by
  show StableHlo.after hostOps0 _ (Proc.devRef .tc main_v4) = _
  after_results
  rfl

/-- The fused row as the host operations' term over the launch arrays. -/
theorem V1_main_v7 (c : Dev nD) :
    (V1 (F := Ideal) m c main_v7 : S1x256.Idx → EReal)
      = shapeCast S1x256 (concatenate S256 0
          [⟨S64, (m ((c : Thread nD τ).loc main_arg2) : S64.Idx → EReal)⟩,
           ⟨S64, (m ((c : Thread nD τ).loc main_arg4) : S64.Idx → EReal)⟩,
           ⟨S64, (m ((c : Thread nD τ).loc main_arg6) : S64.Idx → EReal)⟩,
           ⟨S64, broadcastInDim S64 ![] bcast_S_S64 (constant (F := Ideal) S_ .f32 0x00000000#32)⟩]
          concatenates_S64_S64_S64_S64_S256_d0) shapeCasts_S256_S1x256 := by
  show StableHlo.after hostOps0 _ (Proc.devRef .tc main_v7) = _
  after_results
  rfl

/-- The tokens are as launched. -/
theorem V1_main_arg0 (c : Dev nD) :
    V1 (F := Ideal) m c main_arg0 = m ((c : Thread nD τ).loc main_arg0) := by
  show StableHlo.after hostOps0 _ (Proc.devRef .tc main_arg0) = _
  after_results

/-! ## Read at an index -/

/-- Four blocks of 64 columns laid side by side, read in the `j`-th of the first three at column `a`:
    the `j`-th block at `(e, a)`. -/
theorem concat_cols_apply (w0 w1 w2 w3 : S1024x64.Idx → EReal) (j : Fin 3) (e : Fin 1024) (a : Fin 64) :
    concatenate S1024x256 1 [⟨S1024x64, w0⟩, ⟨S1024x64, w1⟩, ⟨S1024x64, w2⟩, ⟨S1024x64, w3⟩]
        concatenates_S1024x64_S1024x64_S1024x64_S1024x64_S1024x256_d1 (ix2 e (fcol j a))
      = (![w0, w1, w2] j) (ix2 e a) := by
  have hi : ∀ b : Fin S1024x64.rank, b.cast (rfl : S1024x64.rank = S1024x256.rank) ≠ (1 : Fin 2) →
      ((ix2 e a : S1024x64.Idx) b).val = ((ix2 e (fcol j a) : S1024x256.Idx) (b.cast rfl)).val := fun b hb => by
    match b with
    | ⟨0, _⟩ => rfl
    | ⟨1, _⟩ => exact absurd rfl hb
  match j with
  | ⟨0, _⟩ =>
    exact concatenate_apply_piece (t := S1024x256) (1 : Fin 2) [⟨S1024x64, w0⟩, ⟨S1024x64, w1⟩, ⟨S1024x64, w2⟩, ⟨S1024x64, w3⟩]
      concatenates_S1024x64_S1024x64_S1024x64_S1024x64_S1024x256_d1 (ix2 e (fcol 0 a)) 0 (show (0 : Nat) < 4 by omega) S1024x64 w0 rfl rfl 0 rfl (ix2 e a) hi
      (show 0 + a.val = 64 * 0 + a.val by omega)
  | ⟨1, _⟩ =>
    exact concatenate_apply_piece (t := S1024x256) (1 : Fin 2) [⟨S1024x64, w0⟩, ⟨S1024x64, w1⟩, ⟨S1024x64, w2⟩, ⟨S1024x64, w3⟩]
      concatenates_S1024x64_S1024x64_S1024x64_S1024x64_S1024x256_d1 (ix2 e (fcol 1 a)) 1 (show (1 : Nat) < 4 by omega) S1024x64 w1 rfl rfl 64 rfl (ix2 e a) hi
      (show 64 + a.val = 64 * 1 + a.val by omega)
  | ⟨2, _⟩ =>
    exact concatenate_apply_piece (t := S1024x256) (1 : Fin 2) [⟨S1024x64, w0⟩, ⟨S1024x64, w1⟩, ⟨S1024x64, w2⟩, ⟨S1024x64, w3⟩]
      concatenates_S1024x64_S1024x64_S1024x64_S1024x64_S1024x256_d1 (ix2 e (fcol 2 a)) 2 (show (2 : Nat) < 4 by omega) S1024x64 w2 rfl rfl 128 rfl (ix2 e a) hi
      (show 128 + a.val = 64 * 2 + a.val by omega)

/-- Four rows of 64 laid end to end, read in the `j`-th of the first three at `a`. -/
theorem concat_row_apply (b0 b1 b2 b3 : S64.Idx → EReal) (j : Fin 3) (a : Fin 64) :
    concatenate S256 0 [⟨S64, b0⟩, ⟨S64, b1⟩, ⟨S64, b2⟩, ⟨S64, b3⟩]
        concatenates_S64_S64_S64_S64_S256_d0 (ix1 (fcol j a))
      = (![b0, b1, b2] j) (ix1 a) := by
  have hi : ∀ b : Fin S64.rank, b.cast (rfl : S64.rank = S256.rank) ≠ (0 : Fin 1) →
      ((ix1 a : S64.Idx) b).val = ((ix1 (fcol j a) : S256.Idx) (b.cast rfl)).val := fun b hb => by
    match b with
    | ⟨0, _⟩ => exact absurd rfl hb
  match j with
  | ⟨0, _⟩ =>
    exact concatenate_apply_piece (t := S256) (0 : Fin 1) [⟨S64, b0⟩, ⟨S64, b1⟩, ⟨S64, b2⟩, ⟨S64, b3⟩]
      concatenates_S64_S64_S64_S64_S256_d0 (ix1 (fcol 0 a)) 0 (show (0 : Nat) < 4 by omega) S64 b0 rfl rfl 0 rfl (ix1 a) hi
      (show 0 + a.val = 64 * 0 + a.val by omega)
  | ⟨1, _⟩ =>
    exact concatenate_apply_piece (t := S256) (0 : Fin 1) [⟨S64, b0⟩, ⟨S64, b1⟩, ⟨S64, b2⟩, ⟨S64, b3⟩]
      concatenates_S64_S64_S64_S64_S256_d0 (ix1 (fcol 1 a)) 1 (show (1 : Nat) < 4 by omega) S64 b1 rfl rfl 64 rfl (ix1 a) hi
      (show 64 + a.val = 64 * 1 + a.val by omega)
  | ⟨2, _⟩ =>
    exact concatenate_apply_piece (t := S256) (0 : Fin 1) [⟨S64, b0⟩, ⟨S64, b1⟩, ⟨S64, b2⟩, ⟨S64, b3⟩]
      concatenates_S64_S64_S64_S64_S256_d0 (ix1 (fcol 2 a)) 2 (show (2 : Nat) < 4 by omega) S64 b2 rfl rfl 128 rfl (ix1 a) hi
      (show 128 + a.val = 64 * 2 + a.val by omega)

/-- The `j`-th projection matrix and bias among the launch arrays. -/
def argW (c : Dev nD) (j : Fin 3) : S64x1024.Idx → EReal :=
  ![(m ((c : Thread nD τ).loc main_arg1) : S64x1024.Idx → EReal), m ((c : Thread nD τ).loc main_arg3), m ((c : Thread nD τ).loc main_arg5)] j
def argB (c : Dev nD) (j : Fin 3) : S64.Idx → EReal :=
  ![(m ((c : Thread nD τ).loc main_arg2) : S64.Idx → EReal), m ((c : Thread nD τ).loc main_arg4), m ((c : Thread nD τ).loc main_arg6)] j

/-- Row `e`, column `64·j + a` of the fused matrix is entry `(a, e)` of the `j`-th projection matrix. -/
theorem fused_weight_apply (c : Dev nD) (j : Fin 3) (e : Fin 1024) (a : Fin 64) :
    (V1 (F := Ideal) m c main_v4 : S1024x256.Idx → EReal) (ix2 e (fcol j a)) = argW m c j (ix2 a e) := by
  rw [V1_main_v4, concat_cols_apply]
  unfold argW
  match j with
  | ⟨0, _⟩ => exact transpose_ix2_apply _ _ e a
  | ⟨1, _⟩ => exact transpose_ix2_apply _ _ e a
  | ⟨2, _⟩ => exact transpose_ix2_apply _ _ e a

/-- Entry `64·j + a` of the fused row is entry `a` of the `j`-th bias. -/
theorem fused_bias_apply (c : Dev nD) (j : Fin 3) (u : Fin 1) (a : Fin 64) :
    (V1 (F := Ideal) m c main_v7 : S1x256.Idx → EReal) (ix2 u (fcol j a)) = argB m c j (ix1 a) := by
  rw [V1_main_v7, shapeCast_a_1a_apply, concat_row_apply]
  rfl

end Cert.KernelIdeal.Hand

end
-- ==== Proof.Spec.lean ====
import Idealize.ShloMosaic.PureOps.Ideal
import Idealize.ShloMosaic.Lib.ValueIdx
import proofs.«181537_j23003844837560_2_alg».proof.Proof.LibOnlineSoftmax

/-!
# Causal single-head attention over the extended reals

Tokens `x(b, s, ·)` of 4 batches of 4096 positions and 1024 features are projected to queries,
keys and values of 64 channels (`Σ_e x(b,s,e) · W(a,e) + β(a)`). The score of query position `s`
against key position `t` is the dot product of the two 64-vectors times `1/8` (`= 1/√64`), kept
where `t ≤ s` and `−∞` (`⊥`) elsewhere. The output at `(b, s, a)` is the softmax-weighted average
of the values' channel `a` over all 4096 key positions of batch `b`, with the row of 4096
positions read as 8 tiles of 512 columns: the row maximum `M`, the weights `exp (score − M)`,
their sum `L`, and `Σ (weight / L) · value` (`OnlineSoftmax.refOut`).
-/

open scoped BigOperators
open Idealize.ShloMosaic Idealize.ShloMosaic.ValueIdx

namespace Cert.AttnSpec

noncomputable section

/-- The tokens' shape, a projection matrix's, a bias's, and the shape of queries, keys, values and output. -/
abbrev SEmb : Shape := ⟨3, ![4, 4096, 1024]⟩
abbrev SW : Shape := ⟨2, ![64, 1024]⟩
abbrev SB : Shape := ⟨1, ![64]⟩
abbrev SOut : Shape := ⟨3, ![4, 4096, 64]⟩

/-- One linear projection of token `(b, s)` at channel `a`: `Σ_e x(b,s,e) · W(a,e) + β(a)`. -/
def proj (x : SEmb.Idx → EReal) (W : SW.Idx → EReal) (β : SB.Idx → EReal)
    (b : Fin 4) (s : Fin 4096) (a : Fin 64) : EReal :=
  (∑ e : Fin 1024, x (ix3 b s e) * W (ix2 a e)) + β (ix1 a)

/-- The position of column `c` of tile `j` in a row of 8 tiles of 512 columns. -/
def col (j : Fin 8) (c : Fin 512) : Fin 4096 :=
  ⟨j.val * 512 + c.val, by have := j.isLt; have := c.isLt; omega⟩

theorem col_val (j : Fin 8) (c : Fin 512) : (col j c).val = j.val * 512 + c.val := rfl

/-- The scaled, causally masked score of query position `s` against key position `t` within one
    batch: `(Σ_a q(s,a) · k(t,a)) · 1/8` where `t ≤ s`, and `⊥` elsewhere. -/
def mscore (q k : Fin 4096 → Fin 64 → EReal) (s t : Fin 4096) : EReal :=
  if t.val ≤ s.val then (∑ a : Fin 64, q s a * k t a) * ((1 / 8 : ℝ) : EReal) else ⊥

/-- The attention output of one batch at query position `s`, channel `a`: the whole-row
    softmax-weighted average of the values over the row's 8 tiles of 512 key positions. -/
def attnRow (q k v : Fin 4096 → Fin 64 → EReal) (s : Fin 4096) (a : Fin 64) : EReal :=
  OnlineSoftmax.refOut (T := 8) (W := 512)
    (fun j c => mscore q k s (col j c)) (fun j c => v (col j c) a)

/-- Causal attention as ONE function of the seven argument arrays, read at coordinates. -/
def attnAt (x : SEmb.Idx → EReal) (Wq : SW.Idx → EReal) (bq : SB.Idx → EReal)
    (Wk : SW.Idx → EReal) (bk : SB.Idx → EReal) (Wv : SW.Idx → EReal) (bv : SB.Idx → EReal)
    (b : Fin 4) (s : Fin 4096) (a : Fin 64) : EReal :=
  attnRow (proj x Wq bq b) (proj x Wk bk b) (proj x Wv bv b) s a

/-- The same as a function of the output index. -/
def attn (x : SEmb.Idx → EReal) (Wq : SW.Idx → EReal) (bq : SB.Idx → EReal)
    (Wk : SW.Idx → EReal) (bk : SB.Idx → EReal) (Wv : SW.Idx → EReal) (bv : SB.Idx → EReal) :
    SOut.Idx → EReal :=
  fun i => attnAt x Wq bq Wk bk Wv bv (i 0) (i 1) (i 2)

theorem attn_ix3 (x : SEmb.Idx → EReal) (Wq : SW.Idx → EReal) (bq : SB.Idx → EReal)
    (Wk : SW.Idx → EReal) (bk : SB.Idx → EReal) (Wv : SW.Idx → EReal) (bv : SB.Idx → EReal)
    (b : Fin 4) (s : Fin 4096) (a : Fin 64) :
    attn x Wq bq Wk bk Wv bv (ix3 b s a) = attnAt x Wq bq Wk bk Wv bv b s a := rfl

end

end Cert.AttnSpec
-- ==== Proof.KI.ProjValue.lean ====
import proofs.«181537_j23003844837560_2_alg».proof.Proof.KI.Proj
import proofs.«181537_j23003844837560_2_alg».proof.Proof.KI.ProjHost
import proofs.«181537_j23003844837560_2_alg».proof.Proof.Spec
import Idealize.ShloMosaic.Lib.Pipeline.Value

/-!
# What the projection region leaves in its three output arrays

Over the extended reals the region's three output arrays end holding the three linear projections
of the launched tokens by the launched projection matrices and biases: at `(b, s, a)`,
`Σ_e x(b,s,e) · W(a,e) + β(a)`. Each grid point `t = 4·b + s/1024` writes rows
`1024·(t mod 4) … 1024·(t mod 4) + 1023` of batch `t / 4`; the sixteen blocks tile the array.
-/

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The `j`-th projection of the launched tokens, as an array. -/
def projArr (c : Dev nD) (j : Fin 3) : S4x4096x64.Idx → EReal := fun i =>
  Cert.AttnSpec.proj (m ((c : Thread nD τ).loc main_arg0)) (argW m c j) (argB m c j) (i 0) (i 1) (i 2)

/-- Where each window's block lies at grid point `t`: the token and output blocks at batch `t / 4`, row block
    `t mod 4`; the fused matrix and row whole. Decided over the sixteen points. -/
theorem block_indices : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0 :=
  (by decide +kernel : ∀ t : Fin grid0.N, _)

/-! ## The input blocks at a point -/

/-- The token block at point `t`, row `r`: the launched tokens at batch `t / 4`, position `1024·(t mod 4) + r`. -/
theorem tokens_block_apply (c : Dev nD) (t : Fin cfg0.N) (u : Fin 1) (r e : Fin 1024) (b : Fin 4) (s : Fin 4096)
    (hb : b.val = t.val / 4) (hs : s.val = (t.val % 4) * 1024 + r.val) :
    (iblk0 (V1 m) c 0 t : Vec Ideal S1x1024x1024 .f32) (ix3 u r e)
      = (m ((c : Thread nD τ).loc main_arg0) : S4x4096x1024.Idx → EReal) (ix3 b s e) := by
  obtain ⟨e0, e1, e2, -⟩ := block_indices t
  unfold iblk0
  rw [View.read_apply]
  show V1 m c main_arg0 _ = _
  rw [V1_main_arg0]
  congr 1
  funext ax
  apply Fin.ext
  have hu : u.val = 0 := by omega
  match ax with
  | ⟨0, _⟩ => show win0_0.index t (0 : Fin 3) * 1 + 1 * u.val = b.val; omega
  | ⟨1, _⟩ => show win0_0.index t (1 : Fin 3) * 1024 + 1 * r.val = s.val; omega
  | ⟨2, _⟩ => show win0_0.index t (2 : Fin 3) * 1024 + 1 * e.val = e.val; omega

/-- The fused matrix's block at any point is the whole fused matrix. -/
theorem weight_block_apply (c : Dev nD) (t : Fin cfg0.N) (p : Fin 1024) (q : Fin 256) :
    (iblk0 (V1 m) c 1 t : Vec Ideal S1024x256 .f32) (ix2 p q) = (V1 m c main_v4 : S1024x256.Idx → EReal) (ix2 p q) := by
  obtain ⟨-, -, -, e3, e4, -⟩ := block_indices t
  unfold iblk0
  rw [View.read_apply]
  show V1 m c main_v4 _ = _
  congr 1
  funext ax
  apply Fin.ext
  match ax with
  | ⟨0, _⟩ => show win0_1.index t (0 : Fin 2) * 1024 + 1 * p.val = p.val; omega
  | ⟨1, _⟩ => show win0_1.index t (1 : Fin 2) * 256 + 1 * q.val = q.val; omega

/-- The fused row's block at any point is the whole fused row. -/
theorem bias_block_apply (c : Dev nD) (t : Fin cfg0.N) (u : Fin 1) (q : Fin 256) :
    (iblk0 (V1 m) c 2 t : Vec Ideal S1x256 .f32) (ix2 u q) = (V1 m c main_v7 : S1x256.Idx → EReal) (ix2 u q) := by
  obtain ⟨-, -, -, -, -, e5, e6, -⟩ := block_indices t
  unfold iblk0
  rw [View.read_apply]
  show V1 m c main_v7 _ = _
  congr 1
  funext ax
  apply Fin.ext
  match ax with
  | ⟨0, _⟩ => show win0_2.index t (0 : Fin 2) * 1 + 1 * u.val = u.val; omega
  | ⟨1, _⟩ => show win0_2.index t (1 : Fin 2) * 256 + 1 * q.val = q.val; omega

/-! ## One entry of one output block -/

/-- A block payload that reads as row `r` of a token block against column `64·j + a` of a fused matrix plus a fused
    row there is the `j`-th projection at `(b, s, a)`, when the token block's row `r` is the launched tokens' row
    `(b, s)` and the fused matrix and row are the launched matrices and biases laid side by side. -/
theorem block_entry (c : Dev nD) (j : Fin 3)
    (x0 : Vec Ideal S1x1024x1024 .f32) (x1 : Vec Ideal S1024x256 .f32) (x2 : Vec Ideal S1x256 .f32)
    (P : S1x1024x64.Idx → EReal)
    (hP : ∀ (u : Fin 1) (r : Fin 1024) (a : Fin 64), P (ix3 u r a)
      = (∑ e : Fin 1024, x0 (ix3 (0 : Fin 1) r e) * x1 (ix2 e (fcol j a))) + x2 (ix2 (0 : Fin 1) (fcol j a)))
    (u : Fin 1) (r : Fin 1024) (a : Fin 64) (b : Fin 4) (s : Fin 4096) (a' : Fin 64) (ha : a'.val = a.val)
    (h0 : ∀ e : Fin 1024, x0 (ix3 (0 : Fin 1) r e)
      = (m ((c : Thread nD τ).loc main_arg0) : S4x4096x1024.Idx → EReal) (ix3 b s e))
    (h1 : ∀ e : Fin 1024, x1 (ix2 e (fcol j a)) = argW m c j (ix2 a e))
    (h2 : x2 (ix2 (0 : Fin 1) (fcol j a)) = argB m c j (ix1 a)) :
    P (ix3 u r a) = projArr m c j (ix3 b s a') := by
  obtain rfl : a' = a := Fin.ext ha
  rw [hP, h2]
  show _ = Cert.AttnSpec.proj _ _ _ b s a'
  unfold Cert.AttnSpec.proj
  congr 1
  exact Finset.sum_congr rfl fun e _ => by rw [h0, h1]

/-! ## From the blocks to the arrays -/

/-- What point `t` writes back to output window 3 is block `t` of the query projection. -/
theorem flushed3_eq (c : Dev nD) (t : Fin cfg0.N) :
    (dat0 (F := Ideal) (V1 m) c).flushed 3 t = ((cfg0.win 3).blk t).view.read (Elt Ideal) (projArr m c 0) := by
  show (cfg0.win 3).cut (grid0.coords t) ((dat0 (F := Ideal) (V1 m) c).after 3 t) = _
  rw [after0_3]
  unfold out0_3
  rw [View.canon_unit_zero zeros3]
  simp only [View.ld_unit_zero (S := S1x1024x1024) zeros3, View.ld_unit_zero (S := S1024x256) zeros2,
    View.ld_unit_zero (S := S1x256) zeros2]
  obtain ⟨-, -, -, -, -, -, -, q30, q31, q32, q40, q41, q42, q50, q51, q52⟩ := block_indices t
  funext y
  show k0_pay2 (F := Ideal) (iblk0 (V1 m) c 0 t) (iblk0 (V1 m) c 1 t) (iblk0 (V1 m) c 2 t) y
    = projArr m c 0 (((cfg0.win 3).blk t).view.emb y)
  have hy0 : (y 0).val < 1 := (y 0).isLt
  have hy1 : (y 1).val < 1024 := (y 1).isLt
  have hy2 : (y 2).val < 64 := (y 2).isLt
  have hN : t.val < 16 := lt_of_lt_of_eq t.isLt N_0
  have key := block_entry m c 0 (iblk0 (V1 m) c 0 t) (iblk0 (V1 m) c 1 t) (iblk0 (V1 m) c 2 t)
    (k0_pay2 (F := Ideal) (iblk0 (V1 m) c 0 t) (iblk0 (V1 m) c 1 t) (iblk0 (V1 m) c 2 t))
    (fun u r a => pay2_apply _ _ _ u r a) (y 0) (y 1) (y 2)
    ⟨t.val / 4, by omega⟩ ⟨(t.val % 4) * 1024 + (y 1).val, by omega⟩ (y 2) rfl
    (fun e => tokens_block_apply m c t (0 : Fin 1) (y 1) e _ _ rfl rfl)
    (fun e => (weight_block_apply m c t e (fcol 0 (y 2))).trans (fused_weight_apply m c 0 e (y 2)))
    ((bias_block_apply m c t (0 : Fin 1) (fcol 0 (y 2))).trans (fused_bias_apply m c 0 (0 : Fin 1) (y 2)))
  refine (congrArg (k0_pay2 (F := Ideal) (iblk0 (V1 m) c 0 t) (iblk0 (V1 m) c 1 t) (iblk0 (V1 m) c 2 t))
    (eq_ix3 (n0 := 1) (n1 := 1024) (n2 := 64) y)).trans (key.trans (congrArg (projArr m c 0) ?_))
  funext ax
  apply Fin.ext
  match ax with
  | ⟨0, _⟩ => show t.val / 4 = win0_3.index t (0 : Fin 3) * 1 + 1 * (y 0).val; omega
  | ⟨1, _⟩ => show (t.val % 4) * 1024 + (y 1).val = win0_3.index t (1 : Fin 3) * 1024 + 1 * (y 1).val; omega
  | ⟨2, _⟩ => show (y 2).val = win0_3.index t (2 : Fin 3) * 64 + 1 * (y 2).val; omega

/-- An index of the array is in point `t`'s block of window 3 iff each coordinate is in the block's range. -/
theorem mem_blk3 (t : Fin cfg0.N) (i : S4x4096x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v8_0).slice (win0_3.rect t)).set ↔ _
  rw [View.set_slice_whole, Rect.mem_set_unit]
  exact Iff.rfl

/-- Every index of output array 3 is in some point's block: row `s` of batch `b` in point `4·b + s/1024`'s. -/
theorem cover3 (i : S4x4096x64.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 64 := (i 2).isLt
  have hN : cfg0.N = 16 := N_0
  obtain ⟨t, ht⟩ : ∃ t : Fin cfg0.N, t.val = (i 0).val * 4 + (i 1).val / 1024 :=
    ⟨⟨(i 0).val * 4 + (i 1).val / 1024, by omega⟩, rfl⟩
  refine ⟨t, flush0_3 t, ?_⟩
  rw [mem_blk3]
  obtain ⟨-, -, -, -, -, -, -, q30, q31, q32, q40, q41, q42, q50, q51, q52⟩ := block_indices t
  intro ax
  match ax with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 64 ≤ (i 2).val ∧ (i 2).val < win0_3.index t (2 : Fin 3) * 64 + 64
    omega

/-- After the region, output array 3 is the query projection of the launched tokens. -/
theorem final3 (c : Dev nD) :
    ((dat0 (F := Ideal) (V1 m) c).arrAt 3 cfg0.N : S4x4096x64.Idx → EReal) = projArr m c 0 :=
  (dat0 (F := Ideal) (V1 m) c).arrAt_eq_of_cover 3 (projArr m c 0) (fun t _ => flushed3_eq m c t) (cover3)

/-- What point `t` writes back to output window 4 is block `t` of the key projection. -/
theorem flushed4_eq (c : Dev nD) (t : Fin cfg0.N) :
    (dat0 (F := Ideal) (V1 m) c).flushed 4 t = ((cfg0.win 4).blk t).view.read (Elt Ideal) (projArr m c 1) := by
  show (cfg0.win 4).cut (grid0.coords t) ((dat0 (F := Ideal) (V1 m) c).after 4 t) = _
  rw [after0_4]
  unfold out0_4
  rw [View.canon_unit_zero zeros3]
  simp only [View.ld_unit_zero (S := S1x1024x1024) zeros3, View.ld_unit_zero (S := S1024x256) zeros2,
    View.ld_unit_zero (S := S1x256) zeros2]
  obtain ⟨-, -, -, -, -, -, -, q30, q31, q32, q40, q41, q42, q50, q51, q52⟩ := block_indices t
  funext y
  show k0_pay3 (F := Ideal) (iblk0 (V1 m) c 0 t) (iblk0 (V1 m) c 1 t) (iblk0 (V1 m) c 2 t) y
    = projArr m c 1 (((cfg0.win 4).blk t).view.emb y)
  have hy0 : (y 0).val < 1 := (y 0).isLt
  have hy1 : (y 1).val < 1024 := (y 1).isLt
  have hy2 : (y 2).val < 64 := (y 2).isLt
  have hN : t.val < 16 := lt_of_lt_of_eq t.isLt N_0
  have key := block_entry m c 1 (iblk0 (V1 m) c 0 t) (iblk0 (V1 m) c 1 t) (iblk0 (V1 m) c 2 t)
    (k0_pay3 (F := Ideal) (iblk0 (V1 m) c 0 t) (iblk0 (V1 m) c 1 t) (iblk0 (V1 m) c 2 t))
    (fun u r a => pay3_apply _ _ _ u r a) (y 0) (y 1) (y 2)
    ⟨t.val / 4, by omega⟩ ⟨(t.val % 4) * 1024 + (y 1).val, by omega⟩ (y 2) rfl
    (fun e => tokens_block_apply m c t (0 : Fin 1) (y 1) e _ _ rfl rfl)
    (fun e => (weight_block_apply m c t e (fcol 1 (y 2))).trans (fused_weight_apply m c 1 e (y 2)))
    ((bias_block_apply m c t (0 : Fin 1) (fcol 1 (y 2))).trans (fused_bias_apply m c 1 (0 : Fin 1) (y 2)))
  refine (congrArg (k0_pay3 (F := Ideal) (iblk0 (V1 m) c 0 t) (iblk0 (V1 m) c 1 t) (iblk0 (V1 m) c 2 t))
    (eq_ix3 (n0 := 1) (n1 := 1024) (n2 := 64) y)).trans (key.trans (congrArg (projArr m c 1) ?_))
  funext ax
  apply Fin.ext
  match ax with
  | ⟨0, _⟩ => show t.val / 4 = win0_4.index t (0 : Fin 3) * 1 + 1 * (y 0).val; omega
  | ⟨1, _⟩ => show (t.val % 4) * 1024 + (y 1).val = win0_4.index t (1 : Fin 3) * 1024 + 1 * (y 1).val; omega
  | ⟨2, _⟩ => show (y 2).val = win0_4.index t (2 : Fin 3) * 64 + 1 * (y 2).val; omega

/-- An index of the array is in point `t`'s block of window 4 iff each coordinate is in the block's range. -/
theorem mem_blk4 (t : Fin cfg0.N) (i : S4x4096x64.Idx) :
    i ∈ ((cfg0.win 4).blk t).view.set ↔ ∀ a : Fin 3, win0_4.index t a * S1x1024x64.size a ≤ (i a).val
      ∧ (i a).val < win0_4.index t a * S1x1024x64.size a + S1x1024x64.size a := by
  show i ∈ ((View.whole main_v8_1).slice (win0_4.rect t)).set ↔ _
  rw [View.set_slice_whole, Rect.mem_set_unit]
  exact Iff.rfl

/-- Every index of output array 4 is in some point's block: row `s` of batch `b` in point `4·b + s/1024`'s. -/
theorem cover4 (i : S4x4096x64.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 64 := (i 2).isLt
  have hN : cfg0.N = 16 := N_0
  obtain ⟨t, ht⟩ : ∃ t : Fin cfg0.N, t.val = (i 0).val * 4 + (i 1).val / 1024 :=
    ⟨⟨(i 0).val * 4 + (i 1).val / 1024, by omega⟩, rfl⟩
  refine ⟨t, flush0_4 t, ?_⟩
  rw [mem_blk4]
  obtain ⟨-, -, -, -, -, -, -, q30, q31, q32, q40, q41, q42, q50, q51, q52⟩ := block_indices t
  intro ax
  match ax with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 64 ≤ (i 2).val ∧ (i 2).val < win0_4.index t (2 : Fin 3) * 64 + 64
    omega

/-- After the region, output array 4 is the key projection of the launched tokens. -/
theorem final4 (c : Dev nD) :
    ((dat0 (F := Ideal) (V1 m) c).arrAt 4 cfg0.N : S4x4096x64.Idx → EReal) = projArr m c 1 :=
  (dat0 (F := Ideal) (V1 m) c).arrAt_eq_of_cover 4 (projArr m c 1) (fun t _ => flushed4_eq m c t) (cover4)

/-- What point `t` writes back to output window 5 is block `t` of the value projection. -/
theorem flushed5_eq (c : Dev nD) (t : Fin cfg0.N) :
    (dat0 (F := Ideal) (V1 m) c).flushed 5 t = ((cfg0.win 5).blk t).view.read (Elt Ideal) (projArr m c 2) := by
  show (cfg0.win 5).cut (grid0.coords t) ((dat0 (F := Ideal) (V1 m) c).after 5 t) = _
  rw [after0_5]
  unfold out0_5
  rw [View.canon_unit_zero zeros3]
  simp only [View.ld_unit_zero (S := S1x1024x1024) zeros3, View.ld_unit_zero (S := S1024x256) zeros2,
    View.ld_unit_zero (S := S1x256) zeros2]
  obtain ⟨-, -, -, -, -, -, -, q30, q31, q32, q40, q41, q42, q50, q51, q52⟩ := block_indices t
  funext y
  show k0_pay4 (F := Ideal) (iblk0 (V1 m) c 0 t) (iblk0 (V1 m) c 1 t) (iblk0 (V1 m) c 2 t) y
    = projArr m c 2 (((cfg0.win 5).blk t).view.emb y)
  have hy0 : (y 0).val < 1 := (y 0).isLt
  have hy1 : (y 1).val < 1024 := (y 1).isLt
  have hy2 : (y 2).val < 64 := (y 2).isLt
  have hN : t.val < 16 := lt_of_lt_of_eq t.isLt N_0
  have key := block_entry m c 2 (iblk0 (V1 m) c 0 t) (iblk0 (V1 m) c 1 t) (iblk0 (V1 m) c 2 t)
    (k0_pay4 (F := Ideal) (iblk0 (V1 m) c 0 t) (iblk0 (V1 m) c 1 t) (iblk0 (V1 m) c 2 t))
    (fun u r a => pay4_apply _ _ _ u r a) (y 0) (y 1) (y 2)
    ⟨t.val / 4, by omega⟩ ⟨(t.val % 4) * 1024 + (y 1).val, by omega⟩ (y 2) rfl
    (fun e => tokens_block_apply m c t (0 : Fin 1) (y 1) e _ _ rfl rfl)
    (fun e => (weight_block_apply m c t e (fcol 2 (y 2))).trans (fused_weight_apply m c 2 e (y 2)))
    ((bias_block_apply m c t (0 : Fin 1) (fcol 2 (y 2))).trans (fused_bias_apply m c 2 (0 : Fin 1) (y 2)))
  refine (congrArg (k0_pay4 (F := Ideal) (iblk0 (V1 m) c 0 t) (iblk0 (V1 m) c 1 t) (iblk0 (V1 m) c 2 t))
    (eq_ix3 (n0 := 1) (n1 := 1024) (n2 := 64) y)).trans (key.trans (congrArg (projArr m c 2) ?_))
  funext ax
  apply Fin.ext
  match ax with
  | ⟨0, _⟩ => show t.val / 4 = win0_5.index t (0 : Fin 3) * 1 + 1 * (y 0).val; omega
  | ⟨1, _⟩ => show (t.val % 4) * 1024 + (y 1).val = win0_5.index t (1 : Fin 3) * 1024 + 1 * (y 1).val; omega
  | ⟨2, _⟩ => show (y 2).val = win0_5.index t (2 : Fin 3) * 64 + 1 * (y 2).val; omega

/-- An index of the array is in point `t`'s block of window 5 iff each coordinate is in the block's range. -/
theorem mem_blk5 (t : Fin cfg0.N) (i : S4x4096x64.Idx) :
    i ∈ ((cfg0.win 5).blk t).view.set ↔ ∀ a : Fin 3, win0_5.index t a * S1x1024x64.size a ≤ (i a).val
      ∧ (i a).val < win0_5.index t a * S1x1024x64.size a + S1x1024x64.size a := by
  show i ∈ ((View.whole main_v8_2).slice (win0_5.rect t)).set ↔ _
  rw [View.set_slice_whole, Rect.mem_set_unit]
  exact Iff.rfl

/-- Every index of output array 5 is in some point's block: row `s` of batch `b` in point `4·b + s/1024`'s. -/
theorem cover5 (i : S4x4096x64.Idx) :
    ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 64 := (i 2).isLt
  have hN : cfg0.N = 16 := N_0
  obtain ⟨t, ht⟩ : ∃ t : Fin cfg0.N, t.val = (i 0).val * 4 + (i 1).val / 1024 :=
    ⟨⟨(i 0).val * 4 + (i 1).val / 1024, by omega⟩, rfl⟩
  refine ⟨t, flush0_5 t, ?_⟩
  rw [mem_blk5]
  obtain ⟨-, -, -, -, -, -, -, q30, q31, q32, q40, q41, q42, q50, q51, q52⟩ := block_indices t
  intro ax
  match ax with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 1024 ≤ (i 1).val ∧ (i 1).val < win0_5.index t (1 : Fin 3) * 1024 + 1024
    omega
  | ⟨2, _⟩ =>
    show win0_5.index t (2 : Fin 3) * 64 ≤ (i 2).val ∧ (i 2).val < win0_5.index t (2 : Fin 3) * 64 + 64
    omega

/-- After the region, output array 5 is the value projection of the launched tokens. -/
theorem final5 (c : Dev nD) :
    ((dat0 (F := Ideal) (V1 m) c).arrAt 5 cfg0.N : S4x4096x64.Idx → EReal) = projArr m c 2 :=
  (dat0 (F := Ideal) (V1 m) c).arrAt_eq_of_cover 5 (projArr m c 2) (fun t _ => flushed5_eq m c t) (cover5)

/-! ## The three arrays as the specification's projections of the launch arrays -/

theorem proj_q (c : Dev nD) :
    ((dat0 (F := Ideal) (V1 m) c).arrAt 3 cfg0.N : S4x4096x64.Idx → EReal)
      = fun i => Cert.AttnSpec.proj (m ((c : Thread nD τ).loc main_arg0)) (m ((c : Thread nD τ).loc main_arg1))
          (m ((c : Thread nD τ).loc main_arg2)) (i 0) (i 1) (i 2) :=
  final3 m c

theorem proj_k (c : Dev nD) :
    ((dat0 (F := Ideal) (V1 m) c).arrAt 4 cfg0.N : S4x4096x64.Idx → EReal)
      = fun i => Cert.AttnSpec.proj (m ((c : Thread nD τ).loc main_arg0)) (m ((c : Thread nD τ).loc main_arg3))
          (m ((c : Thread nD τ).loc main_arg4)) (i 0) (i 1) (i 2) :=
  final4 m c

theorem proj_v (c : Dev nD) :
    ((dat0 (F := Ideal) (V1 m) c).arrAt 5 cfg0.N : S4x4096x64.Idx → EReal)
      = fun i => Cert.AttnSpec.proj (m ((c : Thread nD τ).loc main_arg0)) (m ((c : Thread nD τ).loc main_arg5))
          (m ((c : Thread nD τ).loc main_arg6)) (i 0) (i 1) (i 2) :=
  final5 m c

end Cert.KernelIdeal.Hand

end
-- ==== Proof.KI.AttnBlocks.lean ====
import proofs.«181537_j23003844837560_2_alg».proof.Proof.KI.Run
import proofs.«181537_j23003844837560_2_alg».proof.Proof.KI.ProjValue

/-!
# The attention region's input blocks, as projections of the launched arrays

The attention region is entered with the three projection arrays as the projection region left
them. At grid point `t` (batch `t / 8`, query block `t mod 8`) the query window's block is rows
`512·(t mod 8) … 512·(t mod 8) + 511` of the batch's query projection; the key and value windows'
blocks are all 4096 rows of the batch's key and value projections. A block of 4096 rows read
through the rectangle of 512 rows at offset `o` is the block's rows `o … o + 511`.
-/

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ)

/-- Where each input window's block lies at grid point `t`: batch `t / 8`; the query block at row block `t mod 8`,
    the keys and values whole. Decided over the thirty-two points. -/
theorem attn_block_indices : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0 :=
  (by decide +kernel : ∀ t : Fin grid1.N, _)

/-! ## The three arrays the region is entered with -/

theorem V2_queries (c : Dev nD) :
    (V2 (F := Ideal) m c main_v8_0 : S4x4096x64.Idx → EReal)
      = fun i => Cert.AttnSpec.proj (m ((c : Thread nD τ).loc main_arg0)) (m ((c : Thread nD τ).loc main_arg1))
          (m ((c : Thread nD τ).loc main_arg2)) (i 0) (i 1) (i 2) :=
  (W2_arr m c 3).trans (proj_q m c)

theorem V2_keys (c : Dev nD) :
    (V2 (F := Ideal) m c main_v8_1 : S4x4096x64.Idx → EReal)
      = fun i => Cert.AttnSpec.proj (m ((c : Thread nD τ).loc main_arg0)) (m ((c : Thread nD τ).loc main_arg3))
          (m ((c : Thread nD τ).loc main_arg4)) (i 0) (i 1) (i 2) :=
  (W2_arr m c 4).trans (proj_k m c)

theorem V2_values (c : Dev nD) :
    (V2 (F := Ideal) m c main_v8_2 : S4x4096x64.Idx → EReal)
      = fun i => Cert.AttnSpec.proj (m ((c : Thread nD τ).loc main_arg0)) (m ((c : Thread nD τ).loc main_arg5))
          (m ((c : Thread nD τ).loc main_arg6)) (i 0) (i 1) (i 2) :=
  (W2_arr m c 5).trans (proj_v m c)

/-! ## The blocks at a point -/

/-- Row `r` of the query block at point `t` is row `512·(t mod 8) + r` of batch `t / 8` of the query array. -/
theorem qblock_read (c : Dev nD) (t : Fin cfg1.N) (r : Fin 512) (a : Fin 64) (b : Fin 4) (s : Fin 4096)
    (hb : b.val = t.val / 8) (hs : s.val = t.val % 8 * 512 + r.val) :
    iblk1 (F := Ideal) (V2 m) c 0 t (ix3 (0 : Fin 1) r a) = (V2 (F := Ideal) m c main_v8_0 : S4x4096x64.Idx → EReal) (ix3 b s a) := by
  obtain ⟨e0, e1, e2, -⟩ := attn_block_indices t
  unfold iblk1
  rw [View.read_apply]
  show V2 m c main_v8_0 _ = _
  congr 1
  funext ax
  apply Fin.ext
  match ax with
  | ⟨0, _⟩ => show win1_0.index t (0 : Fin 3) * 1 + 1 * 0 = b.val; omega
  | ⟨1, _⟩ => show win1_0.index t (1 : Fin 3) * 512 + 1 * r.val = s.val; omega
  | ⟨2, _⟩ => show win1_0.index t (2 : Fin 3) * 64 + 1 * a.val = a.val; omega

/-- Row `n` of the key block at point `t` is row `n` of batch `t / 8` of the key array. -/
theorem kblock_read (c : Dev nD) (t : Fin cfg1.N) (n : Fin 4096) (a : Fin 64) (b : Fin 4) (hb : b.val = t.val / 8) :
    iblk1 (F := Ideal) (V2 m) c 1 t (ix3 (0 : Fin 1) n a) = (V2 (F := Ideal) m c main_v8_1 : S4x4096x64.Idx → EReal) (ix3 b n a) := by
  obtain ⟨-, -, -, e3, e4, e5, -⟩ := attn_block_indices t
  unfold iblk1
  rw [View.read_apply]
  show V2 m c main_v8_1 _ = _
  congr 1
  funext ax
  apply Fin.ext
  match ax with
  | ⟨0, _⟩ => show win1_1.index t (0 : Fin 3) * 1 + 1 * 0 = b.val; omega
  | ⟨1, _⟩ => show win1_1.index t (1 : Fin 3) * 4096 + 1 * n.val = n.val; omega
  | ⟨2, _⟩ => show win1_1.index t (2 : Fin 3) * 64 + 1 * a.val = a.val; omega

/-- Row `n` of the value block at point `t` is row `n` of batch `t / 8` of the value array. -/
theorem vblock_read (c : Dev nD) (t : Fin cfg1.N) (n : Fin 4096) (a : Fin 64) (b : Fin 4) (hb : b.val = t.val / 8) :
    iblk1 (F := Ideal) (V2 m) c 2 t (ix3 (0 : Fin 1) n a) = (V2 (F := Ideal) m c main_v8_2 : S4x4096x64.Idx → EReal) (ix3 b n a) := by
  obtain ⟨-, -, -, -, -, -, e6, e7, e8⟩ := attn_block_indices t
  unfold iblk1
  rw [View.read_apply]
  show V2 m c main_v8_2 _ = _
  congr 1
  funext ax
  apply Fin.ext
  match ax with
  | ⟨0, _⟩ => show win1_2.index t (0 : Fin 3) * 1 + 1 * 0 = b.val; omega
  | ⟨1, _⟩ => show win1_2.index t (1 : Fin 3) * 4096 + 1 * n.val = n.val; omega
  | ⟨2, _⟩ => show win1_2.index t (2 : Fin 3) * 64 + 1 * a.val = a.val; omega

/-- The query block at point `t`: the query projection of the launched arrays at batch `t / 8`, position
    `512·(t mod 8) + r`. -/
theorem qblock_apply (c : Dev nD) (t : Fin cfg1.N) (r : Fin 512) (a : Fin 64) :
    iblk1 (F := Ideal) (V2 m) c 0 t (ix3 (0 : Fin 1) r a)
      = Cert.AttnSpec.proj (m ((c : Thread nD τ).loc main_arg0)) (m ((c : Thread nD τ).loc main_arg1))
          (m ((c : Thread nD τ).loc main_arg2))
          ⟨t.val / 8, by have h : t.val < 32 := lt_of_lt_of_eq t.isLt N_1; omega⟩
          ⟨t.val % 8 * 512 + r.val, by have := r.isLt; omega⟩ a :=
  (qblock_read m c t r a _ _ rfl rfl).trans (congrFun (V2_queries m c) _)

/-- The key block at point `t`: the key projection at batch `t / 8`, every position. -/
theorem kblock_apply (c : Dev nD) (t : Fin cfg1.N) (n : Fin 4096) (a : Fin 64) :
    iblk1 (F := Ideal) (V2 m) c 1 t (ix3 (0 : Fin 1) n a)
      = Cert.AttnSpec.proj (m ((c : Thread nD τ).loc main_arg0)) (m ((c : Thread nD τ).loc main_arg3))
          (m ((c : Thread nD τ).loc main_arg4))
          ⟨t.val / 8, by have h : t.val < 32 := lt_of_lt_of_eq t.isLt N_1; omega⟩ n a :=
  (kblock_read m c t n a _ rfl).trans (congrFun (V2_keys m c) _)

/-- The value block at point `t`: the value projection at batch `t / 8`, every position. -/
theorem vblock_apply (c : Dev nD) (t : Fin cfg1.N) (n : Fin 4096) (a : Fin 64) :
    iblk1 (F := Ideal) (V2 m) c 2 t (ix3 (0 : Fin 1) n a)
      = Cert.AttnSpec.proj (m ((c : Thread nD τ).loc main_arg0)) (m ((c : Thread nD τ).loc main_arg5))
          (m ((c : Thread nD τ).loc main_arg6))
          ⟨t.val / 8, by have h : t.val < 32 := lt_of_lt_of_eq t.isLt N_1; omega⟩ n a :=
  (vblock_read m c t n a _ rfl).trans (congrFun (V2_values m c) _)

/-! ## A slab of 512 rows of a block of 4096 -/

/-- A block of 4096 rows read through the rectangle of 512 rows at row offset `o`: row `cc` is the block's row `o + cc`. -/
theorem slab_apply (o : Nat) (inb : ∀ a, (![0, o, 0] : Fin 3 → Nat) a + S1x512x64.size a ≤ S1x4096x64.size a)
    (x : Vec Ideal S1x4096x64 .bf16) (cc : Fin 512) (a : Fin 64) (n : Fin 4096) (hn : n.val = o + cc.val) :
    View.ld x (Rect.unit (s := S1x4096x64) ![0, o, 0] S1x512x64.size inb) (ix3 (0 : Fin 1) cc a) = x (ix3 (0 : Fin 1) n a) := by
  show x ((Rect.unit (s := S1x4096x64) ![0, o, 0] S1x512x64.size inb).emb (ix3 (0 : Fin 1) cc a)) = _
  congr 1
  funext ax
  apply Fin.ext
  rw [Rect.emb_apply, Rect.off_unit, Rect.stride_unit]
  match ax with
  | ⟨0, _⟩ => show 0 + 1 * 0 = 0; rfl
  | ⟨1, _⟩ => show o + 1 * cc.val = n.val; omega
  | ⟨2, _⟩ => show 0 + 1 * a.val = a.val; omega

/-- Rows `0 … 511` of a block of 4096 rows. -/
theorem slab0_apply (x : Vec Ideal S1x4096x64 .bf16) (cc : Fin 512) (a : Fin 64) :
    View.ld x (Rect.unit (s := S1x4096x64) ![0, 0, 0] S1x512x64.size Gen.inb_S1x4096x64_S1x512x64_0_0_0) (ix3 (0 : Fin 1) cc a)
      = x (ix3 (0 : Fin 1) (⟨0 + cc.val, by have := cc.isLt; omega⟩ : Fin 4096) a) :=
  slab_apply 0 _ x cc a _ rfl

/-- Rows `512 … 1023` of a block of 4096 rows. -/
theorem slab1_apply (x : Vec Ideal S1x4096x64 .bf16) (cc : Fin 512) (a : Fin 64) :
    View.ld x (Rect.unit (s := S1x4096x64) ![0, 512, 0] S1x512x64.size Gen.inb_S1x4096x64_S1x512x64_0_512_0) (ix3 (0 : Fin 1) cc a)
      = x (ix3 (0 : Fin 1) (⟨512 + cc.val, by have := cc.isLt; omega⟩ : Fin 4096) a) :=
  slab_apply 512 _ x cc a _ rfl

/-- Rows `1024 … 1535` of a block of 4096 rows. -/
theorem slab2_apply (x : Vec Ideal S1x4096x64 .bf16) (cc : Fin 512) (a : Fin 64) :
    View.ld x (Rect.unit (s := S1x4096x64) ![0, 1024, 0] S1x512x64.size Gen.inb_S1x4096x64_S1x512x64_0_1024_0) (ix3 (0 : Fin 1) cc a)
      = x (ix3 (0 : Fin 1) (⟨1024 + cc.val, by have := cc.isLt; omega⟩ : Fin 4096) a) :=
  slab_apply 1024 _ x cc a _ rfl

/-- Rows `1536 … 2047` of a block of 4096 rows. -/
theorem slab3_apply (x : Vec Ideal S1x4096x64 .bf16) (cc : Fin 512) (a : Fin 64) :
    View.ld x (Rect.unit (s := S1x4096x64) ![0, 1536, 0] S1x512x64.size Gen.inb_S1x4096x64_S1x512x64_0_1536_0) (ix3 (0 : Fin 1) cc a)
      = x (ix3 (0 : Fin 1) (⟨1536 + cc.val, by have := cc.isLt; omega⟩ : Fin 4096) a) :=
  slab_apply 1536 _ x cc a _ rfl

/-- Rows `2048 … 2559` of a block of 4096 rows. -/
theorem slab4_apply (x : Vec Ideal S1x4096x64 .bf16) (cc : Fin 512) (a : Fin 64) :
    View.ld x (Rect.unit (s := S1x4096x64) ![0, 2048, 0] S1x512x64.size Gen.inb_S1x4096x64_S1x512x64_0_2048_0) (ix3 (0 : Fin 1) cc a)
      = x (ix3 (0 : Fin 1) (⟨2048 + cc.val, by have := cc.isLt; omega⟩ : Fin 4096) a) :=
  slab_apply 2048 _ x cc a _ rfl

/-- Rows `2560 … 3071` of a block of 4096 rows. -/
theorem slab5_apply (x : Vec Ideal S1x4096x64 .bf16) (cc : Fin 512) (a : Fin 64) :
    View.ld x (Rect.unit (s := S1x4096x64) ![0, 2560, 0] S1x512x64.size Gen.inb_S1x4096x64_S1x512x64_0_2560_0) (ix3 (0 : Fin 1) cc a)
      = x (ix3 (0 : Fin 1) (⟨2560 + cc.val, by have := cc.isLt; omega⟩ : Fin 4096) a) :=
  slab_apply 2560 _ x cc a _ rfl

/-- Rows `3072 … 3583` of a block of 4096 rows. -/
theorem slab6_apply (x : Vec Ideal S1x4096x64 .bf16) (cc : Fin 512) (a : Fin 64) :
    View.ld x (Rect.unit (s := S1x4096x64) ![0, 3072, 0] S1x512x64.size Gen.inb_S1x4096x64_S1x512x64_0_3072_0) (ix3 (0 : Fin 1) cc a)
      = x (ix3 (0 : Fin 1) (⟨3072 + cc.val, by have := cc.isLt; omega⟩ : Fin 4096) a) :=
  slab_apply 3072 _ x cc a _ rfl

/-- Rows `3584 … 4095` of a block of 4096 rows. -/
theorem slab7_apply (x : Vec Ideal S1x4096x64 .bf16) (cc : Fin 512) (a : Fin 64) :
    View.ld x (Rect.unit (s := S1x4096x64) ![0, 3584, 0] S1x512x64.size Gen.inb_S1x4096x64_S1x512x64_0_3584_0) (ix3 (0 : Fin 1) cc a)
      = x (ix3 (0 : Fin 1) (⟨3584 + cc.val, by have := cc.isLt; omega⟩ : Fin 4096) a) :=
  slab_apply 3584 _ x cc a _ rfl

end Cert.KernelIdeal.Hand

end
-- ==== Proof.KI.AttnArray.lean ====
import proofs.«181537_j23003844837560_2_alg».proof.Proof.KI.Attn
import Idealize.ShloMosaic.Lib.Pipeline.Value
import Idealize.ShloMosaic.Lib.ValueIdx

/-!
# From the attention region's output blocks to its output array

Grid point `t` of the attention region (4 batches × 8 query blocks) writes the block of 512 rows
`512·(t mod 8) … 512·(t mod 8) + 511` of batch `t / 8`, all 64 channels. The 32 blocks tile the
`[4, 4096, 64]` output array, so if every point's block agrees, entry by entry, with one function
`G` of the array index, the array after the region is `G`.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- Where the output window's block lies at grid point `t`: batch `t / 8`, row block `t mod 8`, all channels.
    Decided over the 32 points. -/
theorem attn_out_indices : ∀ t : Fin cfg1.N,
    win1_3.index t (0 : Fin 3) = t.val / 8 ∧ win1_3.index t (1 : Fin 3) = t.val % 8 ∧ win1_3.index t (2 : Fin 3) = 0 :=
  (by decide +kernel : ∀ t : Fin grid1.N, _)

/-- What point `t` writes back to the output window is block `t` of `G`, when the point's output block is `G` at the
    block's coordinates. -/
theorem attn_flushed_eq (c : Dev nD) (G : S4x4096x64.Idx → EReal)
    (hpoint : ∀ (t : Fin cfg1.N) (r : Fin 512) (a : Fin 64) (b : Fin 4) (s : Fin 4096),
      b.val = t.val / 8 → s.val = t.val % 8 * 512 + r.val →
      outAt1 (F := Ideal) V c t (ix3 (0 : Fin 1) r a) = G (ix3 b s a))
    (t : Fin cfg1.N) :
    (dat1 (F := Ideal) V c).flushed 3 t = ((cfg1.win 3).blk t).view.read (Elt Ideal) G := by
  show (cfg1.win 3).cut (grid1.coords t) ((dat1 (F := Ideal) V c).after 3 t) = _
  rw [after1_3]
  obtain ⟨q0, q1, q2⟩ := attn_out_indices t
  funext y
  show outAt1 (F := Ideal) V c t y = G (((cfg1.win 3).blk t).view.emb y)
  have hy0 : (y 0).val < 1 := (y 0).isLt
  have hy1 : (y 1).val < 512 := (y 1).isLt
  have hy2 : (y 2).val < 64 := (y 2).isLt
  have hN : t.val < 32 := lt_of_lt_of_eq t.isLt N_1
  have e : y = ix3 (0 : Fin 1) (⟨(y 1).val, hy1⟩ : Fin 512) (⟨(y 2).val, hy2⟩ : Fin 64) := by
    funext d
    apply Fin.ext
    match d with
    | ⟨0, _⟩ => show (y 0).val = 0; omega
    | ⟨1, _⟩ => rfl
    | ⟨2, _⟩ => rfl
  refine (congrArg (outAt1 (F := Ideal) V c t) e).trans
    ((hpoint t ⟨(y 1).val, hy1⟩ ⟨(y 2).val, hy2⟩ ⟨t.val / 8, by omega⟩ ⟨t.val % 8 * 512 + (y 1).val, by omega⟩ rfl rfl).trans
      (congrArg G ?_))
  funext ax
  apply Fin.ext
  match ax with
  | ⟨0, _⟩ => show t.val / 8 = win1_3.index t (0 : Fin 3) * 1 + 1 * (y 0).val; omega
  | ⟨1, _⟩ => show t.val % 8 * 512 + (y 1).val = win1_3.index t (1 : Fin 3) * 512 + 1 * (y 1).val; omega
  | ⟨2, _⟩ => show (y 2).val = win1_3.index t (2 : Fin 3) * 64 + 1 * (y 2).val; omega

/-- An index of the array is in point `t`'s output block iff each coordinate is in the block's range. -/
theorem attn_mem_blk (t : Fin cfg1.N) (i : S4x4096x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v9).slice (win1_3.rect t)).set ↔ _
  rw [View.set_slice_whole, Rect.mem_set_unit]
  exact Iff.rfl

/-- Every index of the output array is in some point's block: row `s` of batch `b` in point `8·b + s/512`'s. -/
theorem attn_cover (i : S4x4096x64.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  have hN : cfg1.N = 32 := N_1
  obtain ⟨t, ht⟩ : ∃ t : Fin cfg1.N, t.val = (i 0).val * 8 + (i 1).val / 512 :=
    ⟨⟨(i 0).val * 8 + (i 1).val / 512, by omega⟩, rfl⟩
  refine ⟨t, flush1_3 t, ?_⟩
  rw [attn_mem_blk]
  obtain ⟨q0, q1, q2⟩ := attn_out_indices t
  intro ax
  match ax with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 64 ≤ (i 2).val ∧ (i 2).val < win1_3.index t (2 : Fin 3) * 64 + 64
    omega

/-- After the region the output array is `G`, when every point's output block is `G` at the block's coordinates
    (batch `b = t / 8`, row `s = 512·(t mod 8) + r`, given as any `b`, `s` with those values). -/
theorem attn_array_of (c : Dev nD) (G : S4x4096x64.Idx → EReal)
    (hpoint : ∀ (t : Fin cfg1.N) (r : Fin 512) (a : Fin 64) (b : Fin 4) (s : Fin 4096),
      b.val = t.val / 8 → s.val = t.val % 8 * 512 + r.val →
      outAt1 (F := Ideal) V c t (ix3 (0 : Fin 1) r a) = G (ix3 b s a)) :
    ((dat1 (F := Ideal) V c).arrAt 3 cfg1.N : S4x4096x64.Idx → EReal) = G :=
  (dat1 (F := Ideal) V c).arrAt_eq_of_cover 3 G (fun t _ => attn_flushed_eq V c G hpoint t) attn_cover

/-- The same with the batch and the row written out as numbers below their bounds. -/
theorem attn_array (c : Dev nD) (G : S4x4096x64.Idx → EReal)
    (hpoint : ∀ (t : Fin cfg1.N) (r : Fin 512) (a : Fin 64),
      outAt1 (F := Ideal) V c t (ix3 (0 : Fin 1) r a)
        = G (ix3 (⟨t.val / 8, by have := lt_of_lt_of_eq t.isLt N_1; omega⟩ : Fin 4)
            (⟨t.val % 8 * 512 + r.val, by have := r.isLt; omega⟩ : Fin 4096) a)) :
    ((dat1 (F := Ideal) V c).arrAt 3 cfg1.N : S4x4096x64.Idx → EReal) = G :=
  attn_array_of V c G fun t r a b s hb hs => by
    rw [hpoint t r a]
    exact congrArg G (by
      funext d
      apply Fin.ext
      match d with
      | ⟨0, _⟩ => exact hb.symm
      | ⟨1, _⟩ => exact hs.symm
      | ⟨2, _⟩ => rfl)

end Cert.KernelIdeal.Hand

end
-- ==== Proof.RowLaw.lean ====
/-
  One query row: the running (tile-by-tile) softmax average over the key tiles up to the row's own tile is the
  whole-row causal attention of that row.

  The row is number qi·512 + r of 4096; its keys are cut into 8 tiles of 512 columns. A key position after the row
  has the masked score −∞, so every column of a tile beyond tile qi is masked and carries weight zero in the
  whole-row form; on the tiles 0 … qi the scores are real where unmasked (a scaled dot product of real rows) and the
  values are real, and column 0 of tile 0 is never masked. These are the hypotheses under which the running form
  equals the whole-row form.
-/
import proofs.«181537_j23003844837560_2_alg».proof.Proof.Spec

noncomputable section

open scoped BigOperators

namespace Cert.RowLaw

open Idealize.ShloMosaic Cert.AttnSpec OnlineSoftmax

/-- The masked score at column `c` of tile `j`, with the position comparison written on the tile and column numbers. -/
theorem mscore_col (q k : Fin 4096 → Fin 64 → EReal) (s : Fin 4096) (j : Fin 8) (c : Fin 512) :
    mscore q k s (col j c)
      = if j.val * 512 + c.val ≤ s.val then (∑ a' : Fin 64, q s a' * k (col j c) a') * ((1 / 8 : ℝ) : EReal) else ⊥ := rfl

/-- A scaled dot product of two rows of reals is a real. -/
theorem dot_real (q k : Fin 4096 → Fin 64 → EReal)
    (hq : ∀ s a, ∃ x : ℝ, q s a = (x : EReal)) (hk : ∀ s a, ∃ x : ℝ, k s a = (x : EReal)) (s t : Fin 4096) :
    ∃ y : ℝ, (∑ a' : Fin 64, q s a' * k t a') * ((1 / 8 : ℝ) : EReal) = (y : EReal) := by
  choose qr hqr using hq
  choose kr hkr using hk
  refine ⟨(∑ a' : Fin 64, qr s a' * kr t a') * (1 / 8), ?_⟩
  rw [EReal.coe_mul, ← OnlineSoftmax.coe_sum]
  refine congrArg (· * ((1 / 8 : ℝ) : EReal)) (Finset.sum_congr rfl fun a' _ => ?_)
  rw [hqr, hkr, EReal.coe_mul]

/-- **The running form over the tiles `0 … qi` is the whole-row attention of row `qi * 512 + r`.** The running form
    reads tile scores `sc` and tile values `vv` that agree, on the tiles `0 … qi`, with the masked scores of the row
    and with channel `a` of the values; the tiles beyond `qi` lie wholly after the row's position, so their masked
    scores are `⊥` and the whole-row form gives them weight zero. -/
theorem online_eq_attnRow (q k v : Fin 4096 → Fin 64 → EReal)
    (hq : ∀ s a, ∃ x : ℝ, q s a = (x : EReal)) (hk : ∀ s a, ∃ x : ℝ, k s a = (x : EReal))
    (hv : ∀ s a, ∃ x : ℝ, v s a = (x : EReal))
    (qi : ℕ) (hqi : qi < 8) (r : Fin 512) (a : Fin 64) (s : Fin 4096) (hs : s.val = qi * 512 + r.val)
    (sc vv : ℕ → Fin 512 → EReal)
    (hsc : ∀ j : Fin 8, j.val ≤ qi → ∀ c : Fin 512, sc j.val c = mscore q k s (col j c))
    (hvv : ∀ j : Fin 8, j.val ≤ qi → ∀ c : Fin 512, vv j.val c = v (col j c) a) :
    onlineOut sc vv (qi + 1) = attnRow q k v s a := by
  unfold attnRow
  refine onlineOut_eq_refOut_of_mask (T := 8) (W := 512) qi hqi
    (fun j c => mscore q k s (col j c)) (fun j c => v (col j c) a) sc vv
    (fun j c => j * 512 + c.val ≤ qi * 512 + r.val)
    (fun j c => (sc j c).toReal) (fun j c => (vv j c).toReal)
    (fun j hj c => (hsc j hj c).symm) (fun j hj c => (hvv j hj c).symm) ?_ ?_ ?_ ?_
  · intro j hj c
    have hc := c.isLt
    show mscore q k s (col j c) = ⊥
    rw [mscore_col, if_neg (by rw [hs]; have := r.isLt; omega)]
  · intro j hj c
    have hj8 : j < 8 := lt_of_le_of_lt hj hqi
    have h1 := hsc ⟨j, hj8⟩ hj c
    rw [mscore_col] at h1
    simp only [hs] at h1
    show sc j c = _
    by_cases hm : j * 512 + c.val ≤ qi * 512 + r.val
    · rw [if_pos hm] at h1
      rw [if_pos hm]
      obtain ⟨y, hy⟩ := dot_real q k hq hk s (col ⟨j, hj8⟩ c)
      rw [h1, hy, EReal.toReal_coe]
    · rw [if_neg hm] at h1
      rw [if_neg hm, h1]
  · exact ⟨⟨0, by norm_num⟩, by show 0 * 512 + 0 ≤ qi * 512 + r.val; omega⟩
  · intro j hj c
    have hj8 : j < 8 := lt_of_le_of_lt hj hqi
    have h1 := hvv ⟨j, hj8⟩ hj c
    obtain ⟨y, hy⟩ := hv (col ⟨j, hj8⟩ c) a
    show vv j c = _
    rw [h1, hy, EReal.toReal_coe]

end Cert.RowLaw

end
-- ==== Proof.KI.TileBridge.lean ====
import proofs.«181537_j23003844837560_2_alg».proof.Proof.KI.AttnBlocks
import proofs.«181537_j23003844837560_2_alg».proof.Proof.KI.ChainRun
import proofs.«181537_j23003844837560_2_alg».proof.Proof.RowLaw

/-!
# The tiles the chain reads are the specification's tiles

Row `r` of query block `qi` is position `s = 512·qi + r`. The scores the chain of tile updates reads
against tile `j` — the query block's row `r` against rows `512·j … 512·j + 511` of the key block,
scaled by 1/8 and kept where `512·j + c ≤ 512·qi + r` — are the masked scores of position `s`
against the key positions of tile `j`; the values it reads for channel `a` of tile `j` are the
values at those positions.
-/

open scoped BigOperators

noncomputable section

namespace Cert.KernelIdeal.Hand

open Cert.KernelIdeal Cert.KernelIdeal.Gen
open Idealize.ShloMosaic Idealize.ShloMosaic.ValueIdx
open Cert.AttnSpec

/-- One tile: the masked, scaled scores of the query block's row `r` against a slab `v45` whose row `c` is row
    `col j c` of the key block are the masked scores of position `s` against the key positions of tile `j`. -/
theorem scoreRow_bridge (qf kf : Fin 4096 → Fin 64 → EReal) (qi : ℕ) (x0 : Vec Ideal S1x512x64 .bf16)
    (x1 : Vec Ideal S1x4096x64 .bf16) (r : Fin 512) (s : Fin 4096) (hs : s.val = qi * 512 + r.val)
    (hx0 : ∀ a' : Fin 64, x0 (ix3 (0 : Fin 1) r a') = qf s a')
    (hx1 : ∀ (n : Fin 4096) (a' : Fin 64), x1 (ix3 (0 : Fin 1) n a') = kf n a')
    (j : Fin 8) (c : Fin 512) (v45 : Vec Ideal S1x512x64 .bf16)
    (hv : ∀ a' : Fin 64, v45 (ix3 (0 : Fin 1) c a') = x1 (ix3 (0 : Fin 1) (col j c) a')) :
    scoreRow j.val qi (k1_pay77 x0) v45 r c = mscore qf kf s (col j c) := by
  rw [Cert.RowLaw.mscore_col, hs]
  show (if j.val * 512 + c.val ≤ qi * 512 + r.val
      then (∑ a' : Fin 64, k1_pay77 x0 (ix2 r a') * v45 (ix3 0 c a')) * ((1 / 8 : ℝ) : EReal) else ⊥) = _
  refine if_congr Iff.rfl ?_ rfl
  refine congrArg (· * ((1 / 8 : ℝ) : EReal)) (Finset.sum_congr rfl fun a' _ => ?_)
  rw [qcast, hx0, hv, hx1]

/-- The scores the chain reads against tile `j` are the masked scores of position `s` against tile `j`. -/
theorem scT_eq (qf kf : Fin 4096 → Fin 64 → EReal) (qi : ℕ) (x0 : Vec Ideal S1x512x64 .bf16)
    (x1 : Vec Ideal S1x4096x64 .bf16) (r : Fin 512) (s : Fin 4096) (hs : s.val = qi * 512 + r.val)
    (hx0 : ∀ a' : Fin 64, x0 (ix3 (0 : Fin 1) r a') = qf s a')
    (hx1 : ∀ (n : Fin 4096) (a' : Fin 64), x1 (ix3 (0 : Fin 1) n a') = kf n a') (j : Fin 8) (c : Fin 512) :
    scT qi x0 x1 r j.val c = mscore qf kf s (col j c) := by
  match j with
  | ⟨0, _⟩ =>
    exact scoreRow_bridge qf kf qi x0 x1 r s hs hx0 hx1 ⟨0, by omega⟩ c (View.ld x1 slabR0) fun a' =>
      (slab0_apply x1 c a').trans (congrArg (fun n => x1 (ix3 (0 : Fin 1) n a'))
        (Fin.ext (by show 0 + c.val = 0 * 512 + c.val; omega)))
  | ⟨1, _⟩ =>
    exact scoreRow_bridge qf kf qi x0 x1 r s hs hx0 hx1 ⟨1, by omega⟩ c (View.ld x1 slabR1) fun a' =>
      (slab1_apply x1 c a').trans (congrArg (fun n => x1 (ix3 (0 : Fin 1) n a'))
        (Fin.ext (by show 512 + c.val = 1 * 512 + c.val; omega)))
  | ⟨2, _⟩ =>
    exact scoreRow_bridge qf kf qi x0 x1 r s hs hx0 hx1 ⟨2, by omega⟩ c (View.ld x1 slabR2) fun a' =>
      (slab2_apply x1 c a').trans (congrArg (fun n => x1 (ix3 (0 : Fin 1) n a'))
        (Fin.ext (by show 1024 + c.val = 2 * 512 + c.val; omega)))
  | ⟨3, _⟩ =>
    exact scoreRow_bridge qf kf qi x0 x1 r s hs hx0 hx1 ⟨3, by omega⟩ c (View.ld x1 slabR3) fun a' =>
      (slab3_apply x1 c a').trans (congrArg (fun n => x1 (ix3 (0 : Fin 1) n a'))
        (Fin.ext (by show 1536 + c.val = 3 * 512 + c.val; omega)))
  | ⟨4, _⟩ =>
    exact scoreRow_bridge qf kf qi x0 x1 r s hs hx0 hx1 ⟨4, by omega⟩ c (View.ld x1 slabR4) fun a' =>
      (slab4_apply x1 c a').trans (congrArg (fun n => x1 (ix3 (0 : Fin 1) n a'))
        (Fin.ext (by show 2048 + c.val = 4 * 512 + c.val; omega)))
  | ⟨5, _⟩ =>
    exact scoreRow_bridge qf kf qi x0 x1 r s hs hx0 hx1 ⟨5, by omega⟩ c (View.ld x1 slabR5) fun a' =>
      (slab5_apply x1 c a').trans (congrArg (fun n => x1 (ix3 (0 : Fin 1) n a'))
        (Fin.ext (by show 2560 + c.val = 5 * 512 + c.val; omega)))
  | ⟨6, _⟩ =>
    exact scoreRow_bridge qf kf qi x0 x1 r s hs hx0 hx1 ⟨6, by omega⟩ c (View.ld x1 slabR6) fun a' =>
      (slab6_apply x1 c a').trans (congrArg (fun n => x1 (ix3 (0 : Fin 1) n a'))
        (Fin.ext (by show 3072 + c.val = 6 * 512 + c.val; omega)))
  | ⟨7, _⟩ =>
    exact scoreRow_bridge qf kf qi x0 x1 r s hs hx0 hx1 ⟨7, by omega⟩ c (View.ld x1 slabR7) fun a' =>
      (slab7_apply x1 c a').trans (congrArg (fun n => x1 (ix3 (0 : Fin 1) n a'))
        (Fin.ext (by show 3584 + c.val = 7 * 512 + c.val; omega)))

/-- The values the chain reads for channel `a` of tile `j` are the values at the positions of tile `j`. -/
theorem vvT_eq (vf : Fin 4096 → Fin 64 → EReal) (x2 : Vec Ideal S1x4096x64 .bf16) (a : Fin 64)
    (hx2 : ∀ (n : Fin 4096) (a' : Fin 64), x2 (ix3 (0 : Fin 1) n a') = vf n a') (j : Fin 8) (c : Fin 512) :
    vvT x2 a j.val c = vf (col j c) a := by
  match j with
  | ⟨0, _⟩ =>
    exact ((slab0_apply x2 c a).trans (congrArg (fun n => x2 (ix3 (0 : Fin 1) n a))
      (Fin.ext (by show 0 + c.val = 0 * 512 + c.val; omega)))).trans (hx2 _ a)
  | ⟨1, _⟩ =>
    exact ((slab1_apply x2 c a).trans (congrArg (fun n => x2 (ix3 (0 : Fin 1) n a))
      (Fin.ext (by show 512 + c.val = 1 * 512 + c.val; omega)))).trans (hx2 _ a)
  | ⟨2, _⟩ =>
    exact ((slab2_apply x2 c a).trans (congrArg (fun n => x2 (ix3 (0 : Fin 1) n a))
      (Fin.ext (by show 1024 + c.val = 2 * 512 + c.val; omega)))).trans (hx2 _ a)
  | ⟨3, _⟩ =>
    exact ((slab3_apply x2 c a).trans (congrArg (fun n => x2 (ix3 (0 : Fin 1) n a))
      (Fin.ext (by show 1536 + c.val = 3 * 512 + c.val; omega)))).trans (hx2 _ a)
  | ⟨4, _⟩ =>
    exact ((slab4_apply x2 c a).trans (congrArg (fun n => x2 (ix3 (0 : Fin 1) n a))
      (Fin.ext (by show 2048 + c.val = 4 * 512 + c.val; omega)))).trans (hx2 _ a)
  | ⟨5, _⟩ =>
    exact ((slab5_apply x2 c a).trans (congrArg (fun n => x2 (ix3 (0 : Fin 1) n a))
      (Fin.ext (by show 2560 + c.val = 5 * 512 + c.val; omega)))).trans (hx2 _ a)
  | ⟨6, _⟩ =>
    exact ((slab6_apply x2 c a).trans (congrArg (fun n => x2 (ix3 (0 : Fin 1) n a))
      (Fin.ext (by show 3072 + c.val = 6 * 512 + c.val; omega)))).trans (hx2 _ a)
  | ⟨7, _⟩ =>
    exact ((slab7_apply x2 c a).trans (congrArg (fun n => x2 (ix3 (0 : Fin 1) n a))
      (Fin.ext (by show 3584 + c.val = 7 * 512 + c.val; omega)))).trans (hx2 _ a)

end Cert.KernelIdeal.Hand

end
-- ==== Proof.Finite.lean ====
/-
  From the finiteness precondition to "every entry is a real number".

  The precondition is the conjunction, over the seven argument arrays, of "every entry has |x| < +∞": entrywise, the
  absolute value max x (−x) is compared with the word 0x7F800000, which denotes +∞, and the comparisons are joined by
  "and" from 1. A conjunction that is 1 has every conjunct 1; max x (−x) is +∞ at both infinities; so every entry of
  every array is a real number. A projection Σ_e x(b,s,e)·W(a,e) + β(a) of real data is then real, the reals being
  closed under finite sums and products.
-/
import proofs.«181537_j23003844837560_2_alg».proof.Defs
import proofs.«181537_j23003844837560_2_alg».proof.Proof.Gen.Pre_finite_inputs
import proofs.«181537_j23003844837560_2_alg».proof.Proof.Spec
import Idealize.ShloMosaic.Lib.ReduceAll
import Idealize.ShloMosaic.Lib.Pipeline.Value
import Idealize.ShloMosaic.Lib.ValueIdx

noncomputable section

open scoped BigOperators

namespace Cert.Finite

open Idealize.ShloMosaic Idealize.ShloMosaic.TcCoe Idealize.SL.Sem Idealize.ShloMosaic.ValueIdx Cert.AttnSpec

/-- The float word 0x7F800000 is +infinity. -/
theorem top_word : Ideal.ofBits .f32 0x7F800000#32 = ⊤ := by
  simp [Ideal.ofBits, Ideal.ieee]

/-- An extended real whose absolute value is below +infinity is a real number. -/
theorem real_of_abs_lt_top (v : EReal) (h : Ideal.cmp .olt (max v (-v)) ⊤ = 1#1) : ∃ x : ℝ, v = (x : EReal) := by
  induction v using EReal.rec with
  | bot => exact absurd h (by simp [Ideal.cmp])
  | top => exact absurd h (by simp [Ideal.cmp])
  | coe r => exact ⟨r, rfl⟩

/-- The rank-0 shape has one index. -/
instance subsingleton_scalar_idx : Subsingleton (⟨0, ![]⟩ : Shape).Idx := ⟨fun a b => funext fun d => d.elim0⟩

/-- Where "every entry of v has |v| < +infinity" holds (the conjunction over all entries, from 1, of the entrywise
    comparison against the +infinity word spread over v's shape), every entry of v is a real number. -/
theorem real_of_all {S : Shape} {axes : List (Fin S.rank)} (v : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (h : Host.reduce IntOp.andi
        (cmpf .olt (Host.absf v) (broadcastInDim S ![] hb (constant (F := Ideal) ⟨0, ![]⟩ .f32 0x7F800000#32)))
        (constantI ⟨0, ![]⟩ 1 1#1) hr hu ix0 = 1#1)
    (i : S.Idx) : ∃ x : ℝ, v i = (x : EReal) := by
  have h1 := Host.reduce_andi_all _ _ hr hu ix0 h i
  rw [cmpf_apply, broadcastInDim_apply ![] hb _ i ix0 (fun a => a.elim0), constant_apply, top_word] at h1
  exact real_of_abs_lt_top (v i) h1

/-- Under the precondition every entry of each of the seven argument arrays is a real number. -/
theorem args_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, ∃ x : ℝ, (m ((c.tc : Thread Cert.KernelIdeal.nD Cert.KernelIdeal.τ).loc Cert.KernelIdeal.main_arg0) : SEmb.Idx → EReal) i = (x : EReal))
    ∧ (∀ i, ∃ x : ℝ, (m ((c.tc : Thread Cert.KernelIdeal.nD Cert.KernelIdeal.τ).loc Cert.KernelIdeal.main_arg1) : SW.Idx → EReal) i = (x : EReal))
    ∧ (∀ i, ∃ x : ℝ, (m ((c.tc : Thread Cert.KernelIdeal.nD Cert.KernelIdeal.τ).loc Cert.KernelIdeal.main_arg2) : SB.Idx → EReal) i = (x : EReal))
    ∧ (∀ i, ∃ x : ℝ, (m ((c.tc : Thread Cert.KernelIdeal.nD Cert.KernelIdeal.τ).loc Cert.KernelIdeal.main_arg3) : SW.Idx → EReal) i = (x : EReal))
    ∧ (∀ i, ∃ x : ℝ, (m ((c.tc : Thread Cert.KernelIdeal.nD Cert.KernelIdeal.τ).loc Cert.KernelIdeal.main_arg4) : SB.Idx → EReal) i = (x : EReal))
    ∧ (∀ i, ∃ x : ℝ, (m ((c.tc : Thread Cert.KernelIdeal.nD Cert.KernelIdeal.τ).loc Cert.KernelIdeal.main_arg5) : SW.Idx → EReal) i = (x : EReal))
    ∧ (∀ i, ∃ x : ℝ, (m ((c.tc : Thread Cert.KernelIdeal.nD Cert.KernelIdeal.τ).loc Cert.KernelIdeal.main_arg6) : SB.Idx → EReal) i = (x : EReal)) := by
  have h := congrFun (hpre c) ix0
  unfold Cert.Pre_finite_inputs.fn Cert.Pre_finite_inputs.fn_part1 at h
  dsimp only at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all _ _ _ _ h0, real_of_all _ _ _ _ h1, real_of_all _ _ _ _ h2, real_of_all _ _ _ _ h3,
    real_of_all _ _ _ _ h4, real_of_all _ _ _ _ h5, real_of_all _ _ _ _ h6⟩

/-- A projection of real tokens by a real matrix and a real bias is real. -/
theorem proj_real (x : SEmb.Idx → EReal) (W : SW.Idx → EReal) (β : SB.Idx → EReal)
    (hx : ∀ i, ∃ y : ℝ, x i = (y : EReal)) (hW : ∀ i, ∃ y : ℝ, W i = (y : EReal))
    (hβ : ∀ i, ∃ y : ℝ, β i = (y : EReal)) (b : Fin 4) (s : Fin 4096) (a : Fin 64) :
    ∃ y : ℝ, proj x W β b s a = (y : EReal) := by
  choose xr hxr using hx
  choose Wr hWr using hW
  choose βr hβr using hβ
  refine ⟨(∑ e : Fin 1024, xr (ix3 b s e) * Wr (ix2 a e)) + βr (ix1 a), ?_⟩
  unfold proj
  rw [EReal.coe_add, ← OnlineSoftmax.coe_sum, hβr]
  refine congrArg (· + ((βr (ix1 a) : ℝ) : EReal)) (Finset.sum_congr rfl fun e _ => ?_)
  rw [hxr, hWr, EReal.coe_mul]

end Cert.Finite

end
-- ==== Proof.KI.KernelValue.lean ====
import proofs.«181537_j23003844837560_2_alg».proof.Proof.KI.AttnChainCases
import proofs.«181537_j23003844837560_2_alg».proof.Proof.KI.ChainRun
import proofs.«181537_j23003844837560_2_alg».proof.Proof.KI.AttnBlocks
import proofs.«181537_j23003844837560_2_alg».proof.Proof.KI.AttnArray
import proofs.«181537_j23003844837560_2_alg».proof.Proof.KI.TileBridge
import proofs.«181537_j23003844837560_2_alg».proof.Proof.RowLaw
import proofs.«181537_j23003844837560_2_alg».proof.Proof.Finite

/-!
# What the kernel program leaves in its result: the attention function of the arguments

Point `t` of the attention region is batch `t / 8`, query block `t mod 8`. Its output block at
row `r`, channel `a` is numerator over denominator of the tile chain after tiles `0 … t mod 8`
(the case's found pieces), which is the running form of softmax-weighted averaging on that row's
masked scores (tile by tile, `OnlineSoftmax.step`). The query block, the keys and the values it
reads are blocks of the projection region's output arrays, i.e. the specification's projections of
the launch arrays, and those are real because the inputs are. So the running form equals the
specification's whole-row form (the row law), the block is a block of the attention function, and
the blocks cover the output array.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.AttnSpec OnlineSoftmax Idealize.ShloMosaic.ValueIdx

variable (m : (ℓ : Loc nD τ sig) → Buf (Elt Ideal) ℓ)

/-- The query block number of point `t` is `t mod 8` — decided over the grid. -/
theorem coord1_val : ∀ t : Fin cfg1.N, ((grid1.coords t) 1).val = t.val % 8 :=
  (by decide +kernel : ∀ t : Fin grid1.N, ((grid1.coords t) 1).val = t.val % 8)

set_option maxHeartbeats 2000000 in
/-- The output block after point `t`, at row `r` and channel `a`, is the attention function at batch `t / 8`,
    position `(t mod 8)·512 + r`, channel `a` — for finite argument arrays. -/
theorem point_value (c : Dev nD)
    (h0 : ∀ i, ∃ y : ℝ, (m ((c : Thread nD τ).loc main_arg0)) i = (y : EReal)) (h1 : ∀ i, ∃ y : ℝ, (m ((c : Thread nD τ).loc main_arg1)) i = (y : EReal))
    (h2 : ∀ i, ∃ y : ℝ, (m ((c : Thread nD τ).loc main_arg2)) i = (y : EReal)) (h3 : ∀ i, ∃ y : ℝ, (m ((c : Thread nD τ).loc main_arg3)) i = (y : EReal))
    (h4 : ∀ i, ∃ y : ℝ, (m ((c : Thread nD τ).loc main_arg4)) i = (y : EReal)) (h5 : ∀ i, ∃ y : ℝ, (m ((c : Thread nD τ).loc main_arg5)) i = (y : EReal))
    (h6 : ∀ i, ∃ y : ℝ, (m ((c : Thread nD τ).loc main_arg6)) i = (y : EReal))
    (t : Fin cfg1.N) (r : Fin 512) (a : Fin 64) (b : Fin 4) (s : Fin 4096) (hb : b.val = t.val / 8) (hs : s.val = t.val % 8 * 512 + r.val) :
    outAt1 (F := Ideal) (V2 m) c t (ix3 (0 : Fin 1) r a)
      = attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b s a) := by
  rw [attn_ix3]; unfold attnAt
  have hlt : t.val % 8 < 8 := Nat.mod_lt _ (by decide)
  have hN : t.val < 32 := lt_of_lt_of_eq t.isLt N_1
  have hbb : (⟨t.val / 8, by omega⟩ : Fin 4) = b := Fin.ext hb.symm
  have hss : (⟨t.val % 8 * 512 + r.val, by have := r.isLt; omega⟩ : Fin 4096) = s := Fin.ext hs.symm
  have hx0 : ∀ a' : Fin 64, iblk1 (F := Ideal) (V2 m) c 0 t (ix3 (0 : Fin 1) r a') = proj (m ((c : Thread nD τ).loc main_arg0)) (m ((c : Thread nD τ).loc main_arg1)) (m ((c : Thread nD τ).loc main_arg2)) b s a' := fun a' => by
    rw [qblock_apply m c t r a', hbb, hss]
  have hx1 : ∀ (n : Fin 4096) (a' : Fin 64), iblk1 (F := Ideal) (V2 m) c 1 t (ix3 (0 : Fin 1) n a') = proj (m ((c : Thread nD τ).loc main_arg0)) (m ((c : Thread nD τ).loc main_arg3)) (m ((c : Thread nD τ).loc main_arg4)) b n a' := fun n a' => by
    rw [kblock_apply m c t n a', hbb]
  have hx2 : ∀ (n : Fin 4096) (a' : Fin 64), iblk1 (F := Ideal) (V2 m) c 2 t (ix3 (0 : Fin 1) n a') = proj (m ((c : Thread nD τ).loc main_arg0)) (m ((c : Thread nD τ).loc main_arg5)) (m ((c : Thread nD τ).loc main_arg6)) b n a' := fun n a' => by
    rw [vblock_apply m c t n a', hbb]
  have hq := fun s' a' => Cert.Finite.proj_real (m ((c : Thread nD τ).loc main_arg0)) (m ((c : Thread nD τ).loc main_arg1)) (m ((c : Thread nD τ).loc main_arg2)) h0 h1 h2 b s' a'
  have hk := fun s' a' => Cert.Finite.proj_real (m ((c : Thread nD τ).loc main_arg0)) (m ((c : Thread nD τ).loc main_arg3)) (m ((c : Thread nD τ).loc main_arg4)) h0 h3 h4 b s' a'
  have hv := fun s' a' => Cert.Finite.proj_real (m ((c : Thread nD τ).loc main_arg0)) (m ((c : Thread nD τ).loc main_arg5)) (m ((c : Thread nD τ).loc main_arg6)) h0 h5 h6 b s' a'
  rcases (show t.val % 8 = 0 ∨ t.val % 8 = 1 ∨ t.val % 8 = 2 ∨ t.val % 8 = 3 ∨ t.val % 8 = 4 ∨ t.val % 8 = 5 ∨ t.val % 8 = 6 ∨ t.val % 8 = 7 from by omega) with hq8 | hq8 | hq8 | hq8 | hq8 | hq8 | hq8 | hq8
  · rw [outAt1_q0 (V2 m) c t hq8]; unfold outCase_0
    rw [out1_q0_eq, show ((grid1.coords t) 1).val = 0 from (coord1_val t).trans hq8,
      chain_out1 0 (by decide) _ _ _ r a]
    exact Cert.RowLaw.online_eq_attnRow _ _ _ hq hk hv 0 (by decide) r a s (by omega) _ _
      (fun j _ cc => scT_eq _ _ 0 _ _ r s (by omega) hx0 hx1 j cc)
      (fun j _ cc => vvT_eq _ _ a hx2 j cc)
  · rw [outAt1_q1 (V2 m) c t hq8]; unfold outCase_1
    rw [out1_q1_eq, show ((grid1.coords t) 1).val = 1 from (coord1_val t).trans hq8,
      chain_out2 1 (by decide) _ _ _ r a]
    exact Cert.RowLaw.online_eq_attnRow _ _ _ hq hk hv 1 (by decide) r a s (by omega) _ _
      (fun j _ cc => scT_eq _ _ 1 _ _ r s (by omega) hx0 hx1 j cc)
      (fun j _ cc => vvT_eq _ _ a hx2 j cc)
  · rw [outAt1_q2 (V2 m) c t hq8]; unfold outCase_2
    rw [out1_q2_eq, show ((grid1.coords t) 1).val = 2 from (coord1_val t).trans hq8,
      chain_out3 2 (by decide) _ _ _ r a]
    exact Cert.RowLaw.online_eq_attnRow _ _ _ hq hk hv 2 (by decide) r a s (by omega) _ _
      (fun j _ cc => scT_eq _ _ 2 _ _ r s (by omega) hx0 hx1 j cc)
      (fun j _ cc => vvT_eq _ _ a hx2 j cc)
  · rw [outAt1_q3 (V2 m) c t hq8]; unfold outCase_3
    rw [out1_q3_eq, show ((grid1.coords t) 1).val = 3 from (coord1_val t).trans hq8,
      chain_out4 3 (by decide) _ _ _ r a]
    exact Cert.RowLaw.online_eq_attnRow _ _ _ hq hk hv 3 (by decide) r a s (by omega) _ _
      (fun j _ cc => scT_eq _ _ 3 _ _ r s (by omega) hx0 hx1 j cc)
      (fun j _ cc => vvT_eq _ _ a hx2 j cc)
  · rw [outAt1_q4 (V2 m) c t hq8]; unfold outCase_4
    rw [out1_q4_eq, show ((grid1.coords t) 1).val = 4 from (coord1_val t).trans hq8,
      chain_out5 4 (by decide) _ _ _ r a]
    exact Cert.RowLaw.online_eq_attnRow _ _ _ hq hk hv 4 (by decide) r a s (by omega) _ _
      (fun j _ cc => scT_eq _ _ 4 _ _ r s (by omega) hx0 hx1 j cc)
      (fun j _ cc => vvT_eq _ _ a hx2 j cc)
  · rw [outAt1_q5 (V2 m) c t hq8]; unfold outCase_5
    rw [out1_q5_eq, show ((grid1.coords t) 1).val = 5 from (coord1_val t).trans hq8,
      chain_out6 5 (by decide) _ _ _ r a]
    exact Cert.RowLaw.online_eq_attnRow _ _ _ hq hk hv 5 (by decide) r a s (by omega) _ _
      (fun j _ cc => scT_eq _ _ 5 _ _ r s (by omega) hx0 hx1 j cc)
      (fun j _ cc => vvT_eq _ _ a hx2 j cc)
  · rw [outAt1_q6 (V2 m) c t hq8]; unfold outCase_6
    rw [out1_q6_eq, show ((grid1.coords t) 1).val = 6 from (coord1_val t).trans hq8,
      chain_out7 6 (by decide) _ _ _ r a]
    exact Cert.RowLaw.online_eq_attnRow _ _ _ hq hk hv 6 (by decide) r a s (by omega) _ _
      (fun j _ cc => scT_eq _ _ 6 _ _ r s (by omega) hx0 hx1 j cc)
      (fun j _ cc => vvT_eq _ _ a hx2 j cc)
  · rw [outAt1_q7 (V2 m) c t hq8]; unfold outCase_7
    rw [out1_q7_eq, show ((grid1.coords t) 1).val = 7 from (coord1_val t).trans hq8,
      chain_out8 7 (by decide) _ _ _ r a]
    exact Cert.RowLaw.online_eq_attnRow _ _ _ hq hk hv 7 (by decide) r a s (by omega) _ _
      (fun j _ cc => scT_eq _ _ 7 _ _ r s (by omega) hx0 hx1 j cc)
      (fun j _ cc => vvT_eq _ _ a hx2 j cc)

/-- THE KERNEL PROGRAM'S RESULT. Under the precondition (every input finite), the attention pipeline's output array —
    where the run leaves the result — is the attention function of the seven launch arrays. -/
theorem kernel_value (hpre : Cert.Pre_KernelIdeal (hPre_finite_inputs := Cert.Pre_finite_inputs.Gen.facts) m) (c : Dev nD) :
    (dat1 (F := Ideal) (V2 m) c).arrAt 3 cfg1.N
      = attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  obtain ⟨h0, h1, h2, h3, h4, h5, h6⟩ := Cert.Finite.args_real m hpre c
  exact attn_array_of (V2 m) c _ (fun t r a b s hb hs => point_value m c h0 h1 h2 h3 h4 h5 h6 t r a b s hb hs)

end Cert.KernelIdeal.Hand

end
-- ==== Proof.RefScale.lean ====
/-
  The reference's constants and its causal bit, on the extended reals.

  The word 0x42800000 denotes 64, whose square root is 8, so dividing any extended real by that square root is
  multiplying it by 1/8; the word 0xFF800000 denotes −∞ (the bottom element) and the zero word denotes 0.
  For positions s, t below 4096 the signed 32-bit comparison "s + 0 ≥ t" of their words is the bit of "t ≤ s".
-/
import Idealize.ShloMosaic.PureOps.Ideal
import Idealize.ShloMosaic.Lib.ValueIdx

open Idealize.ShloMosaic

namespace Cert.RefScale

theorem ofBits_64 : Ideal.ofBits .f32 0x42800000#32 = ((64 : ℝ) : EReal) := by
  simp [Ideal.ofBits, Ideal.ieee, -EReal.coe_mul]; norm_num

theorem ofBits_negInf : Ideal.ofBits .f32 0xFF800000#32 = ⊥ := by
  simp [Ideal.ofBits, Ideal.ieee]

theorem ofBits_zero : Ideal.ofBits .f32 0x00000000#32 = 0 := by
  simp [Ideal.ofBits, Ideal.ieee]

theorem sqrt_64 : Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

theorem div_sqrt64 (x : EReal) :
    Ideal.div x (Ideal.sqrt (Ideal.ofBits .f32 0x42800000#32)) = x * ((1 / 8 : ℝ) : EReal) := by
  rw [ofBits_64, sqrt_64]
  exact Ideal.div_coe (by norm_num) x

theorem causal_bit (s t : Fin 4096) :
    IntOp.cmpi .sge (IntOp.addi (BitVec.ofNat 32 s.val) 0#32) (BitVec.ofNat 32 t.val)
      = if t.val ≤ s.val then 1#1 else 0#1 := by
  have hs := s.isLt
  have ht := t.isLt
  have h1 : (BitVec.ofNat 32 s.val).toInt = (s.val : Int) := by
    rw [BitVec.toInt_eq_toNat_of_lt (by rw [BitVec.toNat_ofNat]; omega), BitVec.toNat_ofNat]; omega
  have h2 : (BitVec.ofNat 32 t.val).toInt = (t.val : Int) := by
    rw [BitVec.toInt_eq_toNat_of_lt (by rw [BitVec.toNat_ofNat]; omega), BitVec.toNat_ofNat]; omega
  simp only [IntOp.cmpi, IntOp.addi, BitVec.add_zero, BitVec.sle, h1, h2]
  by_cases h : t.val ≤ s.val
  · rw [if_pos h]; simp [h]
  · rw [if_neg h]; simp [h]

end Cert.RefScale
-- ==== Proof.LibLastAxis3.lean ====
import Idealize.ShloMosaic.PureOps.Ideal.Laws
import Idealize.ShloMosaic.Lib.Pipeline.Value
import Idealize.ShloMosaic.Lib.ValueIdx

/-!
# The host's maximum over the last axis of a three-dimensional array

On the extended reals with the ideal operations: the host's reduce-maximum over the LAST axis of an
`[a, b, c]` array, read at row `(p, q)`, is the fold of `max` over the row's `c` entries from the
reduction's initial value (`hostReduce_max_row3`); the row index `(p, q)` with coordinate `k` put back
on the last axis is `(p, q, k)` (`lift_last3`). No finiteness is used.
-/

noncomputable section

namespace LastAxis3

open Idealize.ShloMosaic Idealize.ShloMosaic.ValueIdx

/-- Row index (p, q) with coordinate k put back on the last axis is (p, q, k). -/
theorem lift_last3 {a b c : Nat} (h : (⟨3, ![a, b, c]⟩ : Shape).Reduces [2] (⟨2, ![a, b]⟩ : Shape))
    (p : Fin a) (q : Fin b) (k : Fin ((⟨3, ![a, b, c]⟩ : Shape).size 2)) :
    h.lift (ix2 p q) k = ix3 p q (⟨k.val, k.isLt⟩ : Fin c) := by
  funext e; apply Fin.ext
  fin_cases e <;> rfl

/-- The host's maximum over the last axis of a three-dimensional array, at row (p, q): the fold of max over
    the row's entries from the initial value. -/
theorem hostReduce_max_row3 {a b c : Nat} {φ : FTy} {u : Shape} (x : FVec Ideal ⟨3, ![a, b, c]⟩ φ)
    (init : u.Idx → Ideal φ) (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel)
    (p : Fin a) (q : Fin b) :
    Host.reduce FloatOps.maximumf x init h' hu (ix2 p q)
      = (Finset.univ : Finset (Fin c)).fold max (init (Shape.Idx.first hu)) fun k : Fin c => x (ix3 p q k) := by
  refine (Host.reduce_eq_fold_single FloatOps.maximumf x init h' h hu (ix2 p q)).trans ?_
  have hf : (x ∘ h.lift (ix2 p q)) = fun k : Fin c => x (ix3 p q k) :=
    funext fun k => congrArg x (lift_last3 h p q k)
  exact congrArg (fun f => Finset.fold max (init (Shape.Idx.first hu)) f (Finset.univ : Finset (Fin c))) hf

end LastAxis3

end
-- ==== Proof.RefRows.lean ====
/-
  A row of 4096 positions read as 8 tiles of 512 columns, and the host's row maximum of a rank-3 array.

  The positions of a row are in bijection with the (tile, column) pairs, so a sum over the positions is the double
  sum over tiles and columns (only associativity and commutativity of + are used), and the maximum over the
  positions, joined with −∞, is the whole-row maximum taken tile by tile (the two have the same upper bounds).
  (The host's reduce-maximum over the last axis of an [a, b, c] array at a row, as a fold of max, is the general
  lemma of LibLastAxis3.lean, re-exported here.)
-/
import Idealize.ShloMosaic.PureOps.Ideal.Laws
import Idealize.ShloMosaic.Lib.Pipeline.Value
import Idealize.ShloMosaic.Lib.ValueIdx
import proofs.«181537_j23003844837560_2_alg».proof.Proof.Spec
import proofs.«181537_j23003844837560_2_alg».proof.Proof.LibLastAxis3

noncomputable section

open scoped BigOperators

namespace Cert.RefRows

open Idealize.ShloMosaic Idealize.ShloMosaic.ValueIdx Cert.AttnSpec OnlineSoftmax

/-- A position of a row of 4096 is a (tile, column) pair of 8 tiles of 512 columns. -/
def colEquiv : Fin 8 × Fin 512 ≃ Fin 4096 where
  toFun p := col p.1 p.2
  invFun t := (⟨t.val / 512, by have := t.isLt; omega⟩, ⟨t.val % 512, Nat.mod_lt _ (by norm_num)⟩)
  left_inv p := by
    obtain ⟨j, c⟩ := p
    have := j.isLt
    have := c.isLt
    refine Prod.ext (Fin.ext ?_) (Fin.ext ?_) <;> simp only [col_val] <;> omega
  right_inv t := by
    apply Fin.ext
    simp only [col_val]
    omega

theorem colEquiv_apply (j : Fin 8) (c : Fin 512) : colEquiv (j, c) = col j c := rfl

/-- A sum over the 4096 positions is the sum over the tiles of the sums over the columns of a tile. -/
theorem sum_cols {M : Type*} [AddCommMonoid M] (f : Fin 4096 → M) :
    ∑ t : Fin 4096, f t = ∑ j : Fin 8, ∑ c : Fin 512, f (col j c) := by
  rw [← Equiv.sum_comp colEquiv f, Fintype.sum_prod_type]
  rfl

/-- The maximum over the 4096 positions (joined with the initial −∞) is the whole-row maximum by tiles. -/
theorem max_cols (f : Fin 4096 → EReal) :
    max ⊥ ((Finset.univ : Finset (Fin 4096)).fold max ⊥ f) = refMax (T := 8) (W := 512) (fun j c => f (col j c)) := by
  refine eq_of_forall_ge_iff fun x => ?_
  rw [refMax_le, max_le_iff, Finset.fold_max_le]
  constructor
  · rintro ⟨_, _, h⟩ j c
    exact h _ (Finset.mem_univ _)
  · intro h
    refine ⟨bot_le, bot_le, fun t _ => ?_⟩
    have := h (colEquiv.symm t).1 (colEquiv.symm t).2
    rwa [show col (colEquiv.symm t).1 (colEquiv.symm t).2 = t from colEquiv.apply_symm_apply t] at this

export LastAxis3 (lift_last3 hostReduce_max_row3)

end Cert.RefRows

end
-- ==== Proof.RefValue.lean ====
/-
  The reference program's result is the specification: causal attention of the seven launch arrays.

  Each stage of the reference is read at a coordinate. The three projections are Σ_e x(b,s,e)·W(a,e) + β(a). The
  score of query position s against key position t is the dot product of the two projected 64-vectors divided by
  √64 = 8, that is, multiplied by 1/8; the mask keeps it where t ≤ s (the signed comparison of the two position
  words) and puts −∞ elsewhere. The row maximum over the 4096 key positions joined with −∞, the row sum of the
  exponentials from 0, and the final contraction with the values are regrouped into 8 tiles of 512 columns: the sums
  by associativity and commutativity of +, the maximum because both forms have the same upper bounds. No
  finiteness of the inputs is used.
-/
import proofs.«181537_j23003844837560_2_alg».proof.Proof.Gen.ReferenceIdeal.Read
import proofs.«181537_j23003844837560_2_alg».proof.Proof.Spec
import proofs.«181537_j23003844837560_2_alg».proof.Proof.RefScale
import proofs.«181537_j23003844837560_2_alg».proof.Proof.RefRows

noncomputable section

open scoped BigOperators

namespace Cert.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.AttnSpec OnlineSoftmax

/-- The types of the tokens, of a projection matrix and of a bias, as the reference's stages take them. -/
abbrev B3 : Type := (⟨S4x4096x1024, .f32⟩ : BufTy).Contents (Elt Ideal)
abbrev BW : Type := (⟨S64x1024, .f32⟩ : BufTy).Contents (Elt Ideal)
abbrev Bb : Type := (⟨S64, .f32⟩ : BufTy).Contents (Elt Ideal)

local macro "idx3" : tactic => `(tactic| (funext d; match d with | ⟨0, _⟩ => rfl | ⟨1, _⟩ => rfl | ⟨2, _⟩ => rfl))
local macro "idx2" : tactic => `(tactic| (funext d; match d with | ⟨0, _⟩ => rfl | ⟨1, _⟩ => rfl))
local macro "idx1" : tactic => `(tactic| (funext d; match d with | ⟨0, _⟩ => rfl))

/-! ## The three projections at a coordinate -/

theorem v3_at (x0 : B3) (x1 : BW) (x2 : Bb) (b : Fin 4) (s : Fin 4096) (a : Fin 64) :
    val_main_v3 (F := Ideal) x0 x1 x2 (ix3 b s a) = proj x0 x1 x2 b s a := by
  rw [val_main_v3_apply, val_main_v0_apply, val_main_v2_apply, val_main_v1_apply, Ideal.addf_def]
  unfold proj
  refine congrArg₂ (· + ·) (Finset.sum_congr rfl fun k _ => ?_) ?_
  · exact congrArg₂ (· * ·) (congrArg x0 (by idx3)) (congrArg x1 (by idx2))
  · exact congrArg x2 (by idx1)

theorem v7_at (x0 : B3) (x3 : BW) (x4 : Bb) (b : Fin 4) (s : Fin 4096) (a : Fin 64) :
    val_main_v7 (F := Ideal) x0 x3 x4 (ix3 b s a) = proj x0 x3 x4 b s a := by
  rw [val_main_v7_apply, val_main_v4_apply, val_main_v6_apply, val_main_v5_apply, Ideal.addf_def]
  unfold proj
  refine congrArg₂ (· + ·) (Finset.sum_congr rfl fun k _ => ?_) ?_
  · exact congrArg₂ (· * ·) (congrArg x0 (by idx3)) (congrArg x3 (by idx2))
  · exact congrArg x4 (by idx1)

theorem v11_at (x0 : B3) (x5 : BW) (x6 : Bb) (b : Fin 4) (s : Fin 4096) (a : Fin 64) :
    val_main_v11 (F := Ideal) x0 x5 x6 (ix3 b s a) = proj x0 x5 x6 b s a := by
  rw [val_main_v11_apply, val_main_v8_apply, val_main_v10_apply, val_main_v9_apply, Ideal.addf_def]
  unfold proj
  refine congrArg₂ (· + ·) (Finset.sum_congr rfl fun k _ => ?_) ?_
  · exact congrArg₂ (· * ·) (congrArg x0 (by idx3)) (congrArg x5 (by idx2))
  · exact congrArg x6 (by idx1)

/-! ## The scaled, masked scores -/

section Scores
variable (x0 : B3) (x1 : BW) (x2 : Bb) (x3 : BW) (x4 : Bb)

theorem v12_at (b : Fin 4) (s t : Fin 4096) :
    val_main_v12 (F := Ideal) x0 x1 x2 x3 x4 (ix3 b s t)
      = ∑ a : Fin 64, proj x0 x1 x2 b s a * proj x0 x3 x4 b t a := by
  rw [val_main_v12_apply]
  refine Finset.sum_congr rfl fun k _ => ?_
  rw [show lidx_main_v12 (ix3 b s t) k = ix3 b s k by idx3,
    show ridx_main_v12 (ix3 b s t) k = ix3 b t k by idx3, v3_at, v7_at]

theorem v15_at (b : Fin 4) (s t : Fin 4096) :
    val_main_v15 (F := Ideal) x0 x1 x2 x3 x4 (ix3 b s t)
      = (∑ a : Fin 64, proj x0 x1 x2 b s a * proj x0 x3 x4 b t a) * ((1 / 8 : ℝ) : EReal) := by
  rw [val_main_v15_apply, val_main_v14_apply, val_main_v13_apply, val_main_cst_apply, v12_at]
  exact Cert.RefScale.div_sqrt64 _

theorem mask_at (b : Fin 4) (s t : Fin 4096) :
    val_main_call1_v1 (F := Ideal) (ix3 b s t) = if t.val ≤ s.val then 1#1 else 0#1 := by
  rw [val_main_call1_v1_apply, val_main_v17_apply, val_main_call0_v4_apply, val_main_call0_v2_apply,
    val_main_call0_v0_apply, val_main_call0_v1_apply, val_main_call0_c_apply, val_main_call0_v3_apply,
    val_main_v16_apply, val_main_c_apply, val_main_call0_v5_apply, val_main_call0_c_0_apply]
  show Scalar.select (IntOp.cmpi .sge (IntOp.addi (BitVec.ofNat 32 s.val) 0#32) (BitVec.ofNat 32 t.val)) 1#1 0#1 = _
  rw [Cert.RefScale.causal_bit]
  by_cases h : t.val ≤ s.val
  · rw [if_pos h, select_one]
  · rw [if_neg h, select_zero]

theorem v18_at (b : Fin 4) (s t : Fin 4096) :
    val_main_v18 (F := Ideal) x0 x1 x2 x3 x4 (ix3 b s t)
      = mscore (proj x0 x1 x2 b) (proj x0 x3 x4 b) s t := by
  rw [val_main_v18_apply, mask_at, v15_at, val_main_call1_v2_apply, val_main_call1_v0_apply, val_main_cst_0_apply]
  unfold mscore
  by_cases h : t.val ≤ s.val
  · rw [if_pos h, if_pos h, select_one]
  · rw [if_neg h, if_neg h, select_zero]
    exact Cert.RefScale.ofBits_negInf

/-! ## The row statistics and the weights -/

theorem reduces_d2 : S4x4096x4096.Reduces [2] S4x4096 := by decide

theorem v19_at (b : Fin 4) (s : Fin 4096) :
    val_main_v19 (F := Ideal) x0 x1 x2 x3 x4 (ix2 b s)
      = (Finset.univ : Finset (Fin 4096)).fold max ⊥
          fun t => mscore (proj x0 x1 x2 b) (proj x0 x3 x4 b) s t := by
  unfold val_main_v19
  refine (Cert.RefRows.hostReduce_max_row3 _ _ _ reduces_d2 _ b s).trans ?_
  have h0 : val_main_cst_1 (F := Ideal) (Shape.Idx.first h_S_) = ⊥ := Cert.RefScale.ofBits_negInf
  have hf : (fun k : Fin 4096 => val_main_v18 (F := Ideal) x0 x1 x2 x3 x4 (ix3 b s k))
      = fun t => mscore (proj x0 x1 x2 b) (proj x0 x3 x4 b) s t := funext fun t => v18_at x0 x1 x2 x3 x4 b s t
  rw [h0, hf]

theorem v21_at (b : Fin 4) (s : Fin 4096) :
    val_main_v21 (F := Ideal) x0 x1 x2 x3 x4 (ix2 b s)
      = refMax (T := 8) (W := 512) (fun j c => mscore (proj x0 x1 x2 b) (proj x0 x3 x4 b) s (col j c)) := by
  rw [val_main_v21_apply, val_main_v20_apply, val_main_cst_2_apply, v19_at]
  show max (Ideal.ofBits .f32 0xFF800000#32) _ = _
  rw [Cert.RefScale.ofBits_negInf]
  exact Cert.RefRows.max_cols _

theorem v23_at (b : Fin 4) (s t : Fin 4096) :
    val_main_v23 (F := Ideal) x0 x1 x2 x3 x4 (ix3 b s t)
      = refMax (T := 8) (W := 512) (fun j c => mscore (proj x0 x1 x2 b) (proj x0 x3 x4 b) s (col j c)) := by
  rw [val_main_v23_apply, val_main_v22_apply,
    show idx_main_v22 (idx_main_v23 (ix3 b s t)) = ix2 b s by idx2, v21_at]

theorem v25_at (b : Fin 4) (s t : Fin 4096) :
    val_main_v25 (F := Ideal) x0 x1 x2 x3 x4 (ix3 b s t)
      = Ideal.exp (mscore (proj x0 x1 x2 b) (proj x0 x3 x4 b) s t
          - refMax (T := 8) (W := 512) (fun j c => mscore (proj x0 x1 x2 b) (proj x0 x3 x4 b) s (col j c))) := by
  rw [val_main_v25_apply, val_main_v24_apply, v18_at, v23_at]
  rfl

theorem v26_at (b : Fin 4) (s : Fin 4096) :
    val_main_v26 (F := Ideal) x0 x1 x2 x3 x4 (ix2 b s)
      = refDen (T := 8) (W := 512) (fun j c => mscore (proj x0 x1 x2 b) (proj x0 x3 x4 b) s (col j c)) := by
  rw [val_main_v26_apply]
  unfold refDen
  refine congrArg₂ (· + ·) Cert.RefScale.ofBits_zero ?_
  rw [Cert.RefRows.sum_cols]
  refine Finset.sum_congr rfl fun j _ => Finset.sum_congr rfl fun c _ => ?_
  rw [show idx_main_v26 (ix2 b s) (col j c) = ix3 b s (col j c) by idx3, v25_at]

theorem v29_at (b : Fin 4) (s t : Fin 4096) :
    val_main_v29 (F := Ideal) x0 x1 x2 x3 x4 (ix3 b s t)
      = Ideal.div (Ideal.exp (mscore (proj x0 x1 x2 b) (proj x0 x3 x4 b) s t
          - refMax (T := 8) (W := 512) (fun j c => mscore (proj x0 x1 x2 b) (proj x0 x3 x4 b) s (col j c))))
        (refDen (T := 8) (W := 512) (fun j c => mscore (proj x0 x1 x2 b) (proj x0 x3 x4 b) s (col j c))) := by
  rw [val_main_v29_apply, v25_at, val_main_v28_apply, val_main_v27_apply,
    show idx_main_v27 (idx_main_v28 (ix3 b s t)) = ix2 b s by idx2, v26_at]
  rfl

end Scores

/-! ## The output -/

theorem v30_at (x0 : B3) (x1 : BW) (x2 : Bb) (x3 : BW) (x4 : Bb) (x5 : BW) (x6 : Bb)
    (b : Fin 4) (s : Fin 4096) (a : Fin 64) :
    val_main_v30 (F := Ideal) x0 x1 x2 x3 x4 x5 x6 (ix3 b s a) = attnAt x0 x1 x2 x3 x4 x5 x6 b s a := by
  rw [val_main_v30_apply]
  unfold attnAt attnRow
  rw [refOut_eq, Cert.RefRows.sum_cols]
  refine Finset.sum_congr rfl fun j _ => Finset.sum_congr rfl fun c _ => ?_
  rw [show lidx_main_v30 (ix3 b s a) (col j c) = ix3 b s (col j c) by idx3,
    show ridx_main_v30 (ix3 b s a) (col j c) = ix3 b (col j c) a by idx3, v29_at, v11_at]

/-- The reference's result is causal attention of the seven launch arrays. -/
theorem res_is_attn (m : (ℓ : Loc nD τ sig) → Buf (Elt Ideal) ℓ) (c : Dev nD) :
    Cert.ReferenceIdeal.Value.res_main_v30 (F := Ideal) m c
      = attn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  rw [val_main_v30_eq]
  funext i
  obtain ⟨b, s, a, rfl⟩ : ∃ (b : Fin 4) (s : Fin 4096) (a : Fin 64), i = ix3 b s a :=
    ⟨i 0, i 1, i 2, eq_ix3 i⟩
  rw [v30_at, attn_ix3]

end Cert.RefValue

end
-- ==== Proof.lean ====
/-
  Causal single-head attention: a two-region kernel program against a whole-row softmax reference.

  The kernel program projects the tokens to queries, keys and values in one region (one matrix product against
  the three weight matrices laid side by side, plus the three biases laid side by side) and, in a second region,
  computes causal attention block by block: for a block of 512 query rows it visits only the key tiles that are not
  entirely in the future, keeping a running maximum, a running denominator and a running numerator per row (each
  tile rescales the old denominator and numerator by `exp (old maximum − new maximum)`), and stores numerator over
  denominator. Masked scores and the initial maximum are a large negative literal NAMED `−∞` at the ideal instance.
  The reference computes all 4096 × 4096 scores, divides by `√64`, masks with `−∞`, and applies the whole-row softmax.

  At the ideal instance both are ONE function of the seven argument arrays, `Cert.AttnSpec.attn` (Proof/Spec.lean):
  * the reference's term is that function, operation by operation (Proof/RefValue.lean): division by `√64 = 8` is the
    product with `1/8` on every extended real, the sums and maxima over 4096 positions are regrouped into 8 tiles of 512;
  * the kernel program's run (Proof/KI/Run.lean: the two regions as segments of one launch) leaves the result at the
    attention pipeline's output array; each block of it is the running form after the visited tiles
    (Proof/KI/AttnChainCases.lean, Proof/KI/ChainRun.lean), which equals the whole-row form because the inputs are
    finite: the running maximum is real after the first tile (its first column is never masked), `exp (−∞ − real) = 0`,
    and a positive real denominator distributes over the sum (Proof/LibOnlineSoftmax.lean, Proof/RowLaw.lean);
    the queries, keys and values it reads are the projection region's output arrays (Proof/KI/ProjValue.lean).
  The three frames are the runs with the results forgotten; `preserves` is the named constant's statement, nine times.
-/
import proofs.«181537_j23003844837560_2_alg».proof.Defs
import proofs.«181537_j23003844837560_2_alg».proof.Proof.Gen.Kernel
import proofs.«181537_j23003844837560_2_alg».proof.Proof.Gen.KernelIdeal
import proofs.«181537_j23003844837560_2_alg».proof.Proof.Gen.ReferenceIdeal
import proofs.«181537_j23003844837560_2_alg».proof.Proof.Gen.ReferenceIdeal.Run
import proofs.«181537_j23003844837560_2_alg».proof.Proof.Gen.ReferenceIdeal.Read
import proofs.«181537_j23003844837560_2_alg».proof.Proof.Gen.Pre_finite_inputs
import proofs.«181537_j23003844837560_2_alg».proof.Proof.K.Run
import proofs.«181537_j23003844837560_2_alg».proof.Proof.KI.Run
import proofs.«181537_j23003844837560_2_alg».proof.Proof.KI.KernelValue
import proofs.«181537_j23003844837560_2_alg».proof.Proof.RefValue
import Idealize.ShloMosaic.Adequacy
import Idealize.ShloMosaic.Init

noncomputable section

namespace Cert.Proof

open Idealize.ShloMosaic Idealize.SL.Sem

/-- The word-level program runs and leaves its arguments unchanged. -/
theorem frame_p : Cert.frame_Kernel (hKernel := Cert.Kernel.Gen.facts) (hPre_finite_inputs := Cert.Pre_finite_inputs.Gen.facts) :=
  fun m ρ _ => Cert.Kernel.Hand.frame m ρ

/-- So does its idealization. -/
theorem frame_pi : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The large negative literal is named `−∞`: the table gives the name that value, at each of its nine sites. -/
theorem neg_big : IdealRules.named_const.Statement Cert.KernelIdeal.κ "neg_big" .f32 0xFF333332#32 ⊥ :=
  IdealRules.named_const.statement Cert.KernelIdeal.κ "neg_big" .f32 0xFF333332#32 ⊥ rfl

theorem preserves : Cert.preserves_Kernel_KernelIdeal :=
  ⟨neg_big, neg_big, neg_big, neg_big, neg_big, neg_big, neg_big, neg_big, neg_big⟩

/-- From finite inputs agreeing on the arguments, both idealized programs end with the attention function of the
    arguments in their result buffers. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.AttnSpec.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.kernel_value m hpre c), (h c).2⟩)
      (Cert.KernelIdeal.Hand.run_full (F := Ideal) m ρ)
  · refine (θ_run Cert.ReferenceIdeal.defs _ _).mono (fun _ h c => ⟨(h c).1.trans ?_, (h c).2⟩)
      (Cert.ReferenceIdeal.Value.run (F := Ideal) m' ρ')
    rw [Cert.RefValue.res_is_attn, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
